-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x4 : Shape := ⟨2, ![16384, 4]⟩
abbrev S16384x1 : Shape := ⟨2, ![16384, 1]⟩
abbrev S16x128x3 : Shape := ⟨3, ![16, 128, 3]⟩
abbrev S16x128 : Shape := ⟨2, ![16, 128]⟩
abbrev S16x128x128 : Shape := ⟨3, ![16, 128, 128]⟩
abbrev S16x3x128 : Shape := ⟨3, ![16, 3, 128]⟩
abbrev S16x3 : Shape := ⟨2, ![16, 3]⟩
abbrev S16x128x4 : Shape := ⟨3, ![16, 128, 4]⟩
abbrev S16x4x128 : Shape := ⟨3, ![16, 4, 128]⟩
abbrev S16x4 : Shape := ⟨2, ![16, 4]⟩
abbrev S16x128x1 : Shape := ⟨3, ![16, 128, 1]⟩
abbrev S16x1x128 : Shape := ⟨3, ![16, 1, 128]⟩
abbrev S16x1 : Shape := ⟨2, ![16, 1]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x4 : S_.BroadcastsInDim S16384x4 (![] : Fin 0 → Fin S16384x4.rank)
  reducesTo_S16384x4_S_d0_1 : S16384x4.ReducesTo [0, 1] S_
  bcast_S_S16384x1 : S_.BroadcastsInDim S16384x1 (![] : Fin 0 → Fin S16384x1.rank)
  reducesTo_S16384x1_S_d0_1 : S16384x1.ReducesTo [0, 1] S_
  bcast_S_S16x128x3 : S_.BroadcastsInDim S16x128x3 (![] : Fin 0 → Fin S16x128x3.rank)
  reducesTo_S16x128x3_S_d0_1_2 : S16x128x3.ReducesTo [0, 1, 2] S_
  bcast_S_S16x128 : S_.BroadcastsInDim S16x128 (![] : Fin 0 → Fin S16x128.rank)
  reducesTo_S16x128_S_d0_1 : S16x128.ReducesTo [0, 1] S_
  bcast_S_S16x128x128 : S_.BroadcastsInDim S16x128x128 (![] : Fin 0 → Fin S16x128x128.rank)
  reducesTo_S16x128x128_S_d0_1_2 : S16x128x128.ReducesTo [0, 1, 2] S_
  bcast_S_S16x3x128 : S_.BroadcastsInDim S16x3x128 (![] : Fin 0 → Fin S16x3x128.rank)
  reducesTo_S16x3x128_S_d0_1_2 : S16x3x128.ReducesTo [0, 1, 2] S_
  bcast_S_S16x3 : S_.BroadcastsInDim S16x3 (![] : Fin 0 → Fin S16x3.rank)
  reducesTo_S16x3_S_d0_1 : S16x3.ReducesTo [0, 1] S_
  bcast_S_S16x128x4 : S_.BroadcastsInDim S16x128x4 (![] : Fin 0 → Fin S16x128x4.rank)
  reducesTo_S16x128x4_S_d0_1_2 : S16x128x4.ReducesTo [0, 1, 2] S_
  bcast_S_S16x4x128 : S_.BroadcastsInDim S16x4x128 (![] : Fin 0 → Fin S16x4x128.rank)
  reducesTo_S16x4x128_S_d0_1_2 : S16x4x128.ReducesTo [0, 1, 2] S_
  bcast_S_S16x4 : S_.BroadcastsInDim S16x4 (![] : Fin 0 → Fin S16x4.rank)
  reducesTo_S16x4_S_d0_1 : S16x4.ReducesTo [0, 1] S_
  bcast_S_S16x128x1 : S_.BroadcastsInDim S16x128x1 (![] : Fin 0 → Fin S16x128x1.rank)
  reducesTo_S16x128x1_S_d0_1_2 : S16x128x1.ReducesTo [0, 1, 2] S_
  bcast_S_S16x1x128 : S_.BroadcastsInDim S16x1x128 (![] : Fin 0 → Fin S16x1x128.rank)
  reducesTo_S16x1x128_S_d0_1_2 : S16x1x128.ReducesTo [0, 1, 2] S_
  bcast_S_S16x1 : S_.BroadcastsInDim S16x1 (![] : Fin 0 → Fin S16x1.rank)
  reducesTo_S16x1_S_d0_1 : S16x1.ReducesTo [0, 1] S_

variable [Facts]

def fn_part10 {F : FTy → Type} [FloatOps F] (main_v168 : IVec S_ 1) (main_v169 : FVec F S16x1 .f32) (main_v170 : FVec F S16x1 .f32) : IVec S_ 1 :=
  let main_v171 : IVec S16x1 1 := cmpf .olt main_v169 main_v170
  let main_c_67 : IVec S_ 1 := constantI S_ 1 1#1
  let main_v172 : IVec S_ 1 := (fun x v => Host.reduce IntOp.andi x v reducesTo_S16x1_S_d0_1 h_S_) main_v171 main_c_67
  let main_v173 : IVec S_ 1 := andi main_v168 main_v172
  main_v173

def fn_part9 {F : FTy → Type} [FloatOps F] (main_arg31 : FVec F S16x128x128 .f32) (main_arg32 : FVec F S16x128 .f32) (main_arg33 : FVec F S16x1x128 .f32) (main_arg34 : FVec F S16x1 .f32) (main_v153 : IVec S_ 1) : IVec S_ 1 :=
  let main_v154 : FVec F S16x128x128 .f32 := Host.absf main_arg31
  let main_cst_60 : FVec F S_ .f32 := constant S_ .f32 0x7F800000#32
  let main_v155 : FVec F S16x128x128 .f32 := broadcastInDim S16x128x128 ![] bcast_S_S16x128x128 main_cst_60
  let main_v156 : IVec S16x128x128 1 := cmpf .olt main_v154 main_v155
  let main_c_61 : IVec S_ 1 := constantI S_ 1 1#1
  let main_v157 : IVec S_ 1 := (fun x v => Host.reduce IntOp.andi x v reducesTo_S16x128x128_S_d0_1_2 h_S_) main_v156 main_c_61
  let main_v158 : IVec S_ 1 := andi main_v153 main_v157
  let main_v159 : FVec F S16x128 .f32 := Host.absf main_arg32
  let main_cst_62 : FVec F S_ .f32 := constant S_ .f32 0x7F800000#32
  let main_v160 : FVec F S16x128 .f32 := broadcastInDim S16x128 ![] bcast_S_S16x128 main_cst_62
  let main_v161 : IVec S16x128 1 := cmpf .olt main_v159 main_v160
  let main_c_63 : IVec S_ 1 := constantI S_ 1 1#1
  let main_v162 : IVec S_ 1 := (fun x v => Host.reduce IntOp.andi x v reducesTo_S16x128_S_d0_1 h_S_) main_v161 main_c_63
  let main_v163 : IVec S_ 1 := andi main_v158 main_v162
  let main_v164 : FVec F S16x1x128 .f32 := Host.absf main_arg33
  let main_cst_64 : FVec F S_ .f32 := constant S_ .f32 0x7F800000#32
  let main_v165 : FVec F S16x1x128 .f32 := broadcastInDim S16x1x128 ![] bcast_S_S16x1x128 main_cst_64
  let main_v166 : IVec S16x1x128 1 := cmpf .olt main_v164 main_v165
  let main_c_65 : IVec S_ 1 := constantI S_ 1 1#1
  let main_v167 : IVec S_ 1 := (fun x v => Host.reduce IntOp.andi x v reducesTo_S16x1x128_S_d0_1_2 h_S_) main_v166 main_c_65
  let main_v168 : IVec S_ 1 := andi main_v163 main_v167
  let main_v169 : FVec F S16x1 .f32 := Host.absf main_arg34
  let main_cst_66 : FVec F S_ .f32 := constant S_ .f32 0x7F800000#32
  let main_v170 : FVec F S16x1 .f32 := broadcastInDim S16x1 ![] bcast_S_S16x1 main_cst_66
  fn_part10 (F := F) main_v168 main_v169 main_v170

def fn_part8 {F : FTy → Type} [FloatOps F] (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v133 : IVec S_ 1) (main_v136 : IVec S16x4x128 1) : IVec S_ 1 :=
  let main_c_53 : IVec S_ 1 := constantI S_ 1 1#1
  let main_v137 : IVec S_ 1 := (fun x v => Host.reduce IntOp.andi x v reducesTo_S16x4x128_S_d0_1_2 h_S_) main_v136 main_c_53
  let main_v138 : IVec S_ 1 := andi main_v133 main_v137
  let main_v139 : FVec F S16x4 .f32 := Host.absf main_arg28
  let main_cst_54 : FVec F S_ .f32 := constant S_ .f32 0x7F800000#32
  let main_v140 : FVec F S16x4 .f32 := broadcastInDim S16x4 ![] bcast_S_S16x4 main_cst_54
  let main_v141 : IVec S16x4 1 := cmpf .olt main_v139 main_v140
  let main_c_55 : IVec S_ 1 := constantI S_ 1 1#1
  let main_v142 : IVec S_ 1 := (fun x v => Host.reduce IntOp.andi x v reducesTo_S16x4_S_d0_1 h_S_) main_v141 main_c_55
  let main_v143 : IVec S_ 1 := andi main_v138 main_v142
  let main_v144 : FVec F S16x128x1 .f32 := Host.absf main_arg29
  let main_cst_56 : FVec F S_ .f32 := constant S_ .f32 0x7F800000#32
  let main_v145 : FVec F S16x128x1 .f32 := broadcastInDim S16x128x1 ![] bcast_S_S16x128x1 main_cst_56
  let main_v146 : IVec S16x128x1 1 := cmpf .olt main_v144 main_v145
  let main_c_57 : IVec S_ 1 := constantI S_ 1 1#1
  let main_v147 : IVec S_ 1 := (fun x v => Host.reduce IntOp.andi x v reducesTo_S16x128x1_S_d0_1_2 h_S_) main_v146 main_c_57
  let main_v148 : IVec S_ 1 := andi main_v143 main_v147
  let main_v149 : FVec F S16x128 .f32 := Host.absf main_arg30
  let main_cst_58 : FVec F S_ .f32 := constant S_ .f32 0x7F800000#32
  let main_v150 : FVec F S16x128 .f32 := broadcastInDim S16x128 ![] bcast_S_S16x128 main_cst_58
  let main_v151 : IVec S16x128 1 := cmpf .olt main_v149 main_v150
  let main_c_59 : IVec S_ 1 := constantI S_ 1 1#1
  let main_v152 : IVec S_ 1 := (fun x v => Host.reduce IntOp.andi x v reducesTo_S16x128_S_d0_1 h_S_) main_v151 main_c_59
  let main_v153 : IVec S_ 1 := andi main_v148 main_v152
  fn_part9 (F := F) main_arg31 main_arg32 main_arg33 main_arg34 main_v153

def fn_part7 {F : FTy → Type} [FloatOps F] (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v118 : IVec S_ 1) (main_v119 : FVec F S16x128 .f32) : IVec S_ 1 :=
  let main_cst_46 : FVec F S_ .f32 := constant S_ .f32 0x7F800000#32
  let main_v120 : FVec F S16x128 .f32 := broadcastInDim S16x128 ![] bcast_S_S16x128 main_cst_46
  let main_v121 : IVec S16x128 1 := cmpf .olt main_v119 main_v120
  let main_c_47 : IVec S_ 1 := constantI S_ 1 1#1
  let main_v122 : IVec S_ 1 := (fun x v => Host.reduce IntOp.andi x v reducesTo_S16x128_S_d0_1 h_S_) main_v121 main_c_47
  let main_v123 : IVec S_ 1 := andi main_v118 main_v122
  let main_v124 : FVec F S16x128x128 .f32 := Host.absf main_arg25
  let main_cst_48 : FVec F S_ .f32 := constant S_ .f32 0x7F800000#32
  let main_v125 : FVec F S16x128x128 .f32 := broadcastInDim S16x128x128 ![] bcast_S_S16x128x128 main_cst_48
  let main_v126 : IVec S16x128x128 1 := cmpf .olt main_v124 main_v125
  let main_c_49 : IVec S_ 1 := constantI S_ 1 1#1
  let main_v127 : IVec S_ 1 := (fun x v => Host.reduce IntOp.andi x v reducesTo_S16x128x128_S_d0_1_2 h_S_) main_v126 main_c_49
  let main_v128 : IVec S_ 1 := andi main_v123 main_v127
  let main_v129 : FVec F S16x128 .f32 := Host.absf main_arg26
  let main_cst_50 : FVec F S_ .f32 := constant S_ .f32 0x7F800000#32
  let main_v130 : FVec F S16x128 .f32 := broadcastInDim S16x128 ![] bcast_S_S16x128 main_cst_50
  let main_v131 : IVec S16x128 1 := cmpf .olt main_v129 main_v130
  let main_c_51 : IVec S_ 1 := constantI S_ 1 1#1
  let main_v132 : IVec S_ 1 := (fun x v => Host.reduce IntOp.andi x v reducesTo_S16x128_S_d0_1 h_S_) main_v131 main_c_51
  let main_v133 : IVec S_ 1 := andi main_v128 main_v132
  let main_v134 : FVec F S16x4x128 .f32 := Host.absf main_arg27
  let main_cst_52 : FVec F S_ .f32 := constant S_ .f32 0x7F800000#32
  let main_v135 : FVec F S16x4x128 .f32 := broadcastInDim S16x4x128 ![] bcast_S_S16x4x128 main_cst_52
  let main_v136 : IVec S16x4x128 1 := cmpf .olt main_v134 main_v135
  fn_part8 (F := F) main_arg28 main_arg29 main_arg30 main_arg31 main_arg32 main_arg33 main_arg34 main_v133 main_v136

def fn_part6 {F : FTy → Type} [FloatOps F] (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v98 : IVec S_ 1) (main_v101 : IVec S16x128 1) (main_c_39 : IVec S_ 1) : IVec S_ 1 :=
  let main_v102 : IVec S_ 1 := (fun x v => Host.reduce IntOp.andi x v reducesTo_S16x128_S_d0_1 h_S_) main_v101 main_c_39
  let main_v103 : IVec S_ 1 := andi main_v98 main_v102
  let main_v104 : FVec F S16x3x128 .f32 := Host.absf main_arg21
  let main_cst_40 : FVec F S_ .f32 := constant S_ .f32 0x7F800000#32
  let main_v105 : FVec F S16x3x128 .f32 := broadcastInDim S16x3x128 ![] bcast_S_S16x3x128 main_cst_40
  let main_v106 : IVec S16x3x128 1 := cmpf .olt main_v104 main_v105
  let main_c_41 : IVec S_ 1 := constantI S_ 1 1#1
  let main_v107 : IVec S_ 1 := (fun x v => Host.reduce IntOp.andi x v reducesTo_S16x3x128_S_d0_1_2 h_S_) main_v106 main_c_41
  let main_v108 : IVec S_ 1 := andi main_v103 main_v107
  let main_v109 : FVec F S16x3 .f32 := Host.absf main_arg22
  let main_cst_42 : FVec F S_ .f32 := constant S_ .f32 0x7F800000#32
  let main_v110 : FVec F S16x3 .f32 := broadcastInDim S16x3 ![] bcast_S_S16x3 main_cst_42
  let main_v111 : IVec S16x3 1 := cmpf .olt main_v109 main_v110
  let main_c_43 : IVec S_ 1 := constantI S_ 1 1#1
  let main_v112 : IVec S_ 1 := (fun x v => Host.reduce IntOp.andi x v reducesTo_S16x3_S_d0_1 h_S_) main_v111 main_c_43
  let main_v113 : IVec S_ 1 := andi main_v108 main_v112
  let main_v114 : FVec F S16x128x4 .f32 := Host.absf main_arg23
  let main_cst_44 : FVec F S_ .f32 := constant S_ .f32 0x7F800000#32
  let main_v115 : FVec F S16x128x4 .f32 := broadcastInDim S16x128x4 ![] bcast_S_S16x128x4 main_cst_44
  let main_v116 : IVec S16x128x4 1 := cmpf .olt main_v114 main_v115
  let main_c_45 : IVec S_ 1 := constantI S_ 1 1#1
  let main_v117 : IVec S_ 1 := (fun x v => Host.reduce IntOp.andi x v reducesTo_S16x128x4_S_d0_1_2 h_S_) main_v116 main_c_45
  let main_v118 : IVec S_ 1 := andi main_v113 main_v117
  let main_v119 : FVec F S16x128 .f32 := Host.absf main_arg24
  fn_part7 (F := F) main_arg25 main_arg26 main_arg27 main_arg28 main_arg29 main_arg30 main_arg31 main_arg32 main_arg33 main_arg34 main_v118 main_v119

def fn_part5 {F : FTy → Type} [FloatOps F] (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v83 : IVec S_ 1) (main_v84 : FVec F S16x128x3 .f32) (main_cst_32 : FVec F S_ .f32) : IVec S_ 1 :=
  let main_v85 : FVec F S16x128x3 .f32 := broadcastInDim S16x128x3 ![] bcast_S_S16x128x3 main_cst_32
  let main_v86 : IVec S16x128x3 1 := cmpf .olt main_v84 main_v85
  let main_c_33 : IVec S_ 1 := constantI S_ 1 1#1
  let main_v87 : IVec S_ 1 := (fun x v => Host.reduce IntOp.andi x v reducesTo_S16x128x3_S_d0_1_2 h_S_) main_v86 main_c_33
  let main_v88 : IVec S_ 1 := andi main_v83 main_v87
  let main_v89 : FVec F S16x128 .f32 := Host.absf main_arg18
  let main_cst_34 : FVec F S_ .f32 := constant S_ .f32 0x7F800000#32
  let main_v90 : FVec F S16x128 .f32 := broadcastInDim S16x128 ![] bcast_S_S16x128 main_cst_34
  let main_v91 : IVec S16x128 1 := cmpf .olt main_v89 main_v90
  let main_c_35 : IVec S_ 1 := constantI S_ 1 1#1
  let main_v92 : IVec S_ 1 := (fun x v => Host.reduce IntOp.andi x v reducesTo_S16x128_S_d0_1 h_S_) main_v91 main_c_35
  let main_v93 : IVec S_ 1 := andi main_v88 main_v92
  let main_v94 : FVec F S16x128x128 .f32 := Host.absf main_arg19
  let main_cst_36 : FVec F S_ .f32 := constant S_ .f32 0x7F800000#32
  let main_v95 : FVec F S16x128x128 .f32 := broadcastInDim S16x128x128 ![] bcast_S_S16x128x128 main_cst_36
  let main_v96 : IVec S16x128x128 1 := cmpf .olt main_v94 main_v95
  let main_c_37 : IVec S_ 1 := constantI S_ 1 1#1
  let main_v97 : IVec S_ 1 := (fun x v => Host.reduce IntOp.andi x v reducesTo_S16x128x128_S_d0_1_2 h_S_) main_v96 main_c_37
  let main_v98 : IVec S_ 1 := andi main_v93 main_v97
  let main_v99 : FVec F S16x128 .f32 := Host.absf main_arg20
  let main_cst_38 : FVec F S_ .f32 := constant S_ .f32 0x7F800000#32
  let main_v100 : FVec F S16x128 .f32 := broadcastInDim S16x128 ![] bcast_S_S16x128 main_cst_38
  let main_v101 : IVec S16x128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_v98 main_v101 main_c_39

def fn_part4 {F : FTy → Type} [FloatOps F] (main_arg14 : FVec F S16x128 .f32) (main_arg15 : FVec F S16x3x128 .f32) (main_arg16 : FVec F S16x3 .f32) (main_arg17 : FVec F S16x128x3 .f32) (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v63 : IVec S_ 1) (main_v67 : IVec S_ 1) : IVec S_ 1 :=
  let main_v68 : IVec S_ 1 := andi main_v63 main_v67
  let main_v69 : FVec F S16x128 .f32 := Host.absf main_arg14
  let main_cst_26 : FVec F S_ .f32 := constant S_ .f32 0x7F800000#32
  let main_v70 : FVec F S16x128 .f32 := broadcastInDim S16x128 ![] bcast_S_S16x128 main_cst_26
  let main_v71 : IVec S16x128 1 := cmpf .olt main_v69 main_v70
  let main_c_27 : IVec S_ 1 := constantI S_ 1 1#1
  let main_v72 : IVec S_ 1 := (fun x v => Host.reduce IntOp.andi x v reducesTo_S16x128_S_d0_1 h_S_) main_v71 main_c_27
  let main_v73 : IVec S_ 1 := andi main_v68 main_v72
  let main_v74 : FVec F S16x3x128 .f32 := Host.absf main_arg15
  let main_cst_28 : FVec F S_ .f32 := constant S_ .f32 0x7F800000#32
  let main_v75 : FVec F S16x3x128 .f32 := broadcastInDim S16x3x128 ![] bcast_S_S16x3x128 main_cst_28
  let main_v76 : IVec S16x3x128 1 := cmpf .olt main_v74 main_v75
  let main_c_29 : IVec S_ 1 := constantI S_ 1 1#1
  let main_v77 : IVec S_ 1 := (fun x v => Host.reduce IntOp.andi x v reducesTo_S16x3x128_S_d0_1_2 h_S_) main_v76 main_c_29
  let main_v78 : IVec S_ 1 := andi main_v73 main_v77
  let main_v79 : FVec F S16x3 .f32 := Host.absf main_arg16
  let main_cst_30 : FVec F S_ .f32 := constant S_ .f32 0x7F800000#32
  let main_v80 : FVec F S16x3 .f32 := broadcastInDim S16x3 ![] bcast_S_S16x3 main_cst_30
  let main_v81 : IVec S16x3 1 := cmpf .olt main_v79 main_v80
  let main_c_31 : IVec S_ 1 := constantI S_ 1 1#1
  let main_v82 : IVec S_ 1 := (fun x v => Host.reduce IntOp.andi x v reducesTo_S16x3_S_d0_1 h_S_) main_v81 main_c_31
  let main_v83 : IVec S_ 1 := andi main_v78 main_v82
  let main_v84 : FVec F S16x128x3 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg11 : FVec F S16x128x3 .f32) (main_arg12 : FVec F S16x128 .f32) (main_arg13 : FVec F S16x128x128 .f32) (main_arg14 : FVec F S16x128 .f32) (main_arg15 : FVec F S16x3x128 .f32) (main_arg16 : FVec F S16x3 .f32) (main_arg17 : FVec F S16x128x3 .f32) (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v48 : IVec S_ 1) (main_v49 : FVec F S16x3 .f32) (main_v50 : FVec F S16x3 .f32) : IVec S_ 1 :=
  let main_v51 : IVec S16x3 1 := cmpf .olt main_v49 main_v50
  let main_c_19 : IVec S_ 1 := constantI S_ 1 1#1
  let main_v52 : IVec S_ 1 := (fun x v => Host.reduce IntOp.andi x v reducesTo_S16x3_S_d0_1 h_S_) main_v51 main_c_19
  let main_v53 : IVec S_ 1 := andi main_v48 main_v52
  let main_v54 : FVec F S16x128x3 .f32 := Host.absf main_arg11
  let main_cst_20 : FVec F S_ .f32 := constant S_ .f32 0x7F800000#32
  let main_v55 : FVec F S16x128x3 .f32 := broadcastInDim S16x128x3 ![] bcast_S_S16x128x3 main_cst_20
  let main_v56 : IVec S16x128x3 1 := cmpf .olt main_v54 main_v55
  let main_c_21 : IVec S_ 1 := constantI S_ 1 1#1
  let main_v57 : IVec S_ 1 := (fun x v => Host.reduce IntOp.andi x v reducesTo_S16x128x3_S_d0_1_2 h_S_) main_v56 main_c_21
  let main_v58 : IVec S_ 1 := andi main_v53 main_v57
  let main_v59 : FVec F S16x128 .f32 := Host.absf main_arg12
  let main_cst_22 : FVec F S_ .f32 := constant S_ .f32 0x7F800000#32
  let main_v60 : FVec F S16x128 .f32 := broadcastInDim S16x128 ![] bcast_S_S16x128 main_cst_22
  let main_v61 : IVec S16x128 1 := cmpf .olt main_v59 main_v60
  let main_c_23 : IVec S_ 1 := constantI S_ 1 1#1
  let main_v62 : IVec S_ 1 := (fun x v => Host.reduce IntOp.andi x v reducesTo_S16x128_S_d0_1 h_S_) main_v61 main_c_23
  let main_v63 : IVec S_ 1 := andi main_v58 main_v62
  let main_v64 : FVec F S16x128x128 .f32 := Host.absf main_arg13
  let main_cst_24 : FVec F S_ .f32 := constant S_ .f32 0x7F800000#32
  let main_v65 : FVec F S16x128x128 .f32 := broadcastInDim S16x128x128 ![] bcast_S_S16x128x128 main_cst_24
  let main_v66 : IVec S16x128x128 1 := cmpf .olt main_v64 main_v65
  let main_c_25 : IVec S_ 1 := constantI S_ 1 1#1
  let main_v67 : IVec S_ 1 := (fun x v => Host.reduce IntOp.andi x v reducesTo_S16x128x128_S_d0_1_2 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg7 : FVec F S16x128x128 .f32) (main_arg8 : FVec F S16x128 .f32) (main_arg9 : FVec F S16x3x128 .f32) (main_arg10 : FVec F S16x3 .f32) (main_arg11 : FVec F S16x128x3 .f32) (main_arg12 : FVec F S16x128 .f32) (main_arg13 : FVec F S16x128x128 .f32) (main_arg14 : FVec F S16x128 .f32) (main_arg15 : FVec F S16x3x128 .f32) (main_arg16 : FVec F S16x3 .f32) (main_arg17 : FVec F S16x128x3 .f32) (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v33 : IVec S_ 1) : IVec S_ 1 :=
  let main_v34 : FVec F S16x128x128 .f32 := Host.absf main_arg7
  let main_cst_12 : FVec F S_ .f32 := constant S_ .f32 0x7F800000#32
  let main_v35 : FVec F S16x128x128 .f32 := broadcastInDim S16x128x128 ![] bcast_S_S16x128x128 main_cst_12
  let main_v36 : IVec S16x128x128 1 := cmpf .olt main_v34 main_v35
  let main_c_13 : IVec S_ 1 := constantI S_ 1 1#1
  let main_v37 : IVec S_ 1 := (fun x v => Host.reduce IntOp.andi x v reducesTo_S16x128x128_S_d0_1_2 h_S_) main_v36 main_c_13
  let main_v38 : IVec S_ 1 := andi main_v33 main_v37
  let main_v39 : FVec F S16x128 .f32 := Host.absf main_arg8
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S16x3x128 .f32 := Host.absf main_arg9
  let main_cst_16 : FVec F S_ .f32 := constant S_ .f32 0x7F800000#32
  let main_v45 : FVec F S16x3x128 .f32 := broadcastInDim S16x3x128 ![] bcast_S_S16x3x128 main_cst_16
  let main_v46 : IVec S16x3x128 1 := cmpf .olt main_v44 main_v45
  let main_c_17 : IVec S_ 1 := constantI S_ 1 1#1
  let main_v47 : IVec S_ 1 := (fun x v => Host.reduce IntOp.andi x v reducesTo_S16x3x128_S_d0_1_2 h_S_) main_v46 main_c_17
  let main_v48 : IVec S_ 1 := andi main_v43 main_v47
  let main_v49 : FVec F S16x3 .f32 := Host.absf main_arg10
  let main_cst_18 : FVec F S_ .f32 := constant S_ .f32 0x7F800000#32
  let main_v50 : FVec F S16x3 .f32 := broadcastInDim S16x3 ![] bcast_S_S16x3 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg4 : FVec F S16384x1 .f32) (main_arg5 : FVec F S16x128x3 .f32) (main_arg6 : FVec F S16x128 .f32) (main_arg7 : FVec F S16x128x128 .f32) (main_arg8 : FVec F S16x128 .f32) (main_arg9 : FVec F S16x3x128 .f32) (main_arg10 : FVec F S16x3 .f32) (main_arg11 : FVec F S16x128x3 .f32) (main_arg12 : FVec F S16x128 .f32) (main_arg13 : FVec F S16x128x128 .f32) (main_arg14 : FVec F S16x128 .f32) (main_arg15 : FVec F S16x3x128 .f32) (main_arg16 : FVec F S16x3 .f32) (main_arg17 : FVec F S16x128x3 .f32) (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) (main_v13 : IVec S_ 1) (main_v16 : IVec S16384x4 1) : IVec S_ 1 :=
  let main_c_5 : IVec S_ 1 := constantI S_ 1 1#1
  let main_v17 : IVec S_ 1 := (fun x v => Host.reduce IntOp.andi x v reducesTo_S16384x4_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S16x128x3 .f32 := Host.absf main_arg5
  let main_cst_8 : FVec F S_ .f32 := constant S_ .f32 0x7F800000#32
  let main_v25 : FVec F S16x128x3 .f32 := broadcastInDim S16x128x3 ![] bcast_S_S16x128x3 main_cst_8
  let main_v26 : IVec S16x128x3 1 := cmpf .olt main_v24 main_v25
  let main_c_9 : IVec S_ 1 := constantI S_ 1 1#1
  let main_v27 : IVec S_ 1 := (fun x v => Host.reduce IntOp.andi x v reducesTo_S16x128x3_S_d0_1_2 h_S_) main_v26 main_c_9
  let main_v28 : IVec S_ 1 := andi main_v23 main_v27
  let main_v29 : FVec F S16x128 .f32 := Host.absf main_arg6
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S16384x3 .f32) (main_arg1 : FVec F S16384x3 .f32) (main_arg2 : FVec F S16384x3 .f32) (main_arg3 : FVec F S16384x4 .f32) (main_arg4 : FVec F S16384x1 .f32) (main_arg5 : FVec F S16x128x3 .f32) (main_arg6 : FVec F S16x128 .f32) (main_arg7 : FVec F S16x128x128 .f32) (main_arg8 : FVec F S16x128 .f32) (main_arg9 : FVec F S16x3x128 .f32) (main_arg10 : FVec F S16x3 .f32) (main_arg11 : FVec F S16x128x3 .f32) (main_arg12 : FVec F S16x128 .f32) (main_arg13 : FVec F S16x128x128 .f32) (main_arg14 : FVec F S16x128 .f32) (main_arg15 : FVec F S16x3x128 .f32) (main_arg16 : FVec F S16x3 .f32) (main_arg17 : FVec F S16x128x3 .f32) (main_arg18 : FVec F S16x128 .f32) (main_arg19 : FVec F S16x128x128 .f32) (main_arg20 : FVec F S16x128 .f32) (main_arg21 : FVec F S16x3x128 .f32) (main_arg22 : FVec F S16x3 .f32) (main_arg23 : FVec F S16x128x4 .f32) (main_arg24 : FVec F S16x128 .f32) (main_arg25 : FVec F S16x128x128 .f32) (main_arg26 : FVec F S16x128 .f32) (main_arg27 : FVec F S16x4x128 .f32) (main_arg28 : FVec F S16x4 .f32) (main_arg29 : FVec F S16x128x1 .f32) (main_arg30 : FVec F S16x128 .f32) (main_arg31 : FVec F S16x128x128 .f32) (main_arg32 : FVec F S16x128 .f32) (main_arg33 : FVec F S16x1x128 .f32) (main_arg34 : FVec F S16x1 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384x3 .f32 := Host.absf main_arg2
  let main_cst_2 : FVec F S_ .f32 := constant S_ .f32 0x7F800000#32
  let main_v10 : FVec F S16384x3 .f32 := broadcastInDim S16384x3 ![] bcast_S_S16384x3 main_cst_2
  let main_v11 : IVec S16384x3 1 := cmpf .olt main_v9 main_v10
  let main_c_3 : IVec S_ 1 := constantI S_ 1 1#1
  let main_v12 : IVec S_ 1 := (fun x v => Host.reduce IntOp.andi x v reducesTo_S16384x3_S_d0_1 h_S_) main_v11 main_c_3
  let main_v13 : IVec S_ 1 := andi main_v8 main_v12
  let main_v14 : FVec F S16384x4 .f32 := Host.absf main_arg3
  let main_cst_4 : FVec F S_ .f32 := constant S_ .f32 0x7F800000#32
  let main_v15 : FVec F S16384x4 .f32 := broadcastInDim S16384x4 ![] bcast_S_S16384x4 main_cst_4
  let main_v16 : IVec S16384x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S16384x3 : Shape := ⟨2, ![16384, 3]⟩
abbrev S16384x4 : Shape := ⟨2, ![16384, 4]⟩
abbrev S16384x1 : Shape := ⟨2, ![16384, 1]⟩
abbrev S16x128x3 : Shape := ⟨3, ![16, 128, 3]⟩
abbrev S16x128 : Shape := ⟨2, ![16, 128]⟩
abbrev S16x128x128 : Shape := ⟨3, ![16, 128, 128]⟩
abbrev S16x3x128 : Shape := ⟨3, ![16, 3, 128]⟩
abbrev S16x3 : Shape := ⟨2, ![16, 3]⟩
abbrev S16x128x4 : Shape := ⟨3, ![16, 128, 4]⟩
abbrev S16x4x128 : Shape := ⟨3, ![16, 4, 128]⟩
abbrev S16x4 : Shape := ⟨2, ![16, 4]⟩
abbrev S16x128x1 : Shape := ⟨3, ![16, 128, 1]⟩
abbrev S16x1x128 : Shape := ⟨3, ![16, 1, 128]⟩
abbrev S16x1 : Shape := ⟨2, ![16, 1]⟩
abbrev S16x16384x3 : Shape := ⟨3, ![16, 16384, 3]⟩
abbrev S4096x3 : Shape := ⟨2, ![4096, 3]⟩
abbrev S1x4096x3 : Shape := ⟨3, ![1, 4096, 3]⟩
abbrev S1x128x3 : Shape := ⟨3, ![1, 128, 3]⟩
abbrev S128x3 : Shape := ⟨2, ![128, 3]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x3x128 : Shape := ⟨3, ![1, 3, 128]⟩
abbrev S3x128 : Shape := ⟨2, ![3, 128]⟩
abbrev S1x3 : Shape := ⟨2, ![1, 3]⟩
abbrev S3 : Shape := ⟨1, ![3]⟩
abbrev S4096x128 : Shape := ⟨2, ![4096, 128]⟩
abbrev S262144x3 : Shape := ⟨2, ![262144, 3]⟩
abbrev S16x16384x4 : Shape := ⟨3, ![16, 16384, 4]⟩
abbrev S4096x4 : Shape := ⟨2, ![4096, 4]⟩
abbrev S1x4096x4 : Shape := ⟨3, ![1, 4096, 4]⟩
abbrev S1x128x4 : Shape := ⟨3, ![1, 128, 4]⟩
abbrev S128x4 : Shape := ⟨2, ![128, 4]⟩
abbrev S1x4x128 : Shape := ⟨3, ![1, 4, 128]⟩
abbrev S4x128 : Shape := ⟨2, ![4, 128]⟩
abbrev S1x4 : Shape := ⟨2, ![1, 4]⟩
abbrev S4 : Shape := ⟨1, ![4]⟩
abbrev S262144x4 : Shape := ⟨2, ![262144, 4]⟩
abbrev S16x16384x1 : Shape := ⟨3, ![16, 16384, 1]⟩
abbrev S4096x1 : Shape := ⟨2, ![4096, 1]⟩
abbrev S1x4096x1 : Shape := ⟨3, ![1, 4096, 1]⟩
abbrev S1x128x1 : Shape := ⟨3, ![1, 128, 1]⟩
abbrev S128x1 : Shape := ⟨2, ![128, 1]⟩
abbrev S1x1x128 : Shape := ⟨3, ![1, 1, 128]⟩
abbrev S1x1 : Shape := ⟨2, ![1, 1]⟩
abbrev S1 : Shape := ⟨1, ![1]⟩
abbrev S262144x1 : Shape := ⟨2, ![262144, 1]⟩

abbrev nBuf : Space → Nat
  | .hbm => 45
  | .vmem => 50
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S16384x4, .f32⟩
  | .hbm, ⟨4, _⟩ => ⟨S16384x1, .f32⟩
  | .hbm, ⟨5, _⟩ => ⟨S16x128x3, .f32⟩
  | .hbm, ⟨6, _⟩ => ⟨S16x128, .f32⟩
  | .hbm, ⟨7, _⟩ => ⟨S16x128x128, .f32⟩
  | .hbm, ⟨8, _⟩ => ⟨S16x128, .f32⟩
  | .hbm, ⟨9, _⟩ => ⟨S16x3x128, .f32⟩
  | .hbm, ⟨10, _⟩ => ⟨S16x3, .f32⟩
  | .hbm, ⟨11, _⟩ => ⟨S16x128x3, .f32⟩
  | .hbm, ⟨12, _⟩ => ⟨S16x128, .f32⟩
  | .hbm, ⟨13, _⟩ => ⟨S16x128x128, .f32⟩
  | .hbm, ⟨14, _⟩ => ⟨S16x128, .f32⟩
  | .hbm, ⟨15, _⟩ => ⟨S16x3x128, .f32⟩
  | .hbm, ⟨16, _⟩ => ⟨S16x3, .f32⟩
  | .hbm, ⟨17, _⟩ => ⟨S16x128x3, .f32⟩
  | .hbm, ⟨18, _⟩ => ⟨S16x128, .f32⟩
  | .hbm, ⟨19, _⟩ => ⟨S16x128x128, .f32⟩
  | .hbm, ⟨20, _⟩ => ⟨S16x128, .f32⟩
  | .hbm, ⟨21, _⟩ => ⟨S16x3x128, .f32⟩
  | .hbm, ⟨22, _⟩ => ⟨S16x3, .f32⟩
  | .hbm, ⟨23, _⟩ => ⟨S16x128x4, .f32⟩
  | .hbm, ⟨24, _⟩ => ⟨S16x128, .f32⟩
  | .hbm, ⟨25, _⟩ => ⟨S16x128x128, .f32⟩
  | .hbm, ⟨26, _⟩ => ⟨S16x128, .f32⟩
  | .hbm, ⟨27, _⟩ => ⟨S16x4x128, .f32⟩
  | .hbm, ⟨28, _⟩ => ⟨S16x4, .f32⟩
  | .hbm, ⟨29, _⟩ => ⟨S16x128x1, .f32⟩
  | .hbm, ⟨30, _⟩ => ⟨S16x128, .f32⟩
  | .hbm, ⟨31, _⟩ => ⟨S16x128x128, .f32⟩
  | .hbm, ⟨32, _⟩ => ⟨S16x128, .f32⟩
  | .hbm, ⟨33, _⟩ => ⟨S16x1x128, .f32⟩
  | .hbm, ⟨34, _⟩ => ⟨S16x1, .f32⟩
  | .hbm, ⟨35, _⟩ => ⟨S16x16384x3, .f32⟩
  | .hbm, ⟨36, _⟩ => ⟨S262144x3, .f32⟩
  | .hbm, ⟨37, _⟩ => ⟨S16x16384x3, .f32⟩
  | .hbm, ⟨38, _⟩ => ⟨S262144x3, .f32⟩
  | .hbm, ⟨39, _⟩ => ⟨S16x16384x3, .f32⟩
  | .hbm, ⟨40, _⟩ => ⟨S262144x3, .f32⟩
  | .hbm, ⟨41, _⟩ => ⟨S16x16384x4, .f32⟩
  | .hbm, ⟨42, _⟩ => ⟨S262144x4, .f32⟩
  | .hbm, ⟨43, _⟩ => ⟨S16x16384x1, .f32⟩
  | .hbm, ⟨44, _⟩ => ⟨S262144x1, .f32⟩
  | .local _ .vmem, ⟨0, _⟩ => ⟨S4096x3, .f32⟩
  | .local _ .vmem, ⟨1, _⟩ => ⟨S4096x3, .f32⟩
  | .local _ .vmem, ⟨2, _⟩ => ⟨S16x128x3, .f32⟩
  | .local _ .vmem, ⟨3, _⟩ => ⟨S16x128, .f32⟩
  | .local _ .vmem, ⟨4, _⟩ => ⟨S16x128x128, .f32⟩
  | .local _ .vmem, ⟨5, _⟩ => ⟨S16x128, .f32⟩
  | .local _ .vmem, ⟨6, _⟩ => ⟨S16x3x128, .f32⟩
  | .local _ .vmem, ⟨7, _⟩ => ⟨S16x3, .f32⟩
  | .local _ .vmem, ⟨8, _⟩ => ⟨S1x4096x3, .f32⟩
  | .local _ .vmem, ⟨9, _⟩ => ⟨S1x4096x3, .f32⟩
  | .local _ .vmem, ⟨10, _⟩ => ⟨S4096x3, .f32⟩
  | .local _ .vmem, ⟨11, _⟩ => ⟨S4096x3, .f32⟩
  | .local _ .vmem, ⟨12, _⟩ => ⟨S16x128x3, .f32⟩
  | .local _ .vmem, ⟨13, _⟩ => ⟨S16x128, .f32⟩
  | .local _ .vmem, ⟨14, _⟩ => ⟨S16x128x128, .f32⟩
  | .local _ .vmem, ⟨15, _⟩ => ⟨S16x128, .f32⟩
  | .local _ .vmem, ⟨16, _⟩ => ⟨S16x3x128, .f32⟩
  | .local _ .vmem, ⟨17, _⟩ => ⟨S16x3, .f32⟩
  | .local _ .vmem, ⟨18, _⟩ => ⟨S1x4096x3, .f32⟩
  | .local _ .vmem, ⟨19, _⟩ => ⟨S1x4096x3, .f32⟩
  | .local _ .vmem, ⟨20, _⟩ => ⟨S4096x3, .f32⟩
  | .local _ .vmem, ⟨21, _⟩ => ⟨S4096x3, .f32⟩
  | .local _ .vmem, ⟨22, _⟩ => ⟨S16x128x3, .f32⟩
  | .local _ .vmem, ⟨23, _⟩ => ⟨S16x128, .f32⟩
  | .local _ .vmem, ⟨24, _⟩ => ⟨S16x128x128, .f32⟩
  | .local _ .vmem, ⟨25, _⟩ => ⟨S16x128, .f32⟩
  | .local _ .vmem, ⟨26, _⟩ => ⟨S16x3x128, .f32⟩
  | .local _ .vmem, ⟨27, _⟩ => ⟨S16x3, .f32⟩
  | .local _ .vmem, ⟨28, _⟩ => ⟨S1x4096x3, .f32⟩
  | .local _ .vmem, ⟨29, _⟩ => ⟨S1x4096x3, .f32⟩
  | .local _ .vmem, ⟨30, _⟩ => ⟨S4096x4, .f32⟩
  | .local _ .vmem, ⟨31, _⟩ => ⟨S4096x4, .f32⟩
  | .local _ .vmem, ⟨32, _⟩ => ⟨S16x128x4, .f32⟩
  | .local _ .vmem, ⟨33, _⟩ => ⟨S16x128, .f32⟩
  | .local _ .vmem, ⟨34, _⟩ => ⟨S16x128x128, .f32⟩
  | .local _ .vmem, ⟨35, _⟩ => ⟨S16x128, .f32⟩
  | .local _ .vmem, ⟨36, _⟩ => ⟨S16x4x128, .f32⟩
  | .local _ .vmem, ⟨37, _⟩ => ⟨S16x4, .f32⟩
  | .local _ .vmem, ⟨38, _⟩ => ⟨S1x4096x4, .f32⟩
  | .local _ .vmem, ⟨39, _⟩ => ⟨S1x4096x4, .f32⟩
  | .local _ .vmem, ⟨40, _⟩ => ⟨S4096x1, .f32⟩
  | .local _ .vmem, ⟨41, _⟩ => ⟨S4096x1, .f32⟩
  | .local _ .vmem, ⟨42, _⟩ => ⟨S16x128x1, .f32⟩
  | .local _ .vmem, ⟨43, _⟩ => ⟨S16x128, .f32⟩
  | .local _ .vmem, ⟨44, _⟩ => ⟨S16x128x128, .f32⟩
  | .local _ .vmem, ⟨45, _⟩ => ⟨S16x128, .f32⟩
  | .local _ .vmem, ⟨46, _⟩ => ⟨S16x1x128, .f32⟩
  | .local _ .vmem, ⟨47, _⟩ => ⟨S16x1, .f32⟩
  | .local _ .vmem, ⟨48, _⟩ => ⟨S1x4096x1, .f32⟩
  | .local _ .vmem, ⟨49, _⟩ => ⟨S1x4096x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def k0_off2 (i : grid0.Coords) : Fin 2 → Nat :=
  let arg0 : BitVec 32 := BitVec.ofNat 32 (i 0).val
  let v6 : Index := Scalar.indexCast arg0
  let c0_3 : Index := 0#32
  ![v6.toNat, 0]
def k0_off3 (i : grid0.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def k0_off4 (i : grid0.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k0_off5 (i : grid0.Coords) : Fin 2 → Nat :=
  let arg0 : BitVec 32 := BitVec.ofNat 32 (i 0).val
  let v19 : Index := Scalar.indexCast arg0
  let c0_9 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 4], ![false, false]⟩

def k1_off1 (i : grid1.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def k1_off2 (i : grid1.Coords) : Fin 2 → Nat :=
  let arg0 : BitVec 32 := BitVec.ofNat 32 (i 0).val
  let v6 : Index := Scalar.indexCast arg0
  let c0_3 : Index := 0#32
  ![v6.toNat, 0]
def k1_off3 (i : grid1.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def k1_off4 (i : grid1.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k1_off5 (i : grid1.Coords) : Fin 2 → Nat :=
  let arg0 : BitVec 32 := BitVec.ofNat 32 (i 0).val
  let v19 : Index := Scalar.indexCast arg0
  let c0_9 : Index := 0#32
  ![v19.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S16x128x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4096x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 4], ![false, false]⟩

def k2_off1 (i : grid2.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def k2_off2 (i : grid2.Coords) : Fin 2 → Nat :=
  let arg0 : BitVec 32 := BitVec.ofNat 32 (i 0).val
  let v6 : Index := Scalar.indexCast arg0
  let c0_3 : Index := 0#32
  ![v6.toNat, 0]
def k2_off3 (i : grid2.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def k2_off4 (i : grid2.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k2_off5 (i : grid2.Coords) : Fin 2 → Nat :=
  let arg0 : BitVec 32 := BitVec.ofNat 32 (i 0).val
  let v19 : Index := Scalar.indexCast arg0
  let c0_9 : Index := 0#32
  ![v19.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S4096x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S16x128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x3x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S16x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x4096x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![16, 4], ![false, false]⟩

def k3_off1 (i : grid3.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def k3_off2 (i : grid3.Coords) : Fin 2 → Nat :=
  let arg0 : BitVec 32 := BitVec.ofNat 32 (i 0).val
  let v6 : Index := Scalar.indexCast arg0
  let c0_3 : Index := 0#32
  ![v6.toNat, 0]
def k3_off3 (i : grid3.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def k3_off4 (i : grid3.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k3_off5 (i : grid3.Coords) : Fin 2 → Nat :=
  let arg0 : BitVec 32 := BitVec.ofNat 32 (i 0).val
  let v19 : Index := Scalar.indexCast arg0
  let c0_9 : Index := 0#32
  ![v19.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S4096x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S16x128x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S16x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S16x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S16x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S16x4x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S16x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x4096x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![16, 4], ![false, false]⟩

def k4_off1 (i : grid4.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def k4_off2 (i : grid4.Coords) : Fin 2 → Nat :=
  let arg0 : BitVec 32 := BitVec.ofNat 32 (i 0).val
  let v6 : Index := Scalar.indexCast arg0
  let c0_3 : Index := 0#32
  ![v6.toNat, 0]
def k4_off3 (i : grid4.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def k4_off4 (i : grid4.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k4_off5 (i : grid4.Coords) : Fin 2 → Nat :=
  let arg0 : BitVec 32 := BitVec.ofNat 32 (i 0).val
  let v19 : Index := Scalar.indexCast arg0
  let c0_9 : Index := 0#32
  ![v19.toNat, 0]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S4096x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S16x128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S16x128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S16x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S16x1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S16x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x4096x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

class Facts₀ : Prop where
  inb_S4096x3_S4096x3_0_0 : ∀ a, (![0, 0] : Fin 2 → Nat) a + S4096x3.size a ≤ S4096x3.size a
  h_S4096x3 : 0 < S4096x3.numel
  bitsLt_bf16_f32 : FTy.bits .bf16 < FTy.bits .f32
  h_S1x128x3 : 0 < S1x128x3.numel
  shapeCasts_S1x128x3_S128x3 : S1x128x3.ShapeCasts S128x3
  h_S1x128 : 0 < S1x128.numel
  shapeCasts_S1x128_S128 : S1x128.ShapeCasts S128
  h_S1x128x128 : 0 < S1x128x128.numel
  shapeCasts_S1x128x128_S128x128 : S1x128x128.ShapeCasts S128x128
  h_S1x3x128 : 0 < S1x3x128.numel
  shapeCasts_S1x3x128_S3x128 : S1x3x128.ShapeCasts S3x128
  h_S1x3 : 0 < S1x3.numel
  shapeCasts_S1x3_S3 : S1x3.ShapeCasts S3
  shapeCasts_S128_S1x128 : S128.ShapeCasts S1x128
  broadcasts_S1x128_S4096x128 : S1x128.Broadcasts S4096x128
  shapeCasts_S3_S1x3 : S3.ShapeCasts S1x3
  broadcasts_S1x3_S4096x3 : S1x3.Broadcasts S4096x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  shapeCasts_S4096x3_S1x4096x3 : S4096x3.ShapeCasts S1x4096x3
  shapeCasts_S16x16384x3_S262144x3 : S16x16384x3.ShapeCasts S262144x3
  inb_S4096x4_S4096x4_0_0 : ∀ a, (![0, 0] : Fin 2 → Nat) a + S4096x4.size a ≤ S4096x4.size a
  h_S4096x4 : 0 < S4096x4.numel
  h_S1x128x4 : 0 < S1x128x4.numel
  shapeCasts_S1x128x4_S128x4 : S1x128x4.ShapeCasts S128x4
  h_S1x4x128 : 0 < S1x4x128.numel
  shapeCasts_S1x4x128_S4x128 : S1x4x128.ShapeCasts S4x128
  h_S1x4 : 0 < S1x4.numel
  shapeCasts_S1x4_S4 : S1x4.ShapeCasts S4
  shapeCasts_S4_S1x4 : S4.ShapeCasts S1x4
  broadcasts_S1x4_S4096x4 : S1x4.Broadcasts S4096x4
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  shapeCasts_S4096x4_S1x4096x4 : S4096x4.ShapeCasts S1x4096x4
  shapeCasts_S16x16384x4_S262144x4 : S16x16384x4.ShapeCasts S262144x4
  inb_S4096x1_S4096x1_0_0 : ∀ a, (![0, 0] : Fin 2 → Nat) a + S4096x1.size a ≤ S4096x1.size a
  h_S4096x1 : 0 < S4096x1.numel
  h_S1x128x1 : 0 < S1x128x1.numel
  shapeCasts_S1x128x1_S128x1 : S1x128x1.ShapeCasts S128x1
  h_S1x1x128 : 0 < S1x1x128.numel
  shapeCasts_S1x1x128_S1x128 : S1x1x128.ShapeCasts S1x128
  h_S1x1 : 0 < S1x1.numel
  shapeCasts_S1x1_S1 : S1x1.ShapeCasts S1
  shapeCasts_S1_S1x1 : S1.ShapeCasts S1x1
  broadcasts_S1x1_S4096x1 : S1x1.Broadcasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S16x16384x1_S262144x1 : S16x16384x1.ShapeCasts S262144x1
  dot_S4096x3_S128x3_S4096x128_1_1_0_0_n_n_wf : DotDims.WF S4096x3 S128x3 S4096x128 [1] [1] [0] [0] [] []
  dot_S4096x128_S128x128_S4096x128_1_1_0_0_n_n_wf : DotDims.WF S4096x128 S128x128 S4096x128 [1] [1] [0] [0] [] []
  dot_S4096x128_S3x128_S4096x3_1_1_0_0_n_n_wf : DotDims.WF S4096x128 S3x128 S4096x3 [1] [1] [0] [0] [] []
  dot_S4096x4_S128x4_S4096x128_1_1_0_0_n_n_wf : DotDims.WF S4096x4 S128x4 S4096x128 [1] [1] [0] [0] [] []
  dot_S4096x128_S4x128_S4096x4_1_1_0_0_n_n_wf : DotDims.WF S4096x128 S4x128 S4096x4 [1] [1] [0] [0] [] []
  dot_S4096x1_S128x1_S4096x128_1_1_0_0_n_n_wf : DotDims.WF S4096x1 S128x1 S4096x128 [1] [1] [0] [0] [] []
  dot_S4096x128_S1x128_S4096x1_1_1_0_0_n_n_wf : DotDims.WF S4096x128 S1x128 S4096x1 [1] [1] [0] [0] [] []
  hrank0 : 0 < grid0.rank
  k0_off1_inb : ∀ i : grid0.Coords, ∀ a, (k0_off1 i) a + S1x128x3.size a ≤ S16x128x3.size a
  k0_off2_inb : ∀ i : grid0.Coords, ∀ a, (k0_off2 i) a + S1x128.size a ≤ S16x128.size a
  k0_off3_inb : ∀ i : grid0.Coords, ∀ a, (k0_off3 i) a + S1x128x128.size a ≤ S16x128x128.size a
  k0_off4_inb : ∀ i : grid0.Coords, ∀ a, (k0_off4 i) a + S1x3x128.size a ≤ S16x3x128.size a
  k0_off5_inb : ∀ i : grid0.Coords, ∀ a, (k0_off5 i) a + S1x3.size a ≤ S16x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S16384x3.size a
  hwx0_0 : ∀ i : grid0.Coords, EltTy.bits .f32 = 32 ∨ (Rect.block (s := S16384x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128x3.size a ≤ S16x128x3.size a
  hwx0_1 : ∀ i : grid0.Coords, EltTy.bits .f32 = 32 ∨ (Rect.block (s := S16x128x3) S16x128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128x128.size a ≤ S16x128x128.size a
  hwx0_3 : ∀ i : grid0.Coords, EltTy.bits .f32 = 32 ∨ (Rect.block (s := S16x128x128) S16x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x3x128.size a ≤ S16x3x128.size a
  hwx0_5 : ∀ i : grid0.Coords, EltTy.bits .f32 = 32 ∨ (Rect.block (s := S16x3x128) S16x3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x3.size a ≤ S16x3.size a
  hwx0_6 : ∀ i : grid0.Coords, EltTy.bits .f32 = 32 ∨ (Rect.block (s := S16x3) S16x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x3.size a ≤ S16x16384x3.size a
  hwx0_7 : ∀ i : grid0.Coords, EltTy.bits .f32 = 32 ∨ (Rect.block (s := S16x16384x3) S1x4096x3.size (cc0_transform_7 i) (hinb0_7 i)).WholeWords (EltTy.packing .f32)
  hrank1 : 0 < grid1.rank
  k1_off1_inb : ∀ i : grid1.Coords, ∀ a, (k1_off1 i) a + S1x128x3.size a ≤ S16x128x3.size a
  k1_off2_inb : ∀ i : grid1.Coords, ∀ a, (k1_off2 i) a + S1x128.size a ≤ S16x128.size a
  k1_off3_inb : ∀ i : grid1.Coords, ∀ a, (k1_off3 i) a + S1x128x128.size a ≤ S16x128x128.size a
  k1_off4_inb : ∀ i : grid1.Coords, ∀ a, (k1_off4 i) a + S1x3x128.size a ≤ S16x3x128.size a
  k1_off5_inb : ∀ i : grid1.Coords, ∀ a, (k1_off5 i) a + S1x3.size a ≤ S16x3.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x3.size a ≤ S16384x3.size a
  hwx1_0 : ∀ i : grid1.Coords, EltTy.bits .f32 = 32 ∨ (Rect.block (s := S16384x3) S4096x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128x3.size a ≤ S16x128x3.size a
  hwx1_1 : ∀ i : grid1.Coords, EltTy.bits .f32 = 32 ∨ (Rect.block (s := S16x128x3) S16x128x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128x128.size a ≤ S16x128x128.size a
  hwx1_3 : ∀ i : grid1.Coords, EltTy.bits .f32 = 32 ∨ (Rect.block (s := S16x128x128) S16x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x128.size a ≤ S16x128.size a
  hwx1_4 : ∀ i : grid1.Coords, EltTy.bits .f32 = 32 ∨ (Rect.block (s := S16x128) S16x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x3x128.size a ≤ S16x3x128.size a
  hwx1_5 : ∀ i : grid1.Coords, EltTy.bits .f32 = 32 ∨ (Rect.block (s := S16x3x128) S16x3x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x3.size a ≤ S16x3.size a
  hwx1_6 : ∀ i : grid1.Coords, EltTy.bits .f32 = 32 ∨ (Rect.block (s := S16x3) S16x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4096x3.size a ≤ S16x16384x3.size a
  hwx1_7 : ∀ i : grid1.Coords, EltTy.bits .f32 = 32 ∨ (Rect.block (s := S16x16384x3) S1x4096x3.size (cc1_transform_7 i) (hinb1_7 i)).WholeWords (EltTy.packing .f32)
  hrank2 : 0 < grid2.rank
  k2_off1_inb : ∀ i : grid2.Coords, ∀ a, (k2_off1 i) a + S1x128x3.size a ≤ S16x128x3.size a
  k2_off2_inb : ∀ i : grid2.Coords, ∀ a, (k2_off2 i) a + S1x128.size a ≤ S16x128.size a
  k2_off3_inb : ∀ i : grid2.Coords, ∀ a, (k2_off3 i) a + S1x128x128.size a ≤ S16x128x128.size a
  k2_off4_inb : ∀ i : grid2.Coords, ∀ a, (k2_off4 i) a + S1x3x128.size a ≤ S16x3x128.size a
  k2_off5_inb : ∀ i : grid2.Coords, ∀ a, (k2_off5 i) a + S1x3.size a ≤ S16x3.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x3.size a ≤ S16384x3.size a
  hwx2_0 : ∀ i : grid2.Coords, EltTy.bits .f32 = 32 ∨ (Rect.block (s := S16384x3) S4096x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x128x3.size a ≤ S16x128x3.size a
  hwx2_1 : ∀ i : grid2.Coords, EltTy.bits .f32 = 32 ∨ (Rect.block (s := S16x128x3) S16x128x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x128x128.size a ≤ S16x128x128.size a
  hwx2_3 : ∀ i : grid2.Coords, EltTy.bits .f32 = 32 ∨ (Rect.block (s := S16x128x128) S16x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x128.size a ≤ S16x128.size a
  hwx2_4 : ∀ i : grid2.Coords, EltTy.bits .f32 = 32 ∨ (Rect.block (s := S16x128) S16x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x3x128.size a ≤ S16x3x128.size a
  hwx2_5 : ∀ i : grid2.Coords, EltTy.bits .f32 = 32 ∨ (Rect.block (s := S16x3x128) S16x3x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x3.size a ≤ S16x3.size a
  hwx2_6 : ∀ i : grid2.Coords, EltTy.bits .f32 = 32 ∨ (Rect.block (s := S16x3) S16x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x4096x3.size a ≤ S16x16384x3.size a
  hwx2_7 : ∀ i : grid2.Coords, EltTy.bits .f32 = 32 ∨ (Rect.block (s := S16x16384x3) S1x4096x3.size (cc2_transform_7 i) (hinb2_7 i)).WholeWords (EltTy.packing .f32)
  hrank3 : 0 < grid3.rank
  k3_off1_inb : ∀ i : grid3.Coords, ∀ a, (k3_off1 i) a + S1x128x4.size a ≤ S16x128x4.size a
  k3_off2_inb : ∀ i : grid3.Coords, ∀ a, (k3_off2 i) a + S1x128.size a ≤ S16x128.size a
  k3_off3_inb : ∀ i : grid3.Coords, ∀ a, (k3_off3 i) a + S1x128x128.size a ≤ S16x128x128.size a
  k3_off4_inb : ∀ i : grid3.Coords, ∀ a, (k3_off4 i) a + S1x4x128.size a ≤ S16x4x128.size a
  k3_off5_inb : ∀ i : grid3.Coords, ∀ a, (k3_off5 i) a + S1x4.size a ≤ S16x4.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x4.size a ≤ S16384x4.size a
  hwx3_0 : ∀ i : grid3.Coords, EltTy.bits .f32 = 32 ∨ (Rect.block (s := S16384x4) S4096x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x128x4.size a ≤ S16x128x4.size a
  hwx3_1 : ∀ i : grid3.Coords, EltTy.bits .f32 = 32 ∨ (Rect.block (s := S16x128x4) S16x128x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x128.size a ≤ S16x128.size a
  hwx3_2 : ∀ i : grid3.Coords, EltTy.bits .f32 = 32 ∨ (Rect.block (s := S16x128) S16x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x128x128.size a ≤ S16x128x128.size a
  hwx3_3 : ∀ i : grid3.Coords, EltTy.bits .f32 = 32 ∨ (Rect.block (s := S16x128x128) S16x128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x128.size a ≤ S16x128.size a
  hwx3_4 : ∀ i : grid3.Coords, EltTy.bits .f32 = 32 ∨ (Rect.block (s := S16x128) S16x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x4x128.size a ≤ S16x4x128.size a
  hwx3_5 : ∀ i : grid3.Coords, EltTy.bits .f32 = 32 ∨ (Rect.block (s := S16x4x128) S16x4x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x4.size a ≤ S16x4.size a
  hwx3_6 : ∀ i : grid3.Coords, EltTy.bits .f32 = 32 ∨ (Rect.block (s := S16x4) S16x4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x4096x4.size a ≤ S16x16384x4.size a
  hwx3_7 : ∀ i : grid3.Coords, EltTy.bits .f32 = 32 ∨ (Rect.block (s := S16x16384x4) S1x4096x4.size (cc3_transform_7 i) (hinb3_7 i)).WholeWords (EltTy.packing .f32)
  hrank4 : 0 < grid4.rank
  k4_off1_inb : ∀ i : grid4.Coords, ∀ a, (k4_off1 i) a + S1x128x1.size a ≤ S16x128x1.size a
  k4_off2_inb : ∀ i : grid4.Coords, ∀ a, (k4_off2 i) a + S1x128.size a ≤ S16x128.size a
  k4_off3_inb : ∀ i : grid4.Coords, ∀ a, (k4_off3 i) a + S1x128x128.size a ≤ S16x128x128.size a
  k4_off4_inb : ∀ i : grid4.Coords, ∀ a, (k4_off4 i) a + S1x1x128.size a ≤ S16x1x128.size a
  k4_off5_inb : ∀ i : grid4.Coords, ∀ a, (k4_off5 i) a + S1x1.size a ≤ S16x1.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S16384x1.size a
  hwx4_0 : ∀ i : grid4.Coords, EltTy.bits .f32 = 32 ∨ (Rect.block (s := S16384x1) S4096x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x128x1.size a ≤ S16x128x1.size a
  hwx4_1 : ∀ i : grid4.Coords, EltTy.bits .f32 = 32 ∨ (Rect.block (s := S16x128x1) S16x128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x128x128.size a ≤ S16x128x128.size a
  hwx4_3 : ∀ i : grid4.Coords, EltTy.bits .f32 = 32 ∨ (Rect.block (s := S16x128x128) S16x128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x128.size a ≤ S16x128.size a
  hwx4_4 : ∀ i : grid4.Coords, EltTy.bits .f32 = 32 ∨ (Rect.block (s := S16x128) S16x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x1x128.size a ≤ S16x1x128.size a
  hwx4_5 : ∀ i : grid4.Coords, EltTy.bits .f32 = 32 ∨ (Rect.block (s := S16x1x128) S16x1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S16x1.size a ≤ S16x1.size a
  hwx4_6 : ∀ i : grid4.Coords, EltTy.bits .f32 = 32 ∨ (Rect.block (s := S16x1) S16x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x4096x1.size a ≤ S16x16384x1.size a
  hwx4_7 : ∀ i : grid4.Coords, EltTy.bits .f32 = 32 ∨ (Rect.block (s := S16x16384x1) S1x4096x1.size (cc4_transform_7 i) (hinb4_7 i)).WholeWords (EltTy.packing .f32)

variable [Facts₀]

def dot_S4096x3_S128x3_S4096x128_1_1_0_0_n_n : DotDims S4096x3 S128x3 S4096x128 where
  lhsContracting := [1]
  rhsContracting := [1]
  lhsNonContracting := [0]
  rhsNonContracting := [0]
  lhsBatch := []
  rhsBatch := []
  wf := dot_S4096x3_S128x3_S4096x128_1_1_0_0_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S3x128_S4096x3_1_1_0_0_n_n : DotDims S4096x128 S3x128 S4096x3 where
  lhsContracting := [1]
  rhsContracting := [1]
  lhsNonContracting := [0]
  rhsNonContracting := [0]
  lhsBatch := []
  rhsBatch := []
  wf := dot_S4096x128_S3x128_S4096x3_1_1_0_0_n_n_wf
def dot_S4096x4_S128x4_S4096x128_1_1_0_0_n_n : DotDims S4096x4 S128x4 S4096x128 where
  lhsContracting := [1]
  rhsContracting := [1]
  lhsNonContracting := [0]
  rhsNonContracting := [0]
  lhsBatch := []
  rhsBatch := []
  wf := dot_S4096x4_S128x4_S4096x128_1_1_0_0_n_n_wf
def dot_S4096x128_S4x128_S4096x4_1_1_0_0_n_n : DotDims S4096x128 S4x128 S4096x4 where
  lhsContracting := [1]
  rhsContracting := [1]
  lhsNonContracting := [0]
  rhsNonContracting := [0]
  lhsBatch := []
  rhsBatch := []
  wf := dot_S4096x128_S4x128_S4096x4_1_1_0_0_n_n_wf
def dot_S4096x1_S128x1_S4096x128_1_1_0_0_n_n : DotDims S4096x1 S128x1 S4096x128 where
  lhsContracting := [1]
  rhsContracting := [1]
  lhsNonContracting := [0]
  rhsNonContracting := [0]
  lhsBatch := []
  rhsBatch := []
  wf := dot_S4096x1_S128x1_S4096x128_1_1_0_0_n_n_wf
def dot_S4096x128_S1x128_S4096x1_1_1_0_0_n_n : DotDims S4096x128 S1x128 S4096x1 where
  lhsContracting := [1]
  rhsContracting := [1]
  lhsNonContracting := [0]
  rhsNonContracting := [0]
  lhsBatch := []
  rhsBatch := []
  wf := dot_S4096x128_S1x128_S4096x1_1_1_0_0_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S16x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S16x3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S16x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x4096x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S4096x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S16x128x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S16x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S16x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S16x3x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S16x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x4096x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S4096x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg17) S16x128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S16x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg20) S16x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S16x3x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg22) S16x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S1x4096x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg3) S4096x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S16x128x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg24) S16x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg25) S16x128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg26) S16x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg27) S16x4x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg28) S16x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v6) S1x4096x4.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg4) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg29) S16x128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg30) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg31) S16x128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg32) S16x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg33) S16x1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg34) S16x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v8) S1x4096x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S16384x3 : Shape := ⟨2, ![16384, 3]⟩
abbrev S16384x4 : Shape := ⟨2, ![16384, 4]⟩
abbrev S16384x1 : Shape := ⟨2, ![16384, 1]⟩
abbrev S16x128x3 : Shape := ⟨3, ![16, 128, 3]⟩
abbrev S16x128 : Shape := ⟨2, ![16, 128]⟩
abbrev S16x128x128 : Shape := ⟨3, ![16, 128, 128]⟩
abbrev S16x3x128 : Shape := ⟨3, ![16, 3, 128]⟩
abbrev S16x3 : Shape := ⟨2, ![16, 3]⟩
abbrev S16x128x4 : Shape := ⟨3, ![16, 128, 4]⟩
abbrev S16x4x128 : Shape := ⟨3, ![16, 4, 128]⟩
abbrev S16x4 : Shape := ⟨2, ![16, 4]⟩
abbrev S16x128x1 : Shape := ⟨3, ![16, 128, 1]⟩
abbrev S16x1x128 : Shape := ⟨3, ![16, 1, 128]⟩
abbrev S16x1 : Shape := ⟨2, ![16, 1]⟩
abbrev S16x128x16384 : Shape := ⟨3, ![16, 128, 16384]⟩
abbrev S16x16384x128 : Shape := ⟨3, ![16, 16384, 128]⟩
abbrev S_ : Shape := ⟨0, ![]⟩
abbrev S16x16384x3 : Shape := ⟨3, ![16, 16384, 3]⟩
abbrev S16x1x3 : Shape := ⟨3, ![16, 1, 3]⟩
abbrev S262144x3 : Shape := ⟨2, ![262144, 3]⟩
abbrev S16x16384x4 : Shape := ⟨3, ![16, 16384, 4]⟩
abbrev S16x1x4 : Shape := ⟨3, ![16, 1, 4]⟩
abbrev S262144x4 : Shape := ⟨2, ![262144, 4]⟩
abbrev S16x16384x1 : Shape := ⟨3, ![16, 16384, 1]⟩
abbrev S16x1x1 : Shape := ⟨3, ![16, 1, 1]⟩
abbrev S262144x1 : Shape := ⟨2, ![262144, 1]⟩

abbrev nBuf : Space → Nat
  | .hbm => 135
  | .vmem => 0
  | .smem => 0
  | _ => 0

abbrev hbmTy0_0 (i : Nat) : BufTy := match i % 128 with
  | 0 => ⟨S16384x3, .f32⟩
  | 1 => ⟨S16384x3, .f32⟩
  | 2 => ⟨S16384x3, .f32⟩
  | 3 => ⟨S16384x4, .f32⟩
  | 4 => ⟨S16384x1, .f32⟩
  | 5 => ⟨S16x128x3, .f32⟩
  | 6 => ⟨S16x128, .f32⟩
  | 7 => ⟨S16x128x128, .f32⟩
  | 8 => ⟨S16x128, .f32⟩
  | 9 => ⟨S16x3x128, .f32⟩
  | 10 => ⟨S16x3, .f32⟩
  | 11 => ⟨S16x128x3, .f32⟩
  | 12 => ⟨S16x128, .f32⟩
  | 13 => ⟨S16x128x128, .f32⟩
  | 14 => ⟨S16x128, .f32⟩
  | 15 => ⟨S16x3x128, .f32⟩
  | 16 => ⟨S16x3, .f32⟩
  | 17 => ⟨S16x128x3, .f32⟩
  | 18 => ⟨S16x128, .f32⟩
  | 19 => ⟨S16x128x128, .f32⟩
  | 20 => ⟨S16x128, .f32⟩
  | 21 => ⟨S16x3x128, .f32⟩
  | 22 => ⟨S16x3, .f32⟩
  | 23 => ⟨S16x128x4, .f32⟩
  | 24 => ⟨S16x128, .f32⟩
  | 25 => ⟨S16x128x128, .f32⟩
  | 26 => ⟨S16x128, .f32⟩
  | 27 => ⟨S16x4x128, .f32⟩
  | 28 => ⟨S16x4, .f32⟩
  | 29 => ⟨S16x128x1, .f32⟩
  | 30 => ⟨S16x128, .f32⟩
  | 31 => ⟨S16x128x128, .f32⟩
  | 32 => ⟨S16x128, .f32⟩
  | 33 => ⟨S16x1x128, .f32⟩
  | 34 => ⟨S16x1, .f32⟩
  | 35 => ⟨S16x128x16384, .f32⟩
  | 36 => ⟨S16x16384x128, .f32⟩
  | 37 => ⟨S16x1x128, .f32⟩
  | 38 => ⟨S16x16384x128, .f32⟩
  | 39 => ⟨S16x16384x128, .f32⟩
  | 40 => ⟨S_, .f32⟩
  | 41 => ⟨S16x16384x128, .f32⟩
  | 42 => ⟨S16x16384x128, .f32⟩
  | 43 => ⟨S16x16384x128, .f32⟩
  | 44 => ⟨S16x1x128, .f32⟩
  | 45 => ⟨S16x16384x128, .f32⟩
  | 46 => ⟨S16x16384x128, .f32⟩
  | 47 => ⟨S_, .f32⟩
  | 48 => ⟨S16x16384x128, .f32⟩
  | 49 => ⟨S16x16384x128, .f32⟩
  | 50 => ⟨S16x16384x3, .f32⟩
  | 51 => ⟨S16x1x3, .f32⟩
  | 52 => ⟨S16x16384x3, .f32⟩
  | 53 => ⟨S16x16384x3, .f32⟩
  | 54 => ⟨S262144x3, .f32⟩
  | 55 => ⟨S16x128x16384, .f32⟩
  | 56 => ⟨S16x16384x128, .f32⟩
  | 57 => ⟨S16x1x128, .f32⟩
  | 58 => ⟨S16x16384x128, .f32⟩
  | 59 => ⟨S16x16384x128, .f32⟩
  | 60 => ⟨S_, .f32⟩
  | 61 => ⟨S16x16384x128, .f32⟩
  | 62 => ⟨S16x16384x128, .f32⟩
  | 63 => ⟨S16x16384x128, .f32⟩
  | 64 => ⟨S16x1x128, .f32⟩
  | 65 => ⟨S16x16384x128, .f32⟩
  | 66 => ⟨S16x16384x128, .f32⟩
  | 67 => ⟨S_, .f32⟩
  | 68 => ⟨S16x16384x128, .f32⟩
  | 69 => ⟨S16x16384x128, .f32⟩
  | 70 => ⟨S16x16384x3, .f32⟩
  | 71 => ⟨S16x1x3, .f32⟩
  | 72 => ⟨S16x16384x3, .f32⟩
  | 73 => ⟨S16x16384x3, .f32⟩
  | 74 => ⟨S262144x3, .f32⟩
  | 75 => ⟨S16x128x16384, .f32⟩
  | 76 => ⟨S16x16384x128, .f32⟩
  | 77 => ⟨S16x1x128, .f32⟩
  | 78 => ⟨S16x16384x128, .f32⟩
  | 79 => ⟨S16x16384x128, .f32⟩
  | 80 => ⟨S_, .f32⟩
  | 81 => ⟨S16x16384x128, .f32⟩
  | 82 => ⟨S16x16384x128, .f32⟩
  | 83 => ⟨S16x16384x128, .f32⟩
  | 84 => ⟨S16x1x128, .f32⟩
  | 85 => ⟨S16x16384x128, .f32⟩
  | 86 => ⟨S16x16384x128, .f32⟩
  | 87 => ⟨S_, .f32⟩
  | 88 => ⟨S16x16384x128, .f32⟩
  | 89 => ⟨S16x16384x128, .f32⟩
  | 90 => ⟨S16x16384x3, .f32⟩
  | 91 => ⟨S16x1x3, .f32⟩
  | 92 => ⟨S16x16384x3, .f32⟩
  | 93 => ⟨S16x16384x3, .f32⟩
  | 94 => ⟨S262144x3, .f32⟩
  | 95 => ⟨S16x128x16384, .f32⟩
  | 96 => ⟨S16x16384x128, .f32⟩
  | 97 => ⟨S16x1x128, .f32⟩
  | 98 => ⟨S16x16384x128, .f32⟩
  | 99 => ⟨S16x16384x128, .f32⟩
  | 100 => ⟨S_, .f32⟩
  | 101 => ⟨S16x16384x128, .f32⟩
  | 102 => ⟨S16x16384x128, .f32⟩
  | 103 => ⟨S16x16384x128, .f32⟩
  | 104 => ⟨S16x1x128, .f32⟩
  | 105 => ⟨S16x16384x128, .f32⟩
  | 106 => ⟨S16x16384x128, .f32⟩
  | 107 => ⟨S_, .f32⟩
  | 108 => ⟨S16x16384x128, .f32⟩
  | 109 => ⟨S16x16384x128, .f32⟩
  | 110 => ⟨S16x16384x4, .f32⟩
  | 111 => ⟨S16x1x4, .f32⟩
  | 112 => ⟨S16x16384x4, .f32⟩
  | 113 => ⟨S16x16384x4, .f32⟩
  | 114 => ⟨S262144x4, .f32⟩
  | 115 => ⟨S16x128x16384, .f32⟩
  | 116 => ⟨S16x16384x128, .f32⟩
  | 117 => ⟨S16x1x128, .f32⟩
  | 118 => ⟨S16x16384x128, .f32⟩
  | 119 => ⟨S16x16384x128, .f32⟩
  | 120 => ⟨S_, .f32⟩
  | 121 => ⟨S16x16384x128, .f32⟩
  | 122 => ⟨S16x16384x128, .f32⟩
  | 123 => ⟨S16x16384x128, .f32⟩
  | 124 => ⟨S16x1x128, .f32⟩
  | 125 => ⟨S16x16384x128, .f32⟩
  | 126 => ⟨S16x16384x128, .f32⟩
  | 127 => ⟨S_, .f32⟩
  | _ => ⟨S16384x3, .f32⟩

abbrev hbmTy0_1 (i : Nat) : BufTy := match i % 128 with
  | 0 => ⟨S16x16384x128, .f32⟩
  | 1 => ⟨S16x16384x128, .f32⟩
  | 2 => ⟨S16x16384x1, .f32⟩
  | 3 => ⟨S16x1x1, .f32⟩
  | 4 => ⟨S16x16384x1, .f32⟩
  | 5 => ⟨S16x16384x1, .f32⟩
  | 6 => ⟨S262144x1, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call0_cst : Ref sig .tc := ⟨.hbm, 40, rfl⟩
abbrev main_call0_v0 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_call1_cst : Ref sig .tc := ⟨.hbm, 47, rfl⟩
abbrev main_call1_v0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_call2_cst : Ref sig .tc := ⟨.hbm, 60, rfl⟩
abbrev main_call2_v0 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_cst : Ref sig .tc := ⟨.hbm, 67, rfl⟩
abbrev main_call3_v0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_call4_cst : Ref sig .tc := ⟨.hbm, 80, rfl⟩
abbrev main_call4_v0 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_call5_cst : Ref sig .tc := ⟨.hbm, 87, rfl⟩
abbrev main_call5_v0 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_call6_cst : Ref sig .tc := ⟨.hbm, 100, rfl⟩
abbrev main_call6_v0 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_call7_cst : Ref sig .tc := ⟨.hbm, 107, rfl⟩
abbrev main_call7_v0 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call8_cst : Ref sig .tc := ⟨.hbm, 120, rfl⟩
abbrev main_call8_v0 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_call9_cst : Ref sig .tc := ⟨.hbm, 127, rfl⟩
abbrev main_call9_v0 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩

abbrev nD : Nat := 1
abbrev τ : Topo := Topo.v7x

variable {F : FTy → Type} [FloatOps F]

class Facts₀ : Prop where
  transposes_S16x128x16384_S16x16384x128_0_2_1 : S16x128x16384.Transposes [0, 2, 1] S16x16384x128
  bcast_S16x128_S16x1x128_0_2 : S16x128.BroadcastsInDim S16x1x128 (![0, 2] : Fin 2 → Fin S16x1x128.rank)
  bcast_S16x1x128_S16x16384x128_0_1_2 : S16x1x128.BroadcastsInDim S16x16384x128 (![0, 1, 2] : Fin 3 → Fin S16x16384x128.rank)
  bcast_S_S16x16384x128 : S_.BroadcastsInDim S16x16384x128 (![] : Fin 0 → Fin S16x16384x128.rank)
  bcast_S16x3_S16x1x3_0_2 : S16x3.BroadcastsInDim S16x1x3 (![0, 2] : Fin 2 → Fin S16x1x3.rank)
  bcast_S16x1x3_S16x16384x3_0_1_2 : S16x1x3.BroadcastsInDim S16x16384x3 (![0, 1, 2] : Fin 3 → Fin S16x16384x3.rank)
  shapeCasts_S16x16384x3_S262144x3 : S16x16384x3.ShapeCasts S262144x3
  bcast_S16x4_S16x1x4_0_2 : S16x4.BroadcastsInDim S16x1x4 (![0, 2] : Fin 2 → Fin S16x1x4.rank)
  bcast_S16x1x4_S16x16384x4_0_1_2 : S16x1x4.BroadcastsInDim S16x16384x4 (![0, 1, 2] : Fin 3 → Fin S16x16384x4.rank)
  shapeCasts_S16x16384x4_S262144x4 : S16x16384x4.ShapeCasts S262144x4
  bcast_S16x1_S16x1x1_0_2 : S16x1.BroadcastsInDim S16x1x1 (![0, 2] : Fin 2 → Fin S16x1x1.rank)
  bcast_S16x1x1_S16x16384x1_0_1_2 : S16x1x1.BroadcastsInDim S16x16384x1 (![0, 1, 2] : Fin 3 → Fin S16x16384x1.rank)
  shapeCasts_S16x16384x1_S262144x1 : S16x16384x1.ShapeCasts S262144x1
  dot_S16x128x3_S16384x3_S16x128x16384_2_1_01_0_n_n_wf : DotDims.WF S16x128x3 S16384x3 S16x128x16384 [2] [1] [0, 1] [0] [] []
  dot_S16x16384x128_S16x128x128_S16x16384x128_2_2_1_1_0_0_wf : DotDims.WF S16x16384x128 S16x128x128 S16x16384x128 [2] [2] [1] [1] [0] [0]
  dot_S16x16384x128_S16x3x128_S16x16384x3_2_2_1_1_0_0_wf : DotDims.WF S16x16384x128 S16x3x128 S16x16384x3 [2] [2] [1] [1] [0] [0]
  dot_S16x128x4_S16384x4_S16x128x16384_2_1_01_0_n_n_wf : DotDims.WF S16x128x4 S16384x4 S16x128x16384 [2] [1] [0, 1] [0] [] []
  dot_S16x16384x128_S16x4x128_S16x16384x4_2_2_1_1_0_0_wf : DotDims.WF S16x16384x128 S16x4x128 S16x16384x4 [2] [2] [1] [1] [0] [0]
  dot_S16x128x1_S16384x1_S16x128x16384_2_1_01_0_n_n_wf : DotDims.WF S16x128x1 S16384x1 S16x128x16384 [2] [1] [0, 1] [0] [] []
  dot_S16x16384x128_S16x1x128_S16x16384x1_2_2_1_1_0_0_wf : DotDims.WF S16x16384x128 S16x1x128 S16x16384x1 [2] [2] [1] [1] [0] [0]

variable [Facts₀]

def dot_S16x128x3_S16384x3_S16x128x16384_2_1_01_0_n_n : DotDims S16x128x3 S16384x3 S16x128x16384 where
  lhsContracting := [2]
  rhsContracting := [1]
  lhsNonContracting := [0, 1]
  rhsNonContracting := [0]
  lhsBatch := []
  rhsBatch := []
  wf := dot_S16x128x3_S16384x3_S16x128x16384_2_1_01_0_n_n_wf
def dot_S16x16384x128_S16x128x128_S16x16384x128_2_2_1_1_0_0 : DotDims S16x16384x128 S16x128x128 S16x16384x128 where
  lhsContracting := [2]
  rhsContracting := [2]
  lhsNonContracting := [1]
  rhsNonContracting := [1]
  lhsBatch := [0]
  rhsBatch := [0]
  wf := dot_S16x16384x128_S16x128x128_S16x16384x128_2_2_1_1_0_0_wf
def dot_S16x16384x128_S16x3x128_S16x16384x3_2_2_1_1_0_0 : DotDims S16x16384x128 S16x3x128 S16x16384x3 where
  lhsContracting := [2]
  rhsContracting := [2]
  lhsNonContracting := [1]
  rhsNonContracting := [1]
  lhsBatch := [0]
  rhsBatch := [0]
  wf := dot_S16x16384x128_S16x3x128_S16x16384x3_2_2_1_1_0_0_wf
def dot_S16x128x4_S16384x4_S16x128x16384_2_1_01_0_n_n : DotDims S16x128x4 S16384x4 S16x128x16384 where
  lhsContracting := [2]
  rhsContracting := [1]
  lhsNonContracting := [0, 1]
  rhsNonContracting := [0]
  lhsBatch := []
  rhsBatch := []
  wf := dot_S16x128x4_S16384x4_S16x128x16384_2_1_01_0_n_n_wf
def dot_S16x16384x128_S16x4x128_S16x16384x4_2_2_1_1_0_0 : DotDims S16x16384x128 S16x4x128 S16x16384x4 where
  lhsContracting := [2]
  rhsContracting := [2]
  lhsNonContracting := [1]
  rhsNonContracting := [1]
  lhsBatch := [0]
  rhsBatch := [0]
  wf := dot_S16x16384x128_S16x4x128_S16x16384x4_2_2_1_1_0_0_wf
def dot_S16x128x1_S16384x1_S16x128x16384_2_1_01_0_n_n : DotDims S16x128x1 S16384x1 S16x128x16384 where
  lhsContracting := [2]
  rhsContracting := [1]
  lhsNonContracting := [0, 1]
  rhsNonContracting := [0]
  lhsBatch := []
  rhsBatch := []
  wf := dot_S16x128x1_S16384x1_S16x128x16384_2_1_01_0_n_n_wf
def dot_S16x16384x128_S16x1x128_S16x16384x1_2_2_1_1_0_0 : DotDims S16x16384x128 S16x1x128 S16x16384x1 where
  lhsContracting := [2]
  rhsContracting := [2]
  lhsNonContracting := [1]
  rhsNonContracting := [1]
  lhsBatch := [0]
  rhsBatch := [0]
  wf := dot_S16x16384x128_S16x1x128_S16x16384x1_2_2_1_1_0_0_wf

class Facts : Prop extends Facts₀ where

variable [Facts]
-- ==== Proof.LibExpertMlp.lean ====
/-
  A bank of independent three-layer perceptrons ("experts") applied to the same rows, entry by entry, over the extended reals.

  Expert `p` has weight matrices `w1` (H × d), `w2` (H × H), `w3` (e × H), stored one row per OUTPUT unit, and
  biases `b1`, `b2` (H), `b3` (e). On a row `x` of `d` numbers it computes
      h1 h = max (∑ⱼ x j · w1 h j + b1 h, 0),   h2 k = max (∑ₕ h1 h · w2 k h + b2 k, 0),   out o = ∑ₖ h2 k · w3 o k + b3 o.
  Below: that entry (`mlpAt`), the whole result of `P` experts on `N` rows as one array `[P, N, e]` (`mlpArr`), the product
  of an `n × K` matrix with the ROWS of an `M × K` matrix as a plain sum, and how a vector unit spells one block of rows
  of one expert (products into a zero accumulator after a change of float format, a bias recast as a row and spread over
  the rows, a maximum with a spread zero). General in every extent.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

open scoped BigOperators

namespace Cert.ExpertMlp

open Idealize.ShloMosaic Idealize.ShloMosaic.ValueIdx

/-- The number the 32-bit zero word denotes. -/
abbrev zero : EReal := Ideal.ofBits .f32 0x00000000#32

/-- One output of one expert on one row. -/
def mlpAt {d e H : ℕ} (x : Fin d → EReal) (w1 : Fin H → Fin d → EReal) (b1 : Fin H → EReal)
    (w2 : Fin H → Fin H → EReal) (b2 : Fin H → EReal) (w3 : Fin e → Fin H → EReal) (b3 : Fin e → EReal) (o : Fin e) : EReal :=
  (∑ k : Fin H, max ((∑ h : Fin H, max ((∑ j : Fin d, x j * w1 h j) + b1 h) zero * w2 k h) + b2 k) zero * w3 o k) + b3 o

/-- All `P` experts on all `N` rows: entry `(p, r, o)` is output `o` of expert `p` on row `r`. -/
def mlpArr {P N d e H : ℕ} (x : (⟨2, ![N, d]⟩ : Shape).Idx → EReal) (W1 : (⟨3, ![P, H, d]⟩ : Shape).Idx → EReal)
    (B1 : (⟨2, ![P, H]⟩ : Shape).Idx → EReal) (W2 : (⟨3, ![P, H, H]⟩ : Shape).Idx → EReal) (B2 : (⟨2, ![P, H]⟩ : Shape).Idx → EReal)
    (W3 : (⟨3, ![P, e, H]⟩ : Shape).Idx → EReal) (B3 : (⟨2, ![P, e]⟩ : Shape).Idx → EReal) : (⟨3, ![P, N, e]⟩ : Shape).Idx → EReal :=
  fun i => mlpAt (fun j => x (ix2 (i 1) j)) (fun h j => W1 (ix3 (i 0) h j)) (fun h => B1 (ix2 (i 0) h))
    (fun k h => W2 (ix3 (i 0) k h)) (fun k => B2 (ix2 (i 0) k)) (fun o k => W3 (ix3 (i 0) o k)) (fun o => B3 (ix2 (i 0) o)) (i 2)

/-- The contraction's sum of a product against the ROWS of the second matrix, re-indexed by the one contracted coordinate. -/
theorem sum_contr_rows {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's product of an `n × K` matrix with the rows of an `M × K` matrix, into the zero accumulator, at
    entry (p, c): `∑ k, lhs (p, k) · rhs (c, k)`. -/
theorem matmul_rows_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_rows D hr hs l0 l1 r0 r1 lhs rhs p c)

/-- A bias of `M` numbers held as a one-row matrix, recast as a vector, recast back as a row and spread over `n` rows,
    reads at (p, q) the bias's entry `q`. -/
theorem bias_apply {α : Type} {n M : ℕ} (b : (⟨2, ![1, M]⟩ : Shape).Idx → α)
    (h0 : (⟨2, ![1, M]⟩ : Shape).ShapeCasts ⟨1, ![M]⟩) (h1 : (⟨1, ![M]⟩ : Shape).ShapeCasts ⟨2, ![1, M]⟩)
    (h2 : (⟨2, ![1, M]⟩ : Shape).Broadcasts ⟨2, ![n, M]⟩) (p : Fin n) (q : Fin M) :
    broadcastTo ⟨2, ![n, M]⟩ (shapeCast ⟨2, ![1, M]⟩ (shapeCast ⟨1, ![M]⟩ b h0) h1) h2 (ix2 p q) = b (ix2 0 q) :=
  ((broadcastTo_1b_ab_apply _ h2 p q).trans (shapeCast_a_1a_apply _ h1 0 q)).trans (shapeCast_1a_a_apply b h0 q)

/-- One block of `n` rows through one expert, as a vector unit spells it — the rows and the first two weight matrices
    narrowed to a shorter float format, each product taken into the zero accumulator against the ROWS of the weight
    matrix (held with a leading unit axis), each bias (a one-row matrix) recast and spread over the rows, each hidden
    layer cut at a spread zero — reads at entry (r, o) output `o` of the expert on row `r`. -/
theorem body_apply {n d e H : ℕ} {ψ : FTy}
    (D1 : DotDims (⟨2, ![n, d]⟩ : Shape) (⟨2, ![H, d]⟩ : Shape) (⟨2, ![n, H]⟩ : Shape))
    (h1r : D1.contr.rank = 1) (h1s : D1.contr.size ⟨0, by omega⟩ = d)
    (l10 : ∀ (i : (⟨2, ![n, H]⟩ : Shape).Idx) (q : D1.contr.Idx), (D1.lhsIdx i q 0).val = (i 0).val)
    (l11 : ∀ (i : (⟨2, ![n, H]⟩ : Shape).Idx) (q : D1.contr.Idx), (D1.lhsIdx i q 1).val = (q ⟨0, by omega⟩).val)
    (r10 : ∀ (i : (⟨2, ![n, H]⟩ : Shape).Idx) (q : D1.contr.Idx), (D1.rhsIdx i q 0).val = (i 1).val)
    (r11 : ∀ (i : (⟨2, ![n, H]⟩ : Shape).Idx) (q : D1.contr.Idx), (D1.rhsIdx i q 1).val = (q ⟨0, by omega⟩).val)
    (D2 : DotDims (⟨2, ![n, H]⟩ : Shape) (⟨2, ![H, H]⟩ : Shape) (⟨2, ![n, H]⟩ : Shape))
    (h2r : D2.contr.rank = 1) (h2s : D2.contr.size ⟨0, by omega⟩ = H)
    (l20 : ∀ (i : (⟨2, ![n, H]⟩ : Shape).Idx) (q : D2.contr.Idx), (D2.lhsIdx i q 0).val = (i 0).val)
    (l21 : ∀ (i : (⟨2, ![n, H]⟩ : Shape).Idx) (q : D2.contr.Idx), (D2.lhsIdx i q 1).val = (q ⟨0, by omega⟩).val)
    (r20 : ∀ (i : (⟨2, ![n, H]⟩ : Shape).Idx) (q : D2.contr.Idx), (D2.rhsIdx i q 0).val = (i 1).val)
    (r21 : ∀ (i : (⟨2, ![n, H]⟩ : Shape).Idx) (q : D2.contr.Idx), (D2.rhsIdx i q 1).val = (q ⟨0, by omega⟩).val)
    (D3 : DotDims (⟨2, ![n, H]⟩ : Shape) (⟨2, ![e, H]⟩ : Shape) (⟨2, ![n, e]⟩ : Shape))
    (h3r : D3.contr.rank = 1) (h3s : D3.contr.size ⟨0, by omega⟩ = H)
    (l30 : ∀ (i : (⟨2, ![n, e]⟩ : Shape).Idx) (q : D3.contr.Idx), (D3.lhsIdx i q 0).val = (i 0).val)
    (l31 : ∀ (i : (⟨2, ![n, e]⟩ : Shape).Idx) (q : D3.contr.Idx), (D3.lhsIdx i q 1).val = (q ⟨0, by omega⟩).val)
    (r30 : ∀ (i : (⟨2, ![n, e]⟩ : Shape).Idx) (q : D3.contr.Idx), (D3.rhsIdx i q 0).val = (i 1).val)
    (r31 : ∀ (i : (⟨2, ![n, e]⟩ : Shape).Idx) (q : D3.contr.Idx), (D3.rhsIdx i q 1).val = (q ⟨0, by omega⟩).val)
    (x0 : FVec Ideal (⟨2, ![n, d]⟩ : Shape) .f32) (v3 : FVec Ideal (⟨3, ![1, H, d]⟩ : Shape) .f32)
    (v7 : FVec Ideal (⟨2, ![1, H]⟩ : Shape) .f32) (v10 : FVec Ideal (⟨3, ![1, H, H]⟩ : Shape) .f32)
    (v14 : FVec Ideal (⟨2, ![1, H]⟩ : Shape) .f32) (v17 : FVec Ideal (⟨3, ![1, e, H]⟩ : Shape) .f32)
    (v20 : FVec Ideal (⟨2, ![1, e]⟩ : Shape) .f32)
    (c1 : (⟨3, ![1, H, d]⟩ : Shape).ShapeCasts ⟨2, ![H, d]⟩) (c2 : (⟨2, ![1, H]⟩ : Shape).ShapeCasts ⟨1, ![H]⟩)
    (c3 : (⟨3, ![1, H, H]⟩ : Shape).ShapeCasts ⟨2, ![H, H]⟩) (c4 : (⟨3, ![1, e, H]⟩ : Shape).ShapeCasts ⟨2, ![e, H]⟩)
    (c5 : (⟨2, ![1, e]⟩ : Shape).ShapeCasts ⟨1, ![e]⟩) (c6 : (⟨1, ![H]⟩ : Shape).ShapeCasts ⟨2, ![1, H]⟩)
    (c7 : (⟨1, ![e]⟩ : Shape).ShapeCasts ⟨2, ![1, e]⟩) (bH : (⟨2, ![1, H]⟩ : Shape).Broadcasts ⟨2, ![n, H]⟩)
    (be : (⟨2, ![1, e]⟩ : Shape).Broadcasts ⟨2, ![n, e]⟩) (hlt : ψ.bits < FTy.f32.bits) (r : Fin n) (o : Fin e) :
    addf (matmul D3 none
        (maximumf (addf (matmul D2 none
            (truncf ψ (maximumf (addf (matmul D1 none (truncf ψ x0 hlt) (truncf ψ (shapeCast ⟨2, ![H, d]⟩ v3 c1) hlt)
                (constant (⟨2, ![n, H]⟩ : Shape) .f32 0x00000000#32))
              (broadcastTo ⟨2, ![n, H]⟩ (shapeCast ⟨2, ![1, H]⟩ (shapeCast ⟨1, ![H]⟩ v7 c2) c6) bH))
              (broadcast ⟨2, ![n, H]⟩ (Scalar.ofBits .f32 0x00000000#32))) hlt)
            (truncf ψ (shapeCast ⟨2, ![H, H]⟩ v10 c3) hlt) (constant (⟨2, ![n, H]⟩ : Shape) .f32 0x00000000#32))
          (broadcastTo ⟨2, ![n, H]⟩ (shapeCast ⟨2, ![1, H]⟩ (shapeCast ⟨1, ![H]⟩ v14 c2) c6) bH))
          (broadcast ⟨2, ![n, H]⟩ (Scalar.ofBits .f32 0x00000000#32)))
        (shapeCast ⟨2, ![e, H]⟩ v17 c4) (constant (⟨2, ![n, e]⟩ : Shape) .f32 0x00000000#32))
      (broadcastTo ⟨2, ![n, e]⟩ (shapeCast ⟨2, ![1, e]⟩ (shapeCast ⟨1, ![e]⟩ v20 c5) c7) be) (ix2 r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  simp only [mlpAt, addf_apply, maximumf_apply, broadcast_apply, truncf_apply,
    matmul_rows_apply D3 h3r h3s l30 l31 r30 r31, matmul_rows_apply D2 h2r h2s l20 l21 r20 r21,
    matmul_rows_apply D1 h1r h1s l10 l11 r10 r11, bias_apply, shapeCast_1ab_ab_apply]
  rfl

/-- An output of an expert on a row reads the row, the expert's weights and biases, and nothing else: two readings whose
    ingredients agree entry by entry agree. -/
theorem mlpAt_congr {d e H : ℕ} {x x' : Fin d → EReal} {w1 w1' : Fin H → Fin d → EReal} {b1 b1' : Fin H → EReal}
    {w2 w2' : Fin H → Fin H → EReal} {b2 b2' : Fin H → EReal} {w3 w3' : Fin e → Fin H → EReal} {b3 b3' : Fin e → EReal}
    {o o' : Fin e} (hx : ∀ j, x j = x' j) (h1 : ∀ h j, w1 h j = w1' h j) (hb1 : ∀ h, b1 h = b1' h)
    (h2 : ∀ k h, w2 k h = w2' k h) (hb2 : ∀ k, b2 k = b2' k) (h3 : ∀ q k, w3 q k = w3' q k) (hb3 : ∀ q, b3 q = b3' q)
    (ho : o = o') : mlpAt x w1 b1 w2 b2 w3 b3 o = mlpAt x' w1' b1' w2' b2' w3' b3' o' := by
  subst ho
  obtain rfl : x = x' := funext hx
  obtain rfl : w1 = w1' := funext fun h => funext (h1 h)
  obtain rfl : b1 = b1' := funext hb1
  obtain rfl : w2 = w2' := funext fun k => funext (h2 k)
  obtain rfl : b2 = b2' := funext hb2
  obtain rfl : w3 = w3' := funext fun q => funext (h3 q)
  obtain rfl : b3 = b3' := funext hb3
  rfl

/-- A load of ONE leading slice of a rank-3 array — a unit-stride rectangle of extents `[1, A, B]` at offsets
    `(p, 0, 0)`, however the offsets are spelt — reads at `(0, a, b)` the array at `(p, a, b)`. -/
theorem ld_lead3 {Val : EltTy → Type} {el : EltTy} {P A B : ℕ} (X : (⟨3, ![P, A, B]⟩ : Shape).Idx → Val el)
    (off : Fin 3 → ℕ) (inb : ∀ a, off a + (![1, A, B] : Fin 3 → ℕ) a ≤ (⟨3, ![P, A, B]⟩ : Shape).size a)
    (p : Fin P) (hoff : off = ![p.val, 0, 0]) (a : Fin A) (b : Fin B) :
    View.ld X (Rect.unit (s := ⟨3, ![P, A, B]⟩) off ![1, A, B] inb) (ix3 (0 : Fin 1) a b) = X (ix3 p a b) := by
  subst hoff
  refine congrArg X (funext fun ax => Fin.ext ?_)
  match ax with
  | ⟨0, _⟩ => show p.val + 1 * 0 = p.val; omega
  | ⟨1, _⟩ => show 0 + 1 * a.val = a.val; omega
  | ⟨2, _⟩ => show 0 + 1 * b.val = b.val; omega

/-- A load of ONE row of a matrix — a unit-stride rectangle of extents `[1, A]` at offsets `(p, 0)` — reads at
    `(0, a)` the matrix at `(p, a)`. -/
theorem ld_lead2 {Val : EltTy → Type} {el : EltTy} {P A : ℕ} (X : (⟨2, ![P, A]⟩ : Shape).Idx → Val el)
    (off : Fin 2 → ℕ) (inb : ∀ a, off a + (![1, A] : Fin 2 → ℕ) a ≤ (⟨2, ![P, A]⟩ : Shape).size a)
    (p : Fin P) (hoff : off = ![p.val, 0]) (a : Fin A) :
    View.ld X (Rect.unit (s := ⟨2, ![P, A]⟩) off ![1, A] inb) (ix2 (0 : Fin 1) a) = X (ix2 p a) := by
  subst hoff
  refine congrArg X (funext fun ax => Fin.ext ?_)
  match ax with
  | ⟨0, _⟩ => show p.val + 1 * 0 = p.val; omega
  | ⟨1, _⟩ => show 0 + 1 * a.val = a.val; omega

end Cert.ExpertMlp

end
-- ==== Proof.Payload.lean ====
/-
  The body of each pallas_call read at an entry of its block: one expert's three layers on one row.
  The dimension records of the three products contract the second coordinate of both operands, so each product is a
  sum against the ROWS of the weight matrix; the coordinate facts below are what the general reading asks of a record.
-/
import proofs.«129764_j16174846837057_2_alg».proof.Proof.Gen.KernelIdeal.Skeleton
import proofs.«129764_j16174846837057_2_alg».proof.Proof.LibExpertMlp

noncomputable section

namespace Cert.KernelIdeal.Body

open Cert.KernelIdeal Cert.KernelIdeal.Gen Idealize.ShloMosaic Idealize.ShloMosaic.ValueIdx Cert.ExpertMlp

theorem mid_l0 (i : S4096x128.Idx) (q : dot_S4096x128_S128x128_S4096x128_1_1_0_0_n_n.contr.Idx) : (dot_S4096x128_S128x128_S4096x128_1_1_0_0_n_n.lhsIdx i q 0).val = (i 0).val := by
  unfold DotDims.lhsIdx
  rw [dif_neg (show ¬(0 : Fin S4096x128.rank) ∈ dot_S4096x128_S128x128_S4096x128_1_1_0_0_n_n.lhsBatch by decide), dif_pos (show (0 : Fin S4096x128.rank) ∈ dot_S4096x128_S128x128_S4096x128_1_1_0_0_n_n.lhsNonContracting by decide)]
  rfl
theorem mid_l1 (i : S4096x128.Idx) (q : dot_S4096x128_S128x128_S4096x128_1_1_0_0_n_n.contr.Idx) : (dot_S4096x128_S128x128_S4096x128_1_1_0_0_n_n.lhsIdx i q 1).val = (q ⟨0, by decide⟩).val :=
  dot_S4096x128_S128x128_S4096x128_1_1_0_0_n_n.lhsIdx_val_of_single rfl i q
theorem mid_r0 (i : S4096x128.Idx) (q : dot_S4096x128_S128x128_S4096x128_1_1_0_0_n_n.contr.Idx) : (dot_S4096x128_S128x128_S4096x128_1_1_0_0_n_n.rhsIdx i q 0).val = (i 1).val := by
  unfold DotDims.rhsIdx
  rw [dif_neg (show ¬(0 : Fin S128x128.rank) ∈ dot_S4096x128_S128x128_S4096x128_1_1_0_0_n_n.rhsBatch by decide), dif_pos (show (0 : Fin S128x128.rank) ∈ dot_S4096x128_S128x128_S4096x128_1_1_0_0_n_n.rhsNonContracting by decide)]
  rfl
theorem mid_r1 (i : S4096x128.Idx) (q : dot_S4096x128_S128x128_S4096x128_1_1_0_0_n_n.contr.Idx) : (dot_S4096x128_S128x128_S4096x128_1_1_0_0_n_n.rhsIdx i q 1).val = (q ⟨0, by decide⟩).val :=
  dot_S4096x128_S128x128_S4096x128_1_1_0_0_n_n.rhsIdx_val_of_single rfl i q

theorem in3_l0 (i : S4096x128.Idx) (q : dot_S4096x3_S128x3_S4096x128_1_1_0_0_n_n.contr.Idx) : (dot_S4096x3_S128x3_S4096x128_1_1_0_0_n_n.lhsIdx i q 0).val = (i 0).val := by
  unfold DotDims.lhsIdx
  rw [dif_neg (show ¬(0 : Fin S4096x3.rank) ∈ dot_S4096x3_S128x3_S4096x128_1_1_0_0_n_n.lhsBatch by decide), dif_pos (show (0 : Fin S4096x3.rank) ∈ dot_S4096x3_S128x3_S4096x128_1_1_0_0_n_n.lhsNonContracting by decide)]
  rfl
theorem in3_l1 (i : S4096x128.Idx) (q : dot_S4096x3_S128x3_S4096x128_1_1_0_0_n_n.contr.Idx) : (dot_S4096x3_S128x3_S4096x128_1_1_0_0_n_n.lhsIdx i q 1).val = (q ⟨0, by decide⟩).val :=
  dot_S4096x3_S128x3_S4096x128_1_1_0_0_n_n.lhsIdx_val_of_single rfl i q
theorem in3_r0 (i : S4096x128.Idx) (q : dot_S4096x3_S128x3_S4096x128_1_1_0_0_n_n.contr.Idx) : (dot_S4096x3_S128x3_S4096x128_1_1_0_0_n_n.rhsIdx i q 0).val = (i 1).val := by
  unfold DotDims.rhsIdx
  rw [dif_neg (show ¬(0 : Fin S128x3.rank) ∈ dot_S4096x3_S128x3_S4096x128_1_1_0_0_n_n.rhsBatch by decide), dif_pos (show (0 : Fin S128x3.rank) ∈ dot_S4096x3_S128x3_S4096x128_1_1_0_0_n_n.rhsNonContracting by decide)]
  rfl
theorem in3_r1 (i : S4096x128.Idx) (q : dot_S4096x3_S128x3_S4096x128_1_1_0_0_n_n.contr.Idx) : (dot_S4096x3_S128x3_S4096x128_1_1_0_0_n_n.rhsIdx i q 1).val = (q ⟨0, by decide⟩).val :=
  dot_S4096x3_S128x3_S4096x128_1_1_0_0_n_n.rhsIdx_val_of_single rfl i q

theorem out3_l0 (i : S4096x3.Idx) (q : dot_S4096x128_S3x128_S4096x3_1_1_0_0_n_n.contr.Idx) : (dot_S4096x128_S3x128_S4096x3_1_1_0_0_n_n.lhsIdx i q 0).val = (i 0).val := by
  unfold DotDims.lhsIdx
  rw [dif_neg (show ¬(0 : Fin S4096x128.rank) ∈ dot_S4096x128_S3x128_S4096x3_1_1_0_0_n_n.lhsBatch by decide), dif_pos (show (0 : Fin S4096x128.rank) ∈ dot_S4096x128_S3x128_S4096x3_1_1_0_0_n_n.lhsNonContracting by decide)]
  rfl
theorem out3_l1 (i : S4096x3.Idx) (q : dot_S4096x128_S3x128_S4096x3_1_1_0_0_n_n.contr.Idx) : (dot_S4096x128_S3x128_S4096x3_1_1_0_0_n_n.lhsIdx i q 1).val = (q ⟨0, by decide⟩).val :=
  dot_S4096x128_S3x128_S4096x3_1_1_0_0_n_n.lhsIdx_val_of_single rfl i q
theorem out3_r0 (i : S4096x3.Idx) (q : dot_S4096x128_S3x128_S4096x3_1_1_0_0_n_n.contr.Idx) : (dot_S4096x128_S3x128_S4096x3_1_1_0_0_n_n.rhsIdx i q 0).val = (i 1).val := by
  unfold DotDims.rhsIdx
  rw [dif_neg (show ¬(0 : Fin S3x128.rank) ∈ dot_S4096x128_S3x128_S4096x3_1_1_0_0_n_n.rhsBatch by decide), dif_pos (show (0 : Fin S3x128.rank) ∈ dot_S4096x128_S3x128_S4096x3_1_1_0_0_n_n.rhsNonContracting by decide)]
  rfl
theorem out3_r1 (i : S4096x3.Idx) (q : dot_S4096x128_S3x128_S4096x3_1_1_0_0_n_n.contr.Idx) : (dot_S4096x128_S3x128_S4096x3_1_1_0_0_n_n.rhsIdx i q 1).val = (q ⟨0, by decide⟩).val :=
  dot_S4096x128_S3x128_S4096x3_1_1_0_0_n_n.rhsIdx_val_of_single rfl i q

theorem in4_l0 (i : S4096x128.Idx) (q : dot_S4096x4_S128x4_S4096x128_1_1_0_0_n_n.contr.Idx) : (dot_S4096x4_S128x4_S4096x128_1_1_0_0_n_n.lhsIdx i q 0).val = (i 0).val := by
  unfold DotDims.lhsIdx
  rw [dif_neg (show ¬(0 : Fin S4096x4.rank) ∈ dot_S4096x4_S128x4_S4096x128_1_1_0_0_n_n.lhsBatch by decide), dif_pos (show (0 : Fin S4096x4.rank) ∈ dot_S4096x4_S128x4_S4096x128_1_1_0_0_n_n.lhsNonContracting by decide)]
  rfl
theorem in4_l1 (i : S4096x128.Idx) (q : dot_S4096x4_S128x4_S4096x128_1_1_0_0_n_n.contr.Idx) : (dot_S4096x4_S128x4_S4096x128_1_1_0_0_n_n.lhsIdx i q 1).val = (q ⟨0, by decide⟩).val :=
  dot_S4096x4_S128x4_S4096x128_1_1_0_0_n_n.lhsIdx_val_of_single rfl i q
theorem in4_r0 (i : S4096x128.Idx) (q : dot_S4096x4_S128x4_S4096x128_1_1_0_0_n_n.contr.Idx) : (dot_S4096x4_S128x4_S4096x128_1_1_0_0_n_n.rhsIdx i q 0).val = (i 1).val := by
  unfold DotDims.rhsIdx
  rw [dif_neg (show ¬(0 : Fin S128x4.rank) ∈ dot_S4096x4_S128x4_S4096x128_1_1_0_0_n_n.rhsBatch by decide), dif_pos (show (0 : Fin S128x4.rank) ∈ dot_S4096x4_S128x4_S4096x128_1_1_0_0_n_n.rhsNonContracting by decide)]
  rfl
theorem in4_r1 (i : S4096x128.Idx) (q : dot_S4096x4_S128x4_S4096x128_1_1_0_0_n_n.contr.Idx) : (dot_S4096x4_S128x4_S4096x128_1_1_0_0_n_n.rhsIdx i q 1).val = (q ⟨0, by decide⟩).val :=
  dot_S4096x4_S128x4_S4096x128_1_1_0_0_n_n.rhsIdx_val_of_single rfl i q

theorem out4_l0 (i : S4096x4.Idx) (q : dot_S4096x128_S4x128_S4096x4_1_1_0_0_n_n.contr.Idx) : (dot_S4096x128_S4x128_S4096x4_1_1_0_0_n_n.lhsIdx i q 0).val = (i 0).val := by
  unfold DotDims.lhsIdx
  rw [dif_neg (show ¬(0 : Fin S4096x128.rank) ∈ dot_S4096x128_S4x128_S4096x4_1_1_0_0_n_n.lhsBatch by decide), dif_pos (show (0 : Fin S4096x128.rank) ∈ dot_S4096x128_S4x128_S4096x4_1_1_0_0_n_n.lhsNonContracting by decide)]
  rfl
theorem out4_l1 (i : S4096x4.Idx) (q : dot_S4096x128_S4x128_S4096x4_1_1_0_0_n_n.contr.Idx) : (dot_S4096x128_S4x128_S4096x4_1_1_0_0_n_n.lhsIdx i q 1).val = (q ⟨0, by decide⟩).val :=
  dot_S4096x128_S4x128_S4096x4_1_1_0_0_n_n.lhsIdx_val_of_single rfl i q
theorem out4_r0 (i : S4096x4.Idx) (q : dot_S4096x128_S4x128_S4096x4_1_1_0_0_n_n.contr.Idx) : (dot_S4096x128_S4x128_S4096x4_1_1_0_0_n_n.rhsIdx i q 0).val = (i 1).val := by
  unfold DotDims.rhsIdx
  rw [dif_neg (show ¬(0 : Fin S4x128.rank) ∈ dot_S4096x128_S4x128_S4096x4_1_1_0_0_n_n.rhsBatch by decide), dif_pos (show (0 : Fin S4x128.rank) ∈ dot_S4096x128_S4x128_S4096x4_1_1_0_0_n_n.rhsNonContracting by decide)]
  rfl
theorem out4_r1 (i : S4096x4.Idx) (q : dot_S4096x128_S4x128_S4096x4_1_1_0_0_n_n.contr.Idx) : (dot_S4096x128_S4x128_S4096x4_1_1_0_0_n_n.rhsIdx i q 1).val = (q ⟨0, by decide⟩).val :=
  dot_S4096x128_S4x128_S4096x4_1_1_0_0_n_n.rhsIdx_val_of_single rfl i q

theorem in1_l0 (i : S4096x128.Idx) (q : dot_S4096x1_S128x1_S4096x128_1_1_0_0_n_n.contr.Idx) : (dot_S4096x1_S128x1_S4096x128_1_1_0_0_n_n.lhsIdx i q 0).val = (i 0).val := by
  unfold DotDims.lhsIdx
  rw [dif_neg (show ¬(0 : Fin S4096x1.rank) ∈ dot_S4096x1_S128x1_S4096x128_1_1_0_0_n_n.lhsBatch by decide), dif_pos (show (0 : Fin S4096x1.rank) ∈ dot_S4096x1_S128x1_S4096x128_1_1_0_0_n_n.lhsNonContracting by decide)]
  rfl
theorem in1_l1 (i : S4096x128.Idx) (q : dot_S4096x1_S128x1_S4096x128_1_1_0_0_n_n.contr.Idx) : (dot_S4096x1_S128x1_S4096x128_1_1_0_0_n_n.lhsIdx i q 1).val = (q ⟨0, by decide⟩).val :=
  dot_S4096x1_S128x1_S4096x128_1_1_0_0_n_n.lhsIdx_val_of_single rfl i q
theorem in1_r0 (i : S4096x128.Idx) (q : dot_S4096x1_S128x1_S4096x128_1_1_0_0_n_n.contr.Idx) : (dot_S4096x1_S128x1_S4096x128_1_1_0_0_n_n.rhsIdx i q 0).val = (i 1).val := by
  unfold DotDims.rhsIdx
  rw [dif_neg (show ¬(0 : Fin S128x1.rank) ∈ dot_S4096x1_S128x1_S4096x128_1_1_0_0_n_n.rhsBatch by decide), dif_pos (show (0 : Fin S128x1.rank) ∈ dot_S4096x1_S128x1_S4096x128_1_1_0_0_n_n.rhsNonContracting by decide)]
  rfl
theorem in1_r1 (i : S4096x128.Idx) (q : dot_S4096x1_S128x1_S4096x128_1_1_0_0_n_n.contr.Idx) : (dot_S4096x1_S128x1_S4096x128_1_1_0_0_n_n.rhsIdx i q 1).val = (q ⟨0, by decide⟩).val :=
  dot_S4096x1_S128x1_S4096x128_1_1_0_0_n_n.rhsIdx_val_of_single rfl i q

theorem out1_l0 (i : S4096x1.Idx) (q : dot_S4096x128_S1x128_S4096x1_1_1_0_0_n_n.contr.Idx) : (dot_S4096x128_S1x128_S4096x1_1_1_0_0_n_n.lhsIdx i q 0).val = (i 0).val := by
  unfold DotDims.lhsIdx
  rw [dif_neg (show ¬(0 : Fin S4096x128.rank) ∈ dot_S4096x128_S1x128_S4096x1_1_1_0_0_n_n.lhsBatch by decide), dif_pos (show (0 : Fin S4096x128.rank) ∈ dot_S4096x128_S1x128_S4096x1_1_1_0_0_n_n.lhsNonContracting by decide)]
  rfl
theorem out1_l1 (i : S4096x1.Idx) (q : dot_S4096x128_S1x128_S4096x1_1_1_0_0_n_n.contr.Idx) : (dot_S4096x128_S1x128_S4096x1_1_1_0_0_n_n.lhsIdx i q 1).val = (q ⟨0, by decide⟩).val :=
  dot_S4096x128_S1x128_S4096x1_1_1_0_0_n_n.lhsIdx_val_of_single rfl i q
theorem out1_r0 (i : S4096x1.Idx) (q : dot_S4096x128_S1x128_S4096x1_1_1_0_0_n_n.contr.Idx) : (dot_S4096x128_S1x128_S4096x1_1_1_0_0_n_n.rhsIdx i q 0).val = (i 1).val := by
  unfold DotDims.rhsIdx
  rw [dif_neg (show ¬(0 : Fin S1x128.rank) ∈ dot_S4096x128_S1x128_S4096x1_1_1_0_0_n_n.rhsBatch by decide), dif_pos (show (0 : Fin S1x128.rank) ∈ dot_S4096x128_S1x128_S4096x1_1_1_0_0_n_n.rhsNonContracting by decide)]
  rfl
theorem out1_r1 (i : S4096x1.Idx) (q : dot_S4096x128_S1x128_S4096x1_1_1_0_0_n_n.contr.Idx) : (dot_S4096x128_S1x128_S4096x1_1_1_0_0_n_n.rhsIdx i q 1).val = (q ⟨0, by decide⟩).val :=
  dot_S4096x128_S1x128_S4096x1_1_1_0_0_n_n.rhsIdx_val_of_single rfl i q

/-- Region 0's body at entry (r, o) of its block: output `o` of the point's expert on row `r` of the block of rows. -/
theorem pay0_apply (x0 : Vec Ideal S4096x3 .f32) (v3 : Vec Ideal S1x128x3 .f32) (v7 : Vec Ideal S1x128 .f32)
    (v10 : Vec Ideal S1x128x128 .f32) (v14 : Vec Ideal S1x128 .f32) (v17 : Vec Ideal S1x3x128 .f32) (v20 : Vec Ideal S1x3 .f32)
    (u : Fin 1) (r : Fin 4096) (o : Fin 3) :
    k0_pay1 (F := Ideal) (k0_pay2 x0 v3 v7 v10 v14 v17 v20) (ix3 u r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  unfold k0_pay1
  refine (shapeCast_ab_1ab_apply _ _ u r o).trans ?_
  unfold k0_pay2
  exact body_apply (ψ := .bf16) dot_S4096x3_S128x3_S4096x128_1_1_0_0_n_n rfl rfl in3_l0 in3_l1 in3_r0 in3_r1
    dot_S4096x128_S128x128_S4096x128_1_1_0_0_n_n rfl rfl mid_l0 mid_l1 mid_r0 mid_r1
    dot_S4096x128_S3x128_S4096x3_1_1_0_0_n_n rfl rfl out3_l0 out3_l1 out3_r0 out3_r1
    x0 v3 v7 v10 v14 v17 v20 _ _ _ _ _ _ _ _ _ _ r o

/-- Region 1's body at entry (r, o) of its block: output `o` of the point's expert on row `r` of the block of rows. -/
theorem pay1_apply (x0 : Vec Ideal S4096x3 .f32) (v3 : Vec Ideal S1x128x3 .f32) (v7 : Vec Ideal S1x128 .f32)
    (v10 : Vec Ideal S1x128x128 .f32) (v14 : Vec Ideal S1x128 .f32) (v17 : Vec Ideal S1x3x128 .f32) (v20 : Vec Ideal S1x3 .f32)
    (u : Fin 1) (r : Fin 4096) (o : Fin 3) :
    k1_pay1 (F := Ideal) (k1_pay2 x0 v3 v7 v10 v14 v17 v20) (ix3 u r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  unfold k1_pay1
  refine (shapeCast_ab_1ab_apply _ _ u r o).trans ?_
  unfold k1_pay2
  exact body_apply (ψ := .bf16) dot_S4096x3_S128x3_S4096x128_1_1_0_0_n_n rfl rfl in3_l0 in3_l1 in3_r0 in3_r1
    dot_S4096x128_S128x128_S4096x128_1_1_0_0_n_n rfl rfl mid_l0 mid_l1 mid_r0 mid_r1
    dot_S4096x128_S3x128_S4096x3_1_1_0_0_n_n rfl rfl out3_l0 out3_l1 out3_r0 out3_r1
    x0 v3 v7 v10 v14 v17 v20 _ _ _ _ _ _ _ _ _ _ r o

/-- Region 2's body at entry (r, o) of its block: output `o` of the point's expert on row `r` of the block of rows. -/
theorem pay2_apply (x0 : Vec Ideal S4096x3 .f32) (v3 : Vec Ideal S1x128x3 .f32) (v7 : Vec Ideal S1x128 .f32)
    (v10 : Vec Ideal S1x128x128 .f32) (v14 : Vec Ideal S1x128 .f32) (v17 : Vec Ideal S1x3x128 .f32) (v20 : Vec Ideal S1x3 .f32)
    (u : Fin 1) (r : Fin 4096) (o : Fin 3) :
    k2_pay1 (F := Ideal) (k2_pay2 x0 v3 v7 v10 v14 v17 v20) (ix3 u r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  unfold k2_pay1
  refine (shapeCast_ab_1ab_apply _ _ u r o).trans ?_
  unfold k2_pay2
  exact body_apply (ψ := .bf16) dot_S4096x3_S128x3_S4096x128_1_1_0_0_n_n rfl rfl in3_l0 in3_l1 in3_r0 in3_r1
    dot_S4096x128_S128x128_S4096x128_1_1_0_0_n_n rfl rfl mid_l0 mid_l1 mid_r0 mid_r1
    dot_S4096x128_S3x128_S4096x3_1_1_0_0_n_n rfl rfl out3_l0 out3_l1 out3_r0 out3_r1
    x0 v3 v7 v10 v14 v17 v20 _ _ _ _ _ _ _ _ _ _ r o

/-- Region 3's body at entry (r, o) of its block: output `o` of the point's expert on row `r` of the block of rows. -/
theorem pay3_apply (x0 : Vec Ideal S4096x4 .f32) (v3 : Vec Ideal S1x128x4 .f32) (v7 : Vec Ideal S1x128 .f32)
    (v10 : Vec Ideal S1x128x128 .f32) (v14 : Vec Ideal S1x128 .f32) (v17 : Vec Ideal S1x4x128 .f32) (v20 : Vec Ideal S1x4 .f32)
    (u : Fin 1) (r : Fin 4096) (o : Fin 4) :
    k3_pay1 (F := Ideal) (k3_pay2 x0 v3 v7 v10 v14 v17 v20) (ix3 u r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  unfold k3_pay1
  refine (shapeCast_ab_1ab_apply _ _ u r o).trans ?_
  unfold k3_pay2
  exact body_apply (ψ := .bf16) dot_S4096x4_S128x4_S4096x128_1_1_0_0_n_n rfl rfl in4_l0 in4_l1 in4_r0 in4_r1
    dot_S4096x128_S128x128_S4096x128_1_1_0_0_n_n rfl rfl mid_l0 mid_l1 mid_r0 mid_r1
    dot_S4096x128_S4x128_S4096x4_1_1_0_0_n_n rfl rfl out4_l0 out4_l1 out4_r0 out4_r1
    x0 v3 v7 v10 v14 v17 v20 _ _ _ _ _ _ _ _ _ _ r o

/-- Region 4's body at entry (r, o) of its block: output `o` of the point's expert on row `r` of the block of rows. -/
theorem pay4_apply (x0 : Vec Ideal S4096x1 .f32) (v3 : Vec Ideal S1x128x1 .f32) (v7 : Vec Ideal S1x128 .f32)
    (v10 : Vec Ideal S1x128x128 .f32) (v14 : Vec Ideal S1x128 .f32) (v17 : Vec Ideal S1x1x128 .f32) (v20 : Vec Ideal S1x1 .f32)
    (u : Fin 1) (r : Fin 4096) (o : Fin 1) :
    k4_pay1 (F := Ideal) (k4_pay2 x0 v3 v7 v10 v14 v17 v20) (ix3 u r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  unfold k4_pay1
  refine (shapeCast_ab_1ab_apply _ _ u r o).trans ?_
  unfold k4_pay2
  exact body_apply (ψ := .bf16) dot_S4096x1_S128x1_S4096x128_1_1_0_0_n_n rfl rfl in1_l0 in1_l1 in1_r0 in1_r1
    dot_S4096x128_S128x128_S4096x128_1_1_0_0_n_n rfl rfl mid_l0 mid_l1 mid_r0 mid_r1
    dot_S4096x128_S1x128_S4096x1_1_1_0_0_n_n rfl rfl out1_l0 out1_l1 out1_r0 out1_r1
    x0 v3 v7 v10 v14 v17 v20 _ _ _ _ _ _ _ _ _ _ r o

end Cert.KernelIdeal.Body

end
-- ==== Proof.Region0.lean ====
/-
  Pallas call 0: what its result array holds after the run, as one function of the arrays the call is entered with.
  A grid point (p, n) loads block n of 4096 rows and, through offsets computed from p, expert p's weights and biases; it
  writes block (p, n) of the result. So the result array [16, 16384, 3] ends at the experts' outputs on every row.
-/
import proofs.«129764_j16174846837057_2_alg».proof.Proof.Gen.KernelIdeal.Frame
import proofs.«129764_j16174846837057_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Body Cert.ExpertMlp

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at entry (u, r, o): output `o` of expert `i 0` on row `r` of the
    block of rows — the loads through computed offsets read the expert's slice of each weight and bias array. -/
theorem out_at (c : Dev nD) (i : grid0.Coords) (a2 : Memref sig .tc .vmem S4096x3 .f32) (h2 : a2.IsWhole) (a3 : Memref sig .tc .vmem S16x128x3 .f32) (h3 : a3.IsWhole) (a4 : Memref sig .tc .vmem S16x128 .f32) (h4 : a4.IsWhole) (a5 : Memref sig .tc .vmem S16x128x128 .f32) (h5 : a5.IsWhole) (a6 : Memref sig .tc .vmem S16x128 .f32) (h6 : a6.IsWhole) (a7 : Memref sig .tc .vmem S16x3x128 .f32) (h7 : a7.IsWhole) (a8 : Memref sig .tc .vmem S16x3 .f32) (h8 : a8.IsWhole) (a9 : Memref sig .tc .vmem S1x4096x3 .f32) (h9 : a9.IsWhole)
    (x0 : Vec Ideal S4096x3 .f32) (x1 : Vec Ideal S16x128x3 .f32) (x2 : Vec Ideal S16x128 .f32) (x3 : Vec Ideal S16x128x128 .f32) (x4 : Vec Ideal S16x128 .f32) (x5 : Vec Ideal S16x3x128 .f32) (x6 : Vec Ideal S16x3 .f32)
    (u : Fin 1) (r : Fin 4096) (o : Fin 3) :
    out0_A_7 (F := Ideal) c i a2 h2 a3 h3 a4 h4 a5 h5 a6 h6 a7 h7 a8 h8 a9 h9 x0 x1 x2 x3 x4 x5 x6 (ix3 u r o)
      = mlpAt (fun j => x0 (ix2 r j)) (fun h j => x1 (ix3 (i 0) h j)) (fun h => x2 (ix2 (i 0) h))
          (fun k h => x3 (ix3 (i 0) k h)) (fun k => x4 (ix2 (i 0) k)) (fun q k => x5 (ix3 (i 0) q k))
          (fun q => x6 (ix2 (i 0) q)) o := by
  unfold out0_A_7
  rw [View.read_writes_eq_canon _ _ _ (cover0_A_7 c i a2 h2 a3 h3 a4 h4 a5 h5 a6 h6 a7 h7 a8 h8 a9 h9 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S4096x3) hz2]
  refine (pay0_apply _ _ _ _ _ _ _ u r o).trans ?_
  exact mlpAt_congr (fun j => rfl) (fun h j => ld_lead3 x1 _ _ (i 0) (k0_off1_eq i) h j)
    (fun h => ld_lead2 x2 _ _ (i 0) (k0_off2_eq i) h) (fun k h => ld_lead3 x3 _ _ (i 0) (k0_off3_eq i) k h)
    (fun k => ld_lead2 x4 _ _ (i 0) (k0_off2_eq i) k) (fun q k => ld_lead3 x5 _ _ (i 0) (k0_off4_eq i) q k)
    (fun q => ld_lead2 x6 _ _ (i 0) (k0_off5_eq i) q) rfl

variable (V : (c : Dev nD) → (b : Ref sig .tc) → Buf (Elt Ideal) ((c : Thread nD τ).loc b))

/-- What a grid point leaves in the output's staging buffer, over the blocks its windows hold. -/
theorem outsAt_at (c : Dev nD) (t : Fin cfg0.N) (u : Fin 1) (r : Fin 4096) (o : Fin 3) :
    outsAt0 (F := Ideal) V c t (ix3 u r o)
      = mlpAt (fun j => (iblk0 V c 0 t : Vec Ideal S4096x3 .f32) (ix2 r j))
          (fun h j => (iblk0 V c 1 t : Vec Ideal S16x128x3 .f32) (ix3 (grid0.coords t 0) h j))
          (fun h => (iblk0 V c 2 t : Vec Ideal S16x128 .f32) (ix2 (grid0.coords t 0) h))
          (fun k h => (iblk0 V c 3 t : Vec Ideal S16x128x128 .f32) (ix3 (grid0.coords t 0) k h))
          (fun k => (iblk0 V c 4 t : Vec Ideal S16x128 .f32) (ix2 (grid0.coords t 0) k))
          (fun q k => (iblk0 V c 5 t : Vec Ideal S16x3x128 .f32) (ix3 (grid0.coords t 0) q k))
          (fun q => (iblk0 V c 6 t : Vec Ideal S16x3 .f32) (ix2 (grid0.coords t 0) q)) o := by
  unfold outsAt0
  exact out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (iblk0 V c 6 t) u r o

/-- The result array [16, 16384, 3] as one function of the arrays the call is entered with: every expert on every row. -/
abbrev G (c : Dev nD) : S16x16384x3.Idx → EReal :=
  mlpArr (P := 16) (N := 16384) (d := 3) (e := 3) (H := 128) (V c main_arg0) (V c main_arg5) (V c main_arg6)
    (V c main_arg7) (V c main_arg8) (V c main_arg9) (V c main_arg10)

/-- The printed index maps over the grid: the rows' window moves with the result's second block coordinate, the six
    weight and bias windows stay at block zero, and the point's first coordinate is the result's first block coordinate. -/
theorem idx_facts : ∀ t : Fin cfg0.N,
    win0_0.index t (0 : Fin 2) = win0_7.index t (1 : Fin 3) ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (2 : Fin 3) = 0 ∧ (grid0.coords t 0).val = win0_7.index t (0 : Fin 3)
    ∧ win0_7.index t (0 : Fin 3) ≤ 15 ∧ win0_7.index t (1 : Fin 3) ≤ 3 :=
  (by decide +kernel : ∀ t : Fin grid0.N, _)

/-- Every block (p, n) of the result is some point's. -/
theorem idx_onto : ∀ (q0 : Fin 16) (q1 : Fin 4), ∃ t : Fin cfg0.N, win0_7.index t = ![q0.val, q1.val, 0] :=
  (by decide +kernel : ∀ (q0 : Fin 16) (q1 : Fin 4), ∃ t : Fin grid0.N, win0_7.index t = ![q0.val, q1.val, 0])

/-- What point `t` writes back is block `t` of `G`: the row block it loaded is rows 4096·n … of the rows array, and the
    slices it loaded are expert p's. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  obtain ⟨e00, e01, e10, e11, e12, e20, e21, e30, e31, e32, e40, e41, e50, e51, e52, e60, e61, e72, ep, b0, b1⟩ := idx_facts t
  funext y
  obtain ⟨u, r, o, rfl⟩ : ∃ (u : Fin 1) (r : Fin 4096) (o : Fin 3), y = ix3 u r o := ⟨y 0, y 1, y 2, eq_ix3 y⟩
  have hu : u.val = 0 := by have := u.isLt; omega
  refine (outsAt_at V c t u r o).trans ?_
  show _ = G V c (((cfg0.win 7).blk t).view.emb (ix3 u r o))
  unfold G mlpArr
  refine mlpAt_congr ?_ ?_ ?_ ?_ ?_ ?_ ?_ ?_
  · intro j
    show V c main_arg0 (((cfg0.win 0).blk t).view.emb (ix2 r j)) = V c main_arg0 (ix2 ((((cfg0.win 7).blk t).view.emb (ix3 u r o)) 1) j)
    refine congrArg (V c main_arg0) (funext fun ax => Fin.ext ?_)
    match ax with
    | ⟨0, _⟩ => show win0_0.index t (0 : Fin 2) * 4096 + 1 * r.val = win0_7.index t (1 : Fin 3) * 4096 + 1 * r.val; omega
    | ⟨1, _⟩ => show win0_0.index t (1 : Fin 2) * 3 + 1 * j.val = j.val; omega
  · intro h j
    show V c main_arg5 (((cfg0.win 1).blk t).view.emb (ix3 (grid0.coords t 0) h j)) = V c main_arg5 (ix3 ((((cfg0.win 7).blk t).view.emb (ix3 u r o)) 0) h j)
    refine congrArg (V c main_arg5) (funext fun ax => Fin.ext ?_)
    match ax with
    | ⟨0, _⟩ => show win0_1.index t (0 : Fin 3) * 16 + 1 * (grid0.coords t 0).val = win0_7.index t (0 : Fin 3) * 1 + 1 * u.val; omega
    | ⟨1, _⟩ => show win0_1.index t (1 : Fin 3) * 128 + 1 * h.val = h.val; omega
    | ⟨2, _⟩ => show win0_1.index t (2 : Fin 3) * 3 + 1 * j.val = j.val; omega
  · intro h
    show V c main_arg6 (((cfg0.win 2).blk t).view.emb (ix2 (grid0.coords t 0) h)) = V c main_arg6 (ix2 ((((cfg0.win 7).blk t).view.emb (ix3 u r o)) 0) h)
    refine congrArg (V c main_arg6) (funext fun ax => Fin.ext ?_)
    match ax with
    | ⟨0, _⟩ => show win0_2.index t (0 : Fin 2) * 16 + 1 * (grid0.coords t 0).val = win0_7.index t (0 : Fin 3) * 1 + 1 * u.val; omega
    | ⟨1, _⟩ => show win0_2.index t (1 : Fin 2) * 128 + 1 * h.val = h.val; omega
  · intro k h
    show V c main_arg7 (((cfg0.win 3).blk t).view.emb (ix3 (grid0.coords t 0) k h)) = V c main_arg7 (ix3 ((((cfg0.win 7).blk t).view.emb (ix3 u r o)) 0) k h)
    refine congrArg (V c main_arg7) (funext fun ax => Fin.ext ?_)
    match ax with
    | ⟨0, _⟩ => show win0_3.index t (0 : Fin 3) * 16 + 1 * (grid0.coords t 0).val = win0_7.index t (0 : Fin 3) * 1 + 1 * u.val; omega
    | ⟨1, _⟩ => show win0_3.index t (1 : Fin 3) * 128 + 1 * k.val = k.val; omega
    | ⟨2, _⟩ => show win0_3.index t (2 : Fin 3) * 128 + 1 * h.val = h.val; omega
  · intro k
    show V c main_arg8 (((cfg0.win 4).blk t).view.emb (ix2 (grid0.coords t 0) k)) = V c main_arg8 (ix2 ((((cfg0.win 7).blk t).view.emb (ix3 u r o)) 0) k)
    refine congrArg (V c main_arg8) (funext fun ax => Fin.ext ?_)
    match ax with
    | ⟨0, _⟩ => show win0_4.index t (0 : Fin 2) * 16 + 1 * (grid0.coords t 0).val = win0_7.index t (0 : Fin 3) * 1 + 1 * u.val; omega
    | ⟨1, _⟩ => show win0_4.index t (1 : Fin 2) * 128 + 1 * k.val = k.val; omega
  · intro q k
    show V c main_arg9 (((cfg0.win 5).blk t).view.emb (ix3 (grid0.coords t 0) q k)) = V c main_arg9 (ix3 ((((cfg0.win 7).blk t).view.emb (ix3 u r o)) 0) q k)
    refine congrArg (V c main_arg9) (funext fun ax => Fin.ext ?_)
    match ax with
    | ⟨0, _⟩ => show win0_5.index t (0 : Fin 3) * 16 + 1 * (grid0.coords t 0).val = win0_7.index t (0 : Fin 3) * 1 + 1 * u.val; omega
    | ⟨1, _⟩ => show win0_5.index t (1 : Fin 3) * 3 + 1 * q.val = q.val; omega
    | ⟨2, _⟩ => show win0_5.index t (2 : Fin 3) * 128 + 1 * k.val = k.val; omega
  · intro q
    show V c main_arg10 (((cfg0.win 6).blk t).view.emb (ix2 (grid0.coords t 0) q)) = V c main_arg10 (ix2 ((((cfg0.win 7).blk t).view.emb (ix3 u r o)) 0) q)
    refine congrArg (V c main_arg10) (funext fun ax => Fin.ext ?_)
    match ax with
    | ⟨0, _⟩ => show win0_6.index t (0 : Fin 2) * 16 + 1 * (grid0.coords t 0).val = win0_7.index t (0 : Fin 3) * 1 + 1 * u.val; omega
    | ⟨1, _⟩ => show win0_6.index t (1 : Fin 2) * 3 + 1 * q.val = q.val; omega
  · exact Fin.ext (show o.val = win0_7.index t (2 : Fin 3) * 3 + 1 * o.val by omega)

/-- An index of the result array is in point `t`'s block iff each coordinate is in the block's range on its axis. -/
theorem mem_blk (t : Fin cfg0.N) (i : S16x16384x3.Idx) :
    i ∈ ((cfg0.win 7).blk t).view.set ↔ ∀ a : Fin 3, win0_7.index t a * S1x4096x3.size a ≤ (i a).val ∧ (i a).val < win0_7.index t a * S1x4096x3.size a + S1x4096x3.size a := by
  show i ∈ ((View.whole main_v0).slice (win0_7.rect t)).set ↔ _
  rw [View.set_slice_whole, Rect.mem_set_unit]
  exact Iff.rfl

/-- The blocks cover the result array: entry (p, r, o) is in the block of the point (p, r / 4096). -/
theorem cover (i : S16x16384x3.Idx) :
    ∃ t : Fin cfg0.N, (cfg0.win 7).flush t = true ∧ i ∈ ((cfg0.win 7).blk t).view.set := by
  have hi0 : (i 0).val < 16 := (i 0).isLt
  have hi1 : (i 1).val < 16384 := (i 1).isLt
  have hi2 : (i 2).val < 3 := (i 2).isLt
  obtain ⟨t, ht⟩ := idx_onto ⟨(i 0).val, hi0⟩ ⟨(i 1).val / 4096, by omega⟩
  have q0 : win0_7.index t (0 : Fin 3) = (i 0).val := congrFun ht 0
  have q1 : win0_7.index t (1 : Fin 3) = (i 1).val / 4096 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 3 ≤ (i 2).val ∧ (i 2).val < win0_7.index t (2 : Fin 3) * 3 + 3; omega

/-- The result array after the call: the experts' outputs on every row, over the arrays the call was entered with. -/
theorem final (c : Dev nD) : (dat0 V c).arrAt 7 cfg0.N = G V c :=
  (dat0 V c).arrAt_eq_of_cover 7 (G V c) (fun t _ => flushed_eq V c t) (cover)

end Cert.KernelIdeal.Region0

end
-- ==== Proof.Region1.lean ====
/-
  Pallas call 1: what its result array holds after the run, as one function of the arrays the call is entered with.
  A grid point (p, n) loads block n of 4096 rows and, through offsets computed from p, expert p's weights and biases; it
  writes block (p, n) of the result. So the result array [16, 16384, 3] ends at the experts' outputs on every row.
-/
import proofs.«129764_j16174846837057_2_alg».proof.Proof.Gen.KernelIdeal.Frame
import proofs.«129764_j16174846837057_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Body Cert.ExpertMlp

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at entry (u, r, o): output `o` of expert `i 0` on row `r` of the
    block of rows — the loads through computed offsets read the expert's slice of each weight and bias array. -/
theorem out_at (c : Dev nD) (i : grid1.Coords) (a2 : Memref sig .tc .vmem S4096x3 .f32) (h2 : a2.IsWhole) (a3 : Memref sig .tc .vmem S16x128x3 .f32) (h3 : a3.IsWhole) (a4 : Memref sig .tc .vmem S16x128 .f32) (h4 : a4.IsWhole) (a5 : Memref sig .tc .vmem S16x128x128 .f32) (h5 : a5.IsWhole) (a6 : Memref sig .tc .vmem S16x128 .f32) (h6 : a6.IsWhole) (a7 : Memref sig .tc .vmem S16x3x128 .f32) (h7 : a7.IsWhole) (a8 : Memref sig .tc .vmem S16x3 .f32) (h8 : a8.IsWhole) (a9 : Memref sig .tc .vmem S1x4096x3 .f32) (h9 : a9.IsWhole)
    (x0 : Vec Ideal S4096x3 .f32) (x1 : Vec Ideal S16x128x3 .f32) (x2 : Vec Ideal S16x128 .f32) (x3 : Vec Ideal S16x128x128 .f32) (x4 : Vec Ideal S16x128 .f32) (x5 : Vec Ideal S16x3x128 .f32) (x6 : Vec Ideal S16x3 .f32)
    (u : Fin 1) (r : Fin 4096) (o : Fin 3) :
    out1_A_7 (F := Ideal) c i a2 h2 a3 h3 a4 h4 a5 h5 a6 h6 a7 h7 a8 h8 a9 h9 x0 x1 x2 x3 x4 x5 x6 (ix3 u r o)
      = mlpAt (fun j => x0 (ix2 r j)) (fun h j => x1 (ix3 (i 0) h j)) (fun h => x2 (ix2 (i 0) h))
          (fun k h => x3 (ix3 (i 0) k h)) (fun k => x4 (ix2 (i 0) k)) (fun q k => x5 (ix3 (i 0) q k))
          (fun q => x6 (ix2 (i 0) q)) o := by
  unfold out1_A_7
  rw [View.read_writes_eq_canon _ _ _ (cover1_A_7 c i a2 h2 a3 h3 a4 h4 a5 h5 a6 h6 a7 h7 a8 h8 a9 h9 x0 x1 x2 x3 x4 x5 x6)]
  unfold kernelRun1_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S4096x3) hz2]
  refine (pay1_apply _ _ _ _ _ _ _ u r o).trans ?_
  exact mlpAt_congr (fun j => rfl) (fun h j => ld_lead3 x1 _ _ (i 0) (k1_off1_eq i) h j)
    (fun h => ld_lead2 x2 _ _ (i 0) (k1_off2_eq i) h) (fun k h => ld_lead3 x3 _ _ (i 0) (k1_off3_eq i) k h)
    (fun k => ld_lead2 x4 _ _ (i 0) (k1_off2_eq i) k) (fun q k => ld_lead3 x5 _ _ (i 0) (k1_off4_eq i) q k)
    (fun q => ld_lead2 x6 _ _ (i 0) (k1_off5_eq i) q) rfl

variable (V : (c : Dev nD) → (b : Ref sig .tc) → Buf (Elt Ideal) ((c : Thread nD τ).loc b))

/-- What a grid point leaves in the output's staging buffer, over the blocks its windows hold. -/
theorem outsAt_at (c : Dev nD) (t : Fin cfg1.N) (u : Fin 1) (r : Fin 4096) (o : Fin 3) :
    outsAt1 (F := Ideal) V c t (ix3 u r o)
      = mlpAt (fun j => (iblk1 V c 0 t : Vec Ideal S4096x3 .f32) (ix2 r j))
          (fun h j => (iblk1 V c 1 t : Vec Ideal S16x128x3 .f32) (ix3 (grid1.coords t 0) h j))
          (fun h => (iblk1 V c 2 t : Vec Ideal S16x128 .f32) (ix2 (grid1.coords t 0) h))
          (fun k h => (iblk1 V c 3 t : Vec Ideal S16x128x128 .f32) (ix3 (grid1.coords t 0) k h))
          (fun k => (iblk1 V c 4 t : Vec Ideal S16x128 .f32) (ix2 (grid1.coords t 0) k))
          (fun q k => (iblk1 V c 5 t : Vec Ideal S16x3x128 .f32) (ix3 (grid1.coords t 0) q k))
          (fun q => (iblk1 V c 6 t : Vec Ideal S16x3 .f32) (ix2 (grid1.coords t 0) q)) o := by
  unfold outsAt1
  exact out_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) u r o

/-- The result array [16, 16384, 3] as one function of the arrays the call is entered with: every expert on every row. -/
abbrev G (c : Dev nD) : S16x16384x3.Idx → EReal :=
  mlpArr (P := 16) (N := 16384) (d := 3) (e := 3) (H := 128) (V c main_arg1) (V c main_arg11) (V c main_arg12)
    (V c main_arg13) (V c main_arg14) (V c main_arg15) (V c main_arg16)

/-- The printed index maps over the grid: the rows' window moves with the result's second block coordinate, the six
    weight and bias windows stay at block zero, and the point's first coordinate is the result's first block coordinate. -/
theorem idx_facts : ∀ t : Fin cfg1.N,
    win1_0.index t (0 : Fin 2) = win1_7.index t (1 : Fin 3) ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0
    ∧ win1_7.index t (2 : Fin 3) = 0 ∧ (grid1.coords t 0).val = win1_7.index t (0 : Fin 3)
    ∧ win1_7.index t (0 : Fin 3) ≤ 15 ∧ win1_7.index t (1 : Fin 3) ≤ 3 :=
  (by decide +kernel : ∀ t : Fin grid1.N, _)

/-- Every block (p, n) of the result is some point's. -/
theorem idx_onto : ∀ (q0 : Fin 16) (q1 : Fin 4), ∃ t : Fin cfg1.N, win1_7.index t = ![q0.val, q1.val, 0] :=
  (by decide +kernel : ∀ (q0 : Fin 16) (q1 : Fin 4), ∃ t : Fin grid1.N, win1_7.index t = ![q0.val, q1.val, 0])

/-- What point `t` writes back is block `t` of `G`: the row block it loaded is rows 4096·n … of the rows array, and the
    slices it loaded are expert p's. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  obtain ⟨e00, e01, e10, e11, e12, e20, e21, e30, e31, e32, e40, e41, e50, e51, e52, e60, e61, e72, ep, b0, b1⟩ := idx_facts t
  funext y
  obtain ⟨u, r, o, rfl⟩ : ∃ (u : Fin 1) (r : Fin 4096) (o : Fin 3), y = ix3 u r o := ⟨y 0, y 1, y 2, eq_ix3 y⟩
  have hu : u.val = 0 := by have := u.isLt; omega
  refine (outsAt_at V c t u r o).trans ?_
  show _ = G V c (((cfg1.win 7).blk t).view.emb (ix3 u r o))
  unfold G mlpArr
  refine mlpAt_congr ?_ ?_ ?_ ?_ ?_ ?_ ?_ ?_
  · intro j
    show V c main_arg1 (((cfg1.win 0).blk t).view.emb (ix2 r j)) = V c main_arg1 (ix2 ((((cfg1.win 7).blk t).view.emb (ix3 u r o)) 1) j)
    refine congrArg (V c main_arg1) (funext fun ax => Fin.ext ?_)
    match ax with
    | ⟨0, _⟩ => show win1_0.index t (0 : Fin 2) * 4096 + 1 * r.val = win1_7.index t (1 : Fin 3) * 4096 + 1 * r.val; omega
    | ⟨1, _⟩ => show win1_0.index t (1 : Fin 2) * 3 + 1 * j.val = j.val; omega
  · intro h j
    show V c main_arg11 (((cfg1.win 1).blk t).view.emb (ix3 (grid1.coords t 0) h j)) = V c main_arg11 (ix3 ((((cfg1.win 7).blk t).view.emb (ix3 u r o)) 0) h j)
    refine congrArg (V c main_arg11) (funext fun ax => Fin.ext ?_)
    match ax with
    | ⟨0, _⟩ => show win1_1.index t (0 : Fin 3) * 16 + 1 * (grid1.coords t 0).val = win1_7.index t (0 : Fin 3) * 1 + 1 * u.val; omega
    | ⟨1, _⟩ => show win1_1.index t (1 : Fin 3) * 128 + 1 * h.val = h.val; omega
    | ⟨2, _⟩ => show win1_1.index t (2 : Fin 3) * 3 + 1 * j.val = j.val; omega
  · intro h
    show V c main_arg12 (((cfg1.win 2).blk t).view.emb (ix2 (grid1.coords t 0) h)) = V c main_arg12 (ix2 ((((cfg1.win 7).blk t).view.emb (ix3 u r o)) 0) h)
    refine congrArg (V c main_arg12) (funext fun ax => Fin.ext ?_)
    match ax with
    | ⟨0, _⟩ => show win1_2.index t (0 : Fin 2) * 16 + 1 * (grid1.coords t 0).val = win1_7.index t (0 : Fin 3) * 1 + 1 * u.val; omega
    | ⟨1, _⟩ => show win1_2.index t (1 : Fin 2) * 128 + 1 * h.val = h.val; omega
  · intro k h
    show V c main_arg13 (((cfg1.win 3).blk t).view.emb (ix3 (grid1.coords t 0) k h)) = V c main_arg13 (ix3 ((((cfg1.win 7).blk t).view.emb (ix3 u r o)) 0) k h)
    refine congrArg (V c main_arg13) (funext fun ax => Fin.ext ?_)
    match ax with
    | ⟨0, _⟩ => show win1_3.index t (0 : Fin 3) * 16 + 1 * (grid1.coords t 0).val = win1_7.index t (0 : Fin 3) * 1 + 1 * u.val; omega
    | ⟨1, _⟩ => show win1_3.index t (1 : Fin 3) * 128 + 1 * k.val = k.val; omega
    | ⟨2, _⟩ => show win1_3.index t (2 : Fin 3) * 128 + 1 * h.val = h.val; omega
  · intro k
    show V c main_arg14 (((cfg1.win 4).blk t).view.emb (ix2 (grid1.coords t 0) k)) = V c main_arg14 (ix2 ((((cfg1.win 7).blk t).view.emb (ix3 u r o)) 0) k)
    refine congrArg (V c main_arg14) (funext fun ax => Fin.ext ?_)
    match ax with
    | ⟨0, _⟩ => show win1_4.index t (0 : Fin 2) * 16 + 1 * (grid1.coords t 0).val = win1_7.index t (0 : Fin 3) * 1 + 1 * u.val; omega
    | ⟨1, _⟩ => show win1_4.index t (1 : Fin 2) * 128 + 1 * k.val = k.val; omega
  · intro q k
    show V c main_arg15 (((cfg1.win 5).blk t).view.emb (ix3 (grid1.coords t 0) q k)) = V c main_arg15 (ix3 ((((cfg1.win 7).blk t).view.emb (ix3 u r o)) 0) q k)
    refine congrArg (V c main_arg15) (funext fun ax => Fin.ext ?_)
    match ax with
    | ⟨0, _⟩ => show win1_5.index t (0 : Fin 3) * 16 + 1 * (grid1.coords t 0).val = win1_7.index t (0 : Fin 3) * 1 + 1 * u.val; omega
    | ⟨1, _⟩ => show win1_5.index t (1 : Fin 3) * 3 + 1 * q.val = q.val; omega
    | ⟨2, _⟩ => show win1_5.index t (2 : Fin 3) * 128 + 1 * k.val = k.val; omega
  · intro q
    show V c main_arg16 (((cfg1.win 6).blk t).view.emb (ix2 (grid1.coords t 0) q)) = V c main_arg16 (ix2 ((((cfg1.win 7).blk t).view.emb (ix3 u r o)) 0) q)
    refine congrArg (V c main_arg16) (funext fun ax => Fin.ext ?_)
    match ax with
    | ⟨0, _⟩ => show win1_6.index t (0 : Fin 2) * 16 + 1 * (grid1.coords t 0).val = win1_7.index t (0 : Fin 3) * 1 + 1 * u.val; omega
    | ⟨1, _⟩ => show win1_6.index t (1 : Fin 2) * 3 + 1 * q.val = q.val; omega
  · exact Fin.ext (show o.val = win1_7.index t (2 : Fin 3) * 3 + 1 * o.val by omega)

/-- An index of the result array is in point `t`'s block iff each coordinate is in the block's range on its axis. -/
theorem mem_blk (t : Fin cfg1.N) (i : S16x16384x3.Idx) :
    i ∈ ((cfg1.win 7).blk t).view.set ↔ ∀ a : Fin 3, win1_7.index t a * S1x4096x3.size a ≤ (i a).val ∧ (i a).val < win1_7.index t a * S1x4096x3.size a + S1x4096x3.size a := by
  show i ∈ ((View.whole main_v2).slice (win1_7.rect t)).set ↔ _
  rw [View.set_slice_whole, Rect.mem_set_unit]
  exact Iff.rfl

/-- The blocks cover the result array: entry (p, r, o) is in the block of the point (p, r / 4096). -/
theorem cover (i : S16x16384x3.Idx) :
    ∃ t : Fin cfg1.N, (cfg1.win 7).flush t = true ∧ i ∈ ((cfg1.win 7).blk t).view.set := by
  have hi0 : (i 0).val < 16 := (i 0).isLt
  have hi1 : (i 1).val < 16384 := (i 1).isLt
  have hi2 : (i 2).val < 3 := (i 2).isLt
  obtain ⟨t, ht⟩ := idx_onto ⟨(i 0).val, hi0⟩ ⟨(i 1).val / 4096, by omega⟩
  have q0 : win1_7.index t (0 : Fin 3) = (i 0).val := congrFun ht 0
  have q1 : win1_7.index t (1 : Fin 3) = (i 1).val / 4096 := congrFun ht 1
  have q2 : win1_7.index t (2 : Fin 3) = 0 := congrFun ht 2
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 4096 ≤ (i 1).val ∧ (i 1).val < win1_7.index t (1 : Fin 3) * 4096 + 4096; omega
  | ⟨2, _⟩ => show win1_7.index t (2 : Fin 3) * 3 ≤ (i 2).val ∧ (i 2).val < win1_7.index t (2 : Fin 3) * 3 + 3; omega

/-- The result array after the call: the experts' outputs on every row, over the arrays the call was entered with. -/
theorem final (c : Dev nD) : (dat1 V c).arrAt 7 cfg1.N = G V c :=
  (dat1 V c).arrAt_eq_of_cover 7 (G V c) (fun t _ => flushed_eq V c t) (cover)

end Cert.KernelIdeal.Region1

end
-- ==== Proof.Region2.lean ====
/-
  Pallas call 2: what its result array holds after the run, as one function of the arrays the call is entered with.
  A grid point (p, n) loads block n of 4096 rows and, through offsets computed from p, expert p's weights and biases; it
  writes block (p, n) of the result. So the result array [16, 16384, 3] ends at the experts' outputs on every row.
-/
import proofs.«129764_j16174846837057_2_alg».proof.Proof.Gen.KernelIdeal.Frame
import proofs.«129764_j16174846837057_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Body Cert.ExpertMlp

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at entry (u, r, o): output `o` of expert `i 0` on row `r` of the
    block of rows — the loads through computed offsets read the expert's slice of each weight and bias array. -/
theorem out_at (c : Dev nD) (i : grid2.Coords) (a2 : Memref sig .tc .vmem S4096x3 .f32) (h2 : a2.IsWhole) (a3 : Memref sig .tc .vmem S16x128x3 .f32) (h3 : a3.IsWhole) (a4 : Memref sig .tc .vmem S16x128 .f32) (h4 : a4.IsWhole) (a5 : Memref sig .tc .vmem S16x128x128 .f32) (h5 : a5.IsWhole) (a6 : Memref sig .tc .vmem S16x128 .f32) (h6 : a6.IsWhole) (a7 : Memref sig .tc .vmem S16x3x128 .f32) (h7 : a7.IsWhole) (a8 : Memref sig .tc .vmem S16x3 .f32) (h8 : a8.IsWhole) (a9 : Memref sig .tc .vmem S1x4096x3 .f32) (h9 : a9.IsWhole)
    (x0 : Vec Ideal S4096x3 .f32) (x1 : Vec Ideal S16x128x3 .f32) (x2 : Vec Ideal S16x128 .f32) (x3 : Vec Ideal S16x128x128 .f32) (x4 : Vec Ideal S16x128 .f32) (x5 : Vec Ideal S16x3x128 .f32) (x6 : Vec Ideal S16x3 .f32)
    (u : Fin 1) (r : Fin 4096) (o : Fin 3) :
    out2_A_7 (F := Ideal) c i a2 h2 a3 h3 a4 h4 a5 h5 a6 h6 a7 h7 a8 h8 a9 h9 x0 x1 x2 x3 x4 x5 x6 (ix3 u r o)
      = mlpAt (fun j => x0 (ix2 r j)) (fun h j => x1 (ix3 (i 0) h j)) (fun h => x2 (ix2 (i 0) h))
          (fun k h => x3 (ix3 (i 0) k h)) (fun k => x4 (ix2 (i 0) k)) (fun q k => x5 (ix3 (i 0) q k))
          (fun q => x6 (ix2 (i 0) q)) o := by
  unfold out2_A_7
  rw [View.read_writes_eq_canon _ _ _ (cover2_A_7 c i a2 h2 a3 h3 a4 h4 a5 h5 a6 h6 a7 h7 a8 h8 a9 h9 x0 x1 x2 x3 x4 x5 x6)]
  unfold kernelRun2_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S4096x3) hz2]
  refine (pay2_apply _ _ _ _ _ _ _ u r o).trans ?_
  exact mlpAt_congr (fun j => rfl) (fun h j => ld_lead3 x1 _ _ (i 0) (k2_off1_eq i) h j)
    (fun h => ld_lead2 x2 _ _ (i 0) (k2_off2_eq i) h) (fun k h => ld_lead3 x3 _ _ (i 0) (k2_off3_eq i) k h)
    (fun k => ld_lead2 x4 _ _ (i 0) (k2_off2_eq i) k) (fun q k => ld_lead3 x5 _ _ (i 0) (k2_off4_eq i) q k)
    (fun q => ld_lead2 x6 _ _ (i 0) (k2_off5_eq i) q) rfl

variable (V : (c : Dev nD) → (b : Ref sig .tc) → Buf (Elt Ideal) ((c : Thread nD τ).loc b))

/-- What a grid point leaves in the output's staging buffer, over the blocks its windows hold. -/
theorem outsAt_at (c : Dev nD) (t : Fin cfg2.N) (u : Fin 1) (r : Fin 4096) (o : Fin 3) :
    outsAt2 (F := Ideal) V c t (ix3 u r o)
      = mlpAt (fun j => (iblk2 V c 0 t : Vec Ideal S4096x3 .f32) (ix2 r j))
          (fun h j => (iblk2 V c 1 t : Vec Ideal S16x128x3 .f32) (ix3 (grid2.coords t 0) h j))
          (fun h => (iblk2 V c 2 t : Vec Ideal S16x128 .f32) (ix2 (grid2.coords t 0) h))
          (fun k h => (iblk2 V c 3 t : Vec Ideal S16x128x128 .f32) (ix3 (grid2.coords t 0) k h))
          (fun k => (iblk2 V c 4 t : Vec Ideal S16x128 .f32) (ix2 (grid2.coords t 0) k))
          (fun q k => (iblk2 V c 5 t : Vec Ideal S16x3x128 .f32) (ix3 (grid2.coords t 0) q k))
          (fun q => (iblk2 V c 6 t : Vec Ideal S16x3 .f32) (ix2 (grid2.coords t 0) q)) o := by
  unfold outsAt2
  exact out_at c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t) u r o

/-- The result array [16, 16384, 3] as one function of the arrays the call is entered with: every expert on every row. -/
abbrev G (c : Dev nD) : S16x16384x3.Idx → EReal :=
  mlpArr (P := 16) (N := 16384) (d := 3) (e := 3) (H := 128) (V c main_arg2) (V c main_arg17) (V c main_arg18)
    (V c main_arg19) (V c main_arg20) (V c main_arg21) (V c main_arg22)

/-- The printed index maps over the grid: the rows' window moves with the result's second block coordinate, the six
    weight and bias windows stay at block zero, and the point's first coordinate is the result's first block coordinate. -/
theorem idx_facts : ∀ t : Fin cfg2.N,
    win2_0.index t (0 : Fin 2) = win2_7.index t (1 : Fin 3) ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 3) = 0 ∧ win2_5.index t (1 : Fin 3) = 0 ∧ win2_5.index t (2 : Fin 3) = 0
    ∧ win2_6.index t (0 : Fin 2) = 0 ∧ win2_6.index t (1 : Fin 2) = 0
    ∧ win2_7.index t (2 : Fin 3) = 0 ∧ (grid2.coords t 0).val = win2_7.index t (0 : Fin 3)
    ∧ win2_7.index t (0 : Fin 3) ≤ 15 ∧ win2_7.index t (1 : Fin 3) ≤ 3 :=
  (by decide +kernel : ∀ t : Fin grid2.N, _)

/-- Every block (p, n) of the result is some point's. -/
theorem idx_onto : ∀ (q0 : Fin 16) (q1 : Fin 4), ∃ t : Fin cfg2.N, win2_7.index t = ![q0.val, q1.val, 0] :=
  (by decide +kernel : ∀ (q0 : Fin 16) (q1 : Fin 4), ∃ t : Fin grid2.N, win2_7.index t = ![q0.val, q1.val, 0])

/-- What point `t` writes back is block `t` of `G`: the row block it loaded is rows 4096·n … of the rows array, and the
    slices it loaded are expert p's. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  obtain ⟨e00, e01, e10, e11, e12, e20, e21, e30, e31, e32, e40, e41, e50, e51, e52, e60, e61, e72, ep, b0, b1⟩ := idx_facts t
  funext y
  obtain ⟨u, r, o, rfl⟩ : ∃ (u : Fin 1) (r : Fin 4096) (o : Fin 3), y = ix3 u r o := ⟨y 0, y 1, y 2, eq_ix3 y⟩
  have hu : u.val = 0 := by have := u.isLt; omega
  refine (outsAt_at V c t u r o).trans ?_
  show _ = G V c (((cfg2.win 7).blk t).view.emb (ix3 u r o))
  unfold G mlpArr
  refine mlpAt_congr ?_ ?_ ?_ ?_ ?_ ?_ ?_ ?_
  · intro j
    show V c main_arg2 (((cfg2.win 0).blk t).view.emb (ix2 r j)) = V c main_arg2 (ix2 ((((cfg2.win 7).blk t).view.emb (ix3 u r o)) 1) j)
    refine congrArg (V c main_arg2) (funext fun ax => Fin.ext ?_)
    match ax with
    | ⟨0, _⟩ => show win2_0.index t (0 : Fin 2) * 4096 + 1 * r.val = win2_7.index t (1 : Fin 3) * 4096 + 1 * r.val; omega
    | ⟨1, _⟩ => show win2_0.index t (1 : Fin 2) * 3 + 1 * j.val = j.val; omega
  · intro h j
    show V c main_arg17 (((cfg2.win 1).blk t).view.emb (ix3 (grid2.coords t 0) h j)) = V c main_arg17 (ix3 ((((cfg2.win 7).blk t).view.emb (ix3 u r o)) 0) h j)
    refine congrArg (V c main_arg17) (funext fun ax => Fin.ext ?_)
    match ax with
    | ⟨0, _⟩ => show win2_1.index t (0 : Fin 3) * 16 + 1 * (grid2.coords t 0).val = win2_7.index t (0 : Fin 3) * 1 + 1 * u.val; omega
    | ⟨1, _⟩ => show win2_1.index t (1 : Fin 3) * 128 + 1 * h.val = h.val; omega
    | ⟨2, _⟩ => show win2_1.index t (2 : Fin 3) * 3 + 1 * j.val = j.val; omega
  · intro h
    show V c main_arg18 (((cfg2.win 2).blk t).view.emb (ix2 (grid2.coords t 0) h)) = V c main_arg18 (ix2 ((((cfg2.win 7).blk t).view.emb (ix3 u r o)) 0) h)
    refine congrArg (V c main_arg18) (funext fun ax => Fin.ext ?_)
    match ax with
    | ⟨0, _⟩ => show win2_2.index t (0 : Fin 2) * 16 + 1 * (grid2.coords t 0).val = win2_7.index t (0 : Fin 3) * 1 + 1 * u.val; omega
    | ⟨1, _⟩ => show win2_2.index t (1 : Fin 2) * 128 + 1 * h.val = h.val; omega
  · intro k h
    show V c main_arg19 (((cfg2.win 3).blk t).view.emb (ix3 (grid2.coords t 0) k h)) = V c main_arg19 (ix3 ((((cfg2.win 7).blk t).view.emb (ix3 u r o)) 0) k h)
    refine congrArg (V c main_arg19) (funext fun ax => Fin.ext ?_)
    match ax with
    | ⟨0, _⟩ => show win2_3.index t (0 : Fin 3) * 16 + 1 * (grid2.coords t 0).val = win2_7.index t (0 : Fin 3) * 1 + 1 * u.val; omega
    | ⟨1, _⟩ => show win2_3.index t (1 : Fin 3) * 128 + 1 * k.val = k.val; omega
    | ⟨2, _⟩ => show win2_3.index t (2 : Fin 3) * 128 + 1 * h.val = h.val; omega
  · intro k
    show V c main_arg20 (((cfg2.win 4).blk t).view.emb (ix2 (grid2.coords t 0) k)) = V c main_arg20 (ix2 ((((cfg2.win 7).blk t).view.emb (ix3 u r o)) 0) k)
    refine congrArg (V c main_arg20) (funext fun ax => Fin.ext ?_)
    match ax with
    | ⟨0, _⟩ => show win2_4.index t (0 : Fin 2) * 16 + 1 * (grid2.coords t 0).val = win2_7.index t (0 : Fin 3) * 1 + 1 * u.val; omega
    | ⟨1, _⟩ => show win2_4.index t (1 : Fin 2) * 128 + 1 * k.val = k.val; omega
  · intro q k
    show V c main_arg21 (((cfg2.win 5).blk t).view.emb (ix3 (grid2.coords t 0) q k)) = V c main_arg21 (ix3 ((((cfg2.win 7).blk t).view.emb (ix3 u r o)) 0) q k)
    refine congrArg (V c main_arg21) (funext fun ax => Fin.ext ?_)
    match ax with
    | ⟨0, _⟩ => show win2_5.index t (0 : Fin 3) * 16 + 1 * (grid2.coords t 0).val = win2_7.index t (0 : Fin 3) * 1 + 1 * u.val; omega
    | ⟨1, _⟩ => show win2_5.index t (1 : Fin 3) * 3 + 1 * q.val = q.val; omega
    | ⟨2, _⟩ => show win2_5.index t (2 : Fin 3) * 128 + 1 * k.val = k.val; omega
  · intro q
    show V c main_arg22 (((cfg2.win 6).blk t).view.emb (ix2 (grid2.coords t 0) q)) = V c main_arg22 (ix2 ((((cfg2.win 7).blk t).view.emb (ix3 u r o)) 0) q)
    refine congrArg (V c main_arg22) (funext fun ax => Fin.ext ?_)
    match ax with
    | ⟨0, _⟩ => show win2_6.index t (0 : Fin 2) * 16 + 1 * (grid2.coords t 0).val = win2_7.index t (0 : Fin 3) * 1 + 1 * u.val; omega
    | ⟨1, _⟩ => show win2_6.index t (1 : Fin 2) * 3 + 1 * q.val = q.val; omega
  · exact Fin.ext (show o.val = win2_7.index t (2 : Fin 3) * 3 + 1 * o.val by omega)

/-- An index of the result array is in point `t`'s block iff each coordinate is in the block's range on its axis. -/
theorem mem_blk (t : Fin cfg2.N) (i : S16x16384x3.Idx) :
    i ∈ ((cfg2.win 7).blk t).view.set ↔ ∀ a : Fin 3, win2_7.index t a * S1x4096x3.size a ≤ (i a).val ∧ (i a).val < win2_7.index t a * S1x4096x3.size a + S1x4096x3.size a := by
  show i ∈ ((View.whole main_v4).slice (win2_7.rect t)).set ↔ _
  rw [View.set_slice_whole, Rect.mem_set_unit]
  exact Iff.rfl

/-- The blocks cover the result array: entry (p, r, o) is in the block of the point (p, r / 4096). -/
theorem cover (i : S16x16384x3.Idx) :
    ∃ t : Fin cfg2.N, (cfg2.win 7).flush t = true ∧ i ∈ ((cfg2.win 7).blk t).view.set := by
  have hi0 : (i 0).val < 16 := (i 0).isLt
  have hi1 : (i 1).val < 16384 := (i 1).isLt
  have hi2 : (i 2).val < 3 := (i 2).isLt
  obtain ⟨t, ht⟩ := idx_onto ⟨(i 0).val, hi0⟩ ⟨(i 1).val / 4096, by omega⟩
  have q0 : win2_7.index t (0 : Fin 3) = (i 0).val := congrFun ht 0
  have q1 : win2_7.index t (1 : Fin 3) = (i 1).val / 4096 := congrFun ht 1
  have q2 : win2_7.index t (2 : Fin 3) = 0 := congrFun ht 2
  refine ⟨t, flush2_7 t, ?_⟩
  rw [mem_blk]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 4096 ≤ (i 1).val ∧ (i 1).val < win2_7.index t (1 : Fin 3) * 4096 + 4096; omega
  | ⟨2, _⟩ => show win2_7.index t (2 : Fin 3) * 3 ≤ (i 2).val ∧ (i 2).val < win2_7.index t (2 : Fin 3) * 3 + 3; omega

/-- The result array after the call: the experts' outputs on every row, over the arrays the call was entered with. -/
theorem final (c : Dev nD) : (dat2 V c).arrAt 7 cfg2.N = G V c :=
  (dat2 V c).arrAt_eq_of_cover 7 (G V c) (fun t _ => flushed_eq V c t) (cover)

end Cert.KernelIdeal.Region2

end
-- ==== Proof.Region3.lean ====
/-
  Pallas call 3: what its result array holds after the run, as one function of the arrays the call is entered with.
  A grid point (p, n) loads block n of 4096 rows and, through offsets computed from p, expert p's weights and biases; it
  writes block (p, n) of the result. So the result array [16, 16384, 4] ends at the experts' outputs on every row.
-/
import proofs.«129764_j16174846837057_2_alg».proof.Proof.Gen.KernelIdeal.Frame
import proofs.«129764_j16174846837057_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.KernelIdeal.Body Cert.ExpertMlp

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at entry (u, r, o): output `o` of expert `i 0` on row `r` of the
    block of rows — the loads through computed offsets read the expert's slice of each weight and bias array. -/
theorem out_at (c : Dev nD) (i : grid3.Coords) (a2 : Memref sig .tc .vmem S4096x4 .f32) (h2 : a2.IsWhole) (a3 : Memref sig .tc .vmem S16x128x4 .f32) (h3 : a3.IsWhole) (a4 : Memref sig .tc .vmem S16x128 .f32) (h4 : a4.IsWhole) (a5 : Memref sig .tc .vmem S16x128x128 .f32) (h5 : a5.IsWhole) (a6 : Memref sig .tc .vmem S16x128 .f32) (h6 : a6.IsWhole) (a7 : Memref sig .tc .vmem S16x4x128 .f32) (h7 : a7.IsWhole) (a8 : Memref sig .tc .vmem S16x4 .f32) (h8 : a8.IsWhole) (a9 : Memref sig .tc .vmem S1x4096x4 .f32) (h9 : a9.IsWhole)
    (x0 : Vec Ideal S4096x4 .f32) (x1 : Vec Ideal S16x128x4 .f32) (x2 : Vec Ideal S16x128 .f32) (x3 : Vec Ideal S16x128x128 .f32) (x4 : Vec Ideal S16x128 .f32) (x5 : Vec Ideal S16x4x128 .f32) (x6 : Vec Ideal S16x4 .f32)
    (u : Fin 1) (r : Fin 4096) (o : Fin 4) :
    out3_A_7 (F := Ideal) c i a2 h2 a3 h3 a4 h4 a5 h5 a6 h6 a7 h7 a8 h8 a9 h9 x0 x1 x2 x3 x4 x5 x6 (ix3 u r o)
      = mlpAt (fun j => x0 (ix2 r j)) (fun h j => x1 (ix3 (i 0) h j)) (fun h => x2 (ix2 (i 0) h))
          (fun k h => x3 (ix3 (i 0) k h)) (fun k => x4 (ix2 (i 0) k)) (fun q k => x5 (ix3 (i 0) q k))
          (fun q => x6 (ix2 (i 0) q)) o := by
  unfold out3_A_7
  rw [View.read_writes_eq_canon _ _ _ (cover3_A_7 c i a2 h2 a3 h3 a4 h4 a5 h5 a6 h6 a7 h7 a8 h8 a9 h9 x0 x1 x2 x3 x4 x5 x6)]
  unfold kernelRun3_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S4096x4) hz2]
  refine (pay3_apply _ _ _ _ _ _ _ u r o).trans ?_
  exact mlpAt_congr (fun j => rfl) (fun h j => ld_lead3 x1 _ _ (i 0) (k3_off1_eq i) h j)
    (fun h => ld_lead2 x2 _ _ (i 0) (k3_off2_eq i) h) (fun k h => ld_lead3 x3 _ _ (i 0) (k3_off3_eq i) k h)
    (fun k => ld_lead2 x4 _ _ (i 0) (k3_off2_eq i) k) (fun q k => ld_lead3 x5 _ _ (i 0) (k3_off4_eq i) q k)
    (fun q => ld_lead2 x6 _ _ (i 0) (k3_off5_eq i) q) rfl

variable (V : (c : Dev nD) → (b : Ref sig .tc) → Buf (Elt Ideal) ((c : Thread nD τ).loc b))

/-- What a grid point leaves in the output's staging buffer, over the blocks its windows hold. -/
theorem outsAt_at (c : Dev nD) (t : Fin cfg3.N) (u : Fin 1) (r : Fin 4096) (o : Fin 4) :
    outsAt3 (F := Ideal) V c t (ix3 u r o)
      = mlpAt (fun j => (iblk3 V c 0 t : Vec Ideal S4096x4 .f32) (ix2 r j))
          (fun h j => (iblk3 V c 1 t : Vec Ideal S16x128x4 .f32) (ix3 (grid3.coords t 0) h j))
          (fun h => (iblk3 V c 2 t : Vec Ideal S16x128 .f32) (ix2 (grid3.coords t 0) h))
          (fun k h => (iblk3 V c 3 t : Vec Ideal S16x128x128 .f32) (ix3 (grid3.coords t 0) k h))
          (fun k => (iblk3 V c 4 t : Vec Ideal S16x128 .f32) (ix2 (grid3.coords t 0) k))
          (fun q k => (iblk3 V c 5 t : Vec Ideal S16x4x128 .f32) (ix3 (grid3.coords t 0) q k))
          (fun q => (iblk3 V c 6 t : Vec Ideal S16x4 .f32) (ix2 (grid3.coords t 0) q)) o := by
  unfold outsAt3
  exact out_at c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t) (iblk3 V c 6 t) u r o

/-- The result array [16, 16384, 4] as one function of the arrays the call is entered with: every expert on every row. -/
abbrev G (c : Dev nD) : S16x16384x4.Idx → EReal :=
  mlpArr (P := 16) (N := 16384) (d := 4) (e := 4) (H := 128) (V c main_arg3) (V c main_arg23) (V c main_arg24)
    (V c main_arg25) (V c main_arg26) (V c main_arg27) (V c main_arg28)

/-- The printed index maps over the grid: the rows' window moves with the result's second block coordinate, the six
    weight and bias windows stay at block zero, and the point's first coordinate is the result's first block coordinate. -/
theorem idx_facts : ∀ t : Fin cfg3.N,
    win3_0.index t (0 : Fin 2) = win3_7.index t (1 : Fin 3) ∧ win3_0.index t (1 : Fin 2) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0
    ∧ win3_5.index t (0 : Fin 3) = 0 ∧ win3_5.index t (1 : Fin 3) = 0 ∧ win3_5.index t (2 : Fin 3) = 0
    ∧ win3_6.index t (0 : Fin 2) = 0 ∧ win3_6.index t (1 : Fin 2) = 0
    ∧ win3_7.index t (2 : Fin 3) = 0 ∧ (grid3.coords t 0).val = win3_7.index t (0 : Fin 3)
    ∧ win3_7.index t (0 : Fin 3) ≤ 15 ∧ win3_7.index t (1 : Fin 3) ≤ 3 :=
  (by decide +kernel : ∀ t : Fin grid3.N, _)

/-- Every block (p, n) of the result is some point's. -/
theorem idx_onto : ∀ (q0 : Fin 16) (q1 : Fin 4), ∃ t : Fin cfg3.N, win3_7.index t = ![q0.val, q1.val, 0] :=
  (by decide +kernel : ∀ (q0 : Fin 16) (q1 : Fin 4), ∃ t : Fin grid3.N, win3_7.index t = ![q0.val, q1.val, 0])

/-- What point `t` writes back is block `t` of `G`: the row block it loaded is rows 4096·n … of the rows array, and the
    slices it loaded are expert p's. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  obtain ⟨e00, e01, e10, e11, e12, e20, e21, e30, e31, e32, e40, e41, e50, e51, e52, e60, e61, e72, ep, b0, b1⟩ := idx_facts t
  funext y
  obtain ⟨u, r, o, rfl⟩ : ∃ (u : Fin 1) (r : Fin 4096) (o : Fin 4), y = ix3 u r o := ⟨y 0, y 1, y 2, eq_ix3 y⟩
  have hu : u.val = 0 := by have := u.isLt; omega
  refine (outsAt_at V c t u r o).trans ?_
  show _ = G V c (((cfg3.win 7).blk t).view.emb (ix3 u r o))
  unfold G mlpArr
  refine mlpAt_congr ?_ ?_ ?_ ?_ ?_ ?_ ?_ ?_
  · intro j
    show V c main_arg3 (((cfg3.win 0).blk t).view.emb (ix2 r j)) = V c main_arg3 (ix2 ((((cfg3.win 7).blk t).view.emb (ix3 u r o)) 1) j)
    refine congrArg (V c main_arg3) (funext fun ax => Fin.ext ?_)
    match ax with
    | ⟨0, _⟩ => show win3_0.index t (0 : Fin 2) * 4096 + 1 * r.val = win3_7.index t (1 : Fin 3) * 4096 + 1 * r.val; omega
    | ⟨1, _⟩ => show win3_0.index t (1 : Fin 2) * 4 + 1 * j.val = j.val; omega
  · intro h j
    show V c main_arg23 (((cfg3.win 1).blk t).view.emb (ix3 (grid3.coords t 0) h j)) = V c main_arg23 (ix3 ((((cfg3.win 7).blk t).view.emb (ix3 u r o)) 0) h j)
    refine congrArg (V c main_arg23) (funext fun ax => Fin.ext ?_)
    match ax with
    | ⟨0, _⟩ => show win3_1.index t (0 : Fin 3) * 16 + 1 * (grid3.coords t 0).val = win3_7.index t (0 : Fin 3) * 1 + 1 * u.val; omega
    | ⟨1, _⟩ => show win3_1.index t (1 : Fin 3) * 128 + 1 * h.val = h.val; omega
    | ⟨2, _⟩ => show win3_1.index t (2 : Fin 3) * 4 + 1 * j.val = j.val; omega
  · intro h
    show V c main_arg24 (((cfg3.win 2).blk t).view.emb (ix2 (grid3.coords t 0) h)) = V c main_arg24 (ix2 ((((cfg3.win 7).blk t).view.emb (ix3 u r o)) 0) h)
    refine congrArg (V c main_arg24) (funext fun ax => Fin.ext ?_)
    match ax with
    | ⟨0, _⟩ => show win3_2.index t (0 : Fin 2) * 16 + 1 * (grid3.coords t 0).val = win3_7.index t (0 : Fin 3) * 1 + 1 * u.val; omega
    | ⟨1, _⟩ => show win3_2.index t (1 : Fin 2) * 128 + 1 * h.val = h.val; omega
  · intro k h
    show V c main_arg25 (((cfg3.win 3).blk t).view.emb (ix3 (grid3.coords t 0) k h)) = V c main_arg25 (ix3 ((((cfg3.win 7).blk t).view.emb (ix3 u r o)) 0) k h)
    refine congrArg (V c main_arg25) (funext fun ax => Fin.ext ?_)
    match ax with
    | ⟨0, _⟩ => show win3_3.index t (0 : Fin 3) * 16 + 1 * (grid3.coords t 0).val = win3_7.index t (0 : Fin 3) * 1 + 1 * u.val; omega
    | ⟨1, _⟩ => show win3_3.index t (1 : Fin 3) * 128 + 1 * k.val = k.val; omega
    | ⟨2, _⟩ => show win3_3.index t (2 : Fin 3) * 128 + 1 * h.val = h.val; omega
  · intro k
    show V c main_arg26 (((cfg3.win 4).blk t).view.emb (ix2 (grid3.coords t 0) k)) = V c main_arg26 (ix2 ((((cfg3.win 7).blk t).view.emb (ix3 u r o)) 0) k)
    refine congrArg (V c main_arg26) (funext fun ax => Fin.ext ?_)
    match ax with
    | ⟨0, _⟩ => show win3_4.index t (0 : Fin 2) * 16 + 1 * (grid3.coords t 0).val = win3_7.index t (0 : Fin 3) * 1 + 1 * u.val; omega
    | ⟨1, _⟩ => show win3_4.index t (1 : Fin 2) * 128 + 1 * k.val = k.val; omega
  · intro q k
    show V c main_arg27 (((cfg3.win 5).blk t).view.emb (ix3 (grid3.coords t 0) q k)) = V c main_arg27 (ix3 ((((cfg3.win 7).blk t).view.emb (ix3 u r o)) 0) q k)
    refine congrArg (V c main_arg27) (funext fun ax => Fin.ext ?_)
    match ax with
    | ⟨0, _⟩ => show win3_5.index t (0 : Fin 3) * 16 + 1 * (grid3.coords t 0).val = win3_7.index t (0 : Fin 3) * 1 + 1 * u.val; omega
    | ⟨1, _⟩ => show win3_5.index t (1 : Fin 3) * 4 + 1 * q.val = q.val; omega
    | ⟨2, _⟩ => show win3_5.index t (2 : Fin 3) * 128 + 1 * k.val = k.val; omega
  · intro q
    show V c main_arg28 (((cfg3.win 6).blk t).view.emb (ix2 (grid3.coords t 0) q)) = V c main_arg28 (ix2 ((((cfg3.win 7).blk t).view.emb (ix3 u r o)) 0) q)
    refine congrArg (V c main_arg28) (funext fun ax => Fin.ext ?_)
    match ax with
    | ⟨0, _⟩ => show win3_6.index t (0 : Fin 2) * 16 + 1 * (grid3.coords t 0).val = win3_7.index t (0 : Fin 3) * 1 + 1 * u.val; omega
    | ⟨1, _⟩ => show win3_6.index t (1 : Fin 2) * 4 + 1 * q.val = q.val; omega
  · exact Fin.ext (show o.val = win3_7.index t (2 : Fin 3) * 4 + 1 * o.val by omega)

/-- An index of the result array is in point `t`'s block iff each coordinate is in the block's range on its axis. -/
theorem mem_blk (t : Fin cfg3.N) (i : S16x16384x4.Idx) :
    i ∈ ((cfg3.win 7).blk t).view.set ↔ ∀ a : Fin 3, win3_7.index t a * S1x4096x4.size a ≤ (i a).val ∧ (i a).val < win3_7.index t a * S1x4096x4.size a + S1x4096x4.size a := by
  show i ∈ ((View.whole main_v6).slice (win3_7.rect t)).set ↔ _
  rw [View.set_slice_whole, Rect.mem_set_unit]
  exact Iff.rfl

/-- The blocks cover the result array: entry (p, r, o) is in the block of the point (p, r / 4096). -/
theorem cover (i : S16x16384x4.Idx) :
    ∃ t : Fin cfg3.N, (cfg3.win 7).flush t = true ∧ i ∈ ((cfg3.win 7).blk t).view.set := by
  have hi0 : (i 0).val < 16 := (i 0).isLt
  have hi1 : (i 1).val < 16384 := (i 1).isLt
  have hi2 : (i 2).val < 4 := (i 2).isLt
  obtain ⟨t, ht⟩ := idx_onto ⟨(i 0).val, hi0⟩ ⟨(i 1).val / 4096, by omega⟩
  have q0 : win3_7.index t (0 : Fin 3) = (i 0).val := congrFun ht 0
  have q1 : win3_7.index t (1 : Fin 3) = (i 1).val / 4096 := congrFun ht 1
  have q2 : win3_7.index t (2 : Fin 3) = 0 := congrFun ht 2
  refine ⟨t, flush3_7 t, ?_⟩
  rw [mem_blk]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 4096 ≤ (i 1).val ∧ (i 1).val < win3_7.index t (1 : Fin 3) * 4096 + 4096; omega
  | ⟨2, _⟩ => show win3_7.index t (2 : Fin 3) * 4 ≤ (i 2).val ∧ (i 2).val < win3_7.index t (2 : Fin 3) * 4 + 4; omega

/-- The result array after the call: the experts' outputs on every row, over the arrays the call was entered with. -/
theorem final (c : Dev nD) : (dat3 V c).arrAt 7 cfg3.N = G V c :=
  (dat3 V c).arrAt_eq_of_cover 7 (G V c) (fun t _ => flushed_eq V c t) (cover)

end Cert.KernelIdeal.Region3

end
-- ==== Proof.Region4.lean ====
/-
  Pallas call 4: what its result array holds after the run, as one function of the arrays the call is entered with.
  A grid point (p, n) loads block n of 4096 rows and, through offsets computed from p, expert p's weights and biases; it
  writes block (p, n) of the result. So the result array [16, 16384, 1] ends at the experts' outputs on every row.
-/
import proofs.«129764_j16174846837057_2_alg».proof.Proof.Gen.KernelIdeal.Frame
import proofs.«129764_j16174846837057_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.KernelIdeal.Body Cert.ExpertMlp

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at entry (u, r, o): output `o` of expert `i 0` on row `r` of the
    block of rows — the loads through computed offsets read the expert's slice of each weight and bias array. -/
theorem out_at (c : Dev nD) (i : grid4.Coords) (a2 : Memref sig .tc .vmem S4096x1 .f32) (h2 : a2.IsWhole) (a3 : Memref sig .tc .vmem S16x128x1 .f32) (h3 : a3.IsWhole) (a4 : Memref sig .tc .vmem S16x128 .f32) (h4 : a4.IsWhole) (a5 : Memref sig .tc .vmem S16x128x128 .f32) (h5 : a5.IsWhole) (a6 : Memref sig .tc .vmem S16x128 .f32) (h6 : a6.IsWhole) (a7 : Memref sig .tc .vmem S16x1x128 .f32) (h7 : a7.IsWhole) (a8 : Memref sig .tc .vmem S16x1 .f32) (h8 : a8.IsWhole) (a9 : Memref sig .tc .vmem S1x4096x1 .f32) (h9 : a9.IsWhole)
    (x0 : Vec Ideal S4096x1 .f32) (x1 : Vec Ideal S16x128x1 .f32) (x2 : Vec Ideal S16x128 .f32) (x3 : Vec Ideal S16x128x128 .f32) (x4 : Vec Ideal S16x128 .f32) (x5 : Vec Ideal S16x1x128 .f32) (x6 : Vec Ideal S16x1 .f32)
    (u : Fin 1) (r : Fin 4096) (o : Fin 1) :
    out4_A_7 (F := Ideal) c i a2 h2 a3 h3 a4 h4 a5 h5 a6 h6 a7 h7 a8 h8 a9 h9 x0 x1 x2 x3 x4 x5 x6 (ix3 u r o)
      = mlpAt (fun j => x0 (ix2 r j)) (fun h j => x1 (ix3 (i 0) h j)) (fun h => x2 (ix2 (i 0) h))
          (fun k h => x3 (ix3 (i 0) k h)) (fun k => x4 (ix2 (i 0) k)) (fun q k => x5 (ix3 (i 0) q k))
          (fun q => x6 (ix2 (i 0) q)) o := by
  unfold out4_A_7
  rw [View.read_writes_eq_canon _ _ _ (cover4_A_7 c i a2 h2 a3 h3 a4 h4 a5 h5 a6 h6 a7 h7 a8 h8 a9 h9 x0 x1 x2 x3 x4 x5 x6)]
  unfold kernelRun4_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S4096x1) hz2]
  refine (pay4_apply _ _ _ _ _ _ _ u r o).trans ?_
  exact mlpAt_congr (fun j => rfl) (fun h j => ld_lead3 x1 _ _ (i 0) (k4_off1_eq i) h j)
    (fun h => ld_lead2 x2 _ _ (i 0) (k4_off2_eq i) h) (fun k h => ld_lead3 x3 _ _ (i 0) (k4_off3_eq i) k h)
    (fun k => ld_lead2 x4 _ _ (i 0) (k4_off2_eq i) k) (fun q k => ld_lead3 x5 _ _ (i 0) (k4_off4_eq i) q k)
    (fun q => ld_lead2 x6 _ _ (i 0) (k4_off5_eq i) q) rfl

variable (V : (c : Dev nD) → (b : Ref sig .tc) → Buf (Elt Ideal) ((c : Thread nD τ).loc b))

/-- What a grid point leaves in the output's staging buffer, over the blocks its windows hold. -/
theorem outsAt_at (c : Dev nD) (t : Fin cfg4.N) (u : Fin 1) (r : Fin 4096) (o : Fin 1) :
    outsAt4 (F := Ideal) V c t (ix3 u r o)
      = mlpAt (fun j => (iblk4 V c 0 t : Vec Ideal S4096x1 .f32) (ix2 r j))
          (fun h j => (iblk4 V c 1 t : Vec Ideal S16x128x1 .f32) (ix3 (grid4.coords t 0) h j))
          (fun h => (iblk4 V c 2 t : Vec Ideal S16x128 .f32) (ix2 (grid4.coords t 0) h))
          (fun k h => (iblk4 V c 3 t : Vec Ideal S16x128x128 .f32) (ix3 (grid4.coords t 0) k h))
          (fun k => (iblk4 V c 4 t : Vec Ideal S16x128 .f32) (ix2 (grid4.coords t 0) k))
          (fun q k => (iblk4 V c 5 t : Vec Ideal S16x1x128 .f32) (ix3 (grid4.coords t 0) q k))
          (fun q => (iblk4 V c 6 t : Vec Ideal S16x1 .f32) (ix2 (grid4.coords t 0) q)) o := by
  unfold outsAt4
  exact out_at c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) (iblk4 V c 5 t) (iblk4 V c 6 t) u r o

/-- The result array [16, 16384, 1] as one function of the arrays the call is entered with: every expert on every row. -/
abbrev G (c : Dev nD) : S16x16384x1.Idx → EReal :=
  mlpArr (P := 16) (N := 16384) (d := 1) (e := 1) (H := 128) (V c main_arg4) (V c main_arg29) (V c main_arg30)
    (V c main_arg31) (V c main_arg32) (V c main_arg33) (V c main_arg34)

/-- The printed index maps over the grid: the rows' window moves with the result's second block coordinate, the six
    weight and bias windows stay at block zero, and the point's first coordinate is the result's first block coordinate. -/
theorem idx_facts : ∀ t : Fin cfg4.N,
    win4_0.index t (0 : Fin 2) = win4_7.index t (1 : Fin 3) ∧ win4_0.index t (1 : Fin 2) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = 0 ∧ win4_3.index t (1 : Fin 3) = 0 ∧ win4_3.index t (2 : Fin 3) = 0
    ∧ win4_4.index t (0 : Fin 2) = 0 ∧ win4_4.index t (1 : Fin 2) = 0
    ∧ win4_5.index t (0 : Fin 3) = 0 ∧ win4_5.index t (1 : Fin 3) = 0 ∧ win4_5.index t (2 : Fin 3) = 0
    ∧ win4_6.index t (0 : Fin 2) = 0 ∧ win4_6.index t (1 : Fin 2) = 0
    ∧ win4_7.index t (2 : Fin 3) = 0 ∧ (grid4.coords t 0).val = win4_7.index t (0 : Fin 3)
    ∧ win4_7.index t (0 : Fin 3) ≤ 15 ∧ win4_7.index t (1 : Fin 3) ≤ 3 :=
  (by decide +kernel : ∀ t : Fin grid4.N, _)

/-- Every block (p, n) of the result is some point's. -/
theorem idx_onto : ∀ (q0 : Fin 16) (q1 : Fin 4), ∃ t : Fin cfg4.N, win4_7.index t = ![q0.val, q1.val, 0] :=
  (by decide +kernel : ∀ (q0 : Fin 16) (q1 : Fin 4), ∃ t : Fin grid4.N, win4_7.index t = ![q0.val, q1.val, 0])

/-- What point `t` writes back is block `t` of `G`: the row block it loaded is rows 4096·n … of the rows array, and the
    slices it loaded are expert p's. -/
theorem flushed_eq (c : Dev nD) (t : Fin cfg4.N) :
    (dat4 V c).flushed 7 t = ((cfg4.win 7).blk t).view.read (Elt Ideal) (G V c) := by
  show (cfg4.win 7).cut (grid4.coords t) ((dat4 V c).after 7 t) = _
  rw [after4_7]
  obtain ⟨e00, e01, e10, e11, e12, e20, e21, e30, e31, e32, e40, e41, e50, e51, e52, e60, e61, e72, ep, b0, b1⟩ := idx_facts t
  funext y
  obtain ⟨u, r, o, rfl⟩ : ∃ (u : Fin 1) (r : Fin 4096) (o : Fin 1), y = ix3 u r o := ⟨y 0, y 1, y 2, eq_ix3 y⟩
  have hu : u.val = 0 := by have := u.isLt; omega
  refine (outsAt_at V c t u r o).trans ?_
  show _ = G V c (((cfg4.win 7).blk t).view.emb (ix3 u r o))
  unfold G mlpArr
  refine mlpAt_congr ?_ ?_ ?_ ?_ ?_ ?_ ?_ ?_
  · intro j
    show V c main_arg4 (((cfg4.win 0).blk t).view.emb (ix2 r j)) = V c main_arg4 (ix2 ((((cfg4.win 7).blk t).view.emb (ix3 u r o)) 1) j)
    refine congrArg (V c main_arg4) (funext fun ax => Fin.ext ?_)
    match ax with
    | ⟨0, _⟩ => show win4_0.index t (0 : Fin 2) * 4096 + 1 * r.val = win4_7.index t (1 : Fin 3) * 4096 + 1 * r.val; omega
    | ⟨1, _⟩ => show win4_0.index t (1 : Fin 2) * 1 + 1 * j.val = j.val; omega
  · intro h j
    show V c main_arg29 (((cfg4.win 1).blk t).view.emb (ix3 (grid4.coords t 0) h j)) = V c main_arg29 (ix3 ((((cfg4.win 7).blk t).view.emb (ix3 u r o)) 0) h j)
    refine congrArg (V c main_arg29) (funext fun ax => Fin.ext ?_)
    match ax with
    | ⟨0, _⟩ => show win4_1.index t (0 : Fin 3) * 16 + 1 * (grid4.coords t 0).val = win4_7.index t (0 : Fin 3) * 1 + 1 * u.val; omega
    | ⟨1, _⟩ => show win4_1.index t (1 : Fin 3) * 128 + 1 * h.val = h.val; omega
    | ⟨2, _⟩ => show win4_1.index t (2 : Fin 3) * 1 + 1 * j.val = j.val; omega
  · intro h
    show V c main_arg30 (((cfg4.win 2).blk t).view.emb (ix2 (grid4.coords t 0) h)) = V c main_arg30 (ix2 ((((cfg4.win 7).blk t).view.emb (ix3 u r o)) 0) h)
    refine congrArg (V c main_arg30) (funext fun ax => Fin.ext ?_)
    match ax with
    | ⟨0, _⟩ => show win4_2.index t (0 : Fin 2) * 16 + 1 * (grid4.coords t 0).val = win4_7.index t (0 : Fin 3) * 1 + 1 * u.val; omega
    | ⟨1, _⟩ => show win4_2.index t (1 : Fin 2) * 128 + 1 * h.val = h.val; omega
  · intro k h
    show V c main_arg31 (((cfg4.win 3).blk t).view.emb (ix3 (grid4.coords t 0) k h)) = V c main_arg31 (ix3 ((((cfg4.win 7).blk t).view.emb (ix3 u r o)) 0) k h)
    refine congrArg (V c main_arg31) (funext fun ax => Fin.ext ?_)
    match ax with
    | ⟨0, _⟩ => show win4_3.index t (0 : Fin 3) * 16 + 1 * (grid4.coords t 0).val = win4_7.index t (0 : Fin 3) * 1 + 1 * u.val; omega
    | ⟨1, _⟩ => show win4_3.index t (1 : Fin 3) * 128 + 1 * k.val = k.val; omega
    | ⟨2, _⟩ => show win4_3.index t (2 : Fin 3) * 128 + 1 * h.val = h.val; omega
  · intro k
    show V c main_arg32 (((cfg4.win 4).blk t).view.emb (ix2 (grid4.coords t 0) k)) = V c main_arg32 (ix2 ((((cfg4.win 7).blk t).view.emb (ix3 u r o)) 0) k)
    refine congrArg (V c main_arg32) (funext fun ax => Fin.ext ?_)
    match ax with
    | ⟨0, _⟩ => show win4_4.index t (0 : Fin 2) * 16 + 1 * (grid4.coords t 0).val = win4_7.index t (0 : Fin 3) * 1 + 1 * u.val; omega
    | ⟨1, _⟩ => show win4_4.index t (1 : Fin 2) * 128 + 1 * k.val = k.val; omega
  · intro q k
    show V c main_arg33 (((cfg4.win 5).blk t).view.emb (ix3 (grid4.coords t 0) q k)) = V c main_arg33 (ix3 ((((cfg4.win 7).blk t).view.emb (ix3 u r o)) 0) q k)
    refine congrArg (V c main_arg33) (funext fun ax => Fin.ext ?_)
    match ax with
    | ⟨0, _⟩ => show win4_5.index t (0 : Fin 3) * 16 + 1 * (grid4.coords t 0).val = win4_7.index t (0 : Fin 3) * 1 + 1 * u.val; omega
    | ⟨1, _⟩ => show win4_5.index t (1 : Fin 3) * 1 + 1 * q.val = q.val; omega
    | ⟨2, _⟩ => show win4_5.index t (2 : Fin 3) * 128 + 1 * k.val = k.val; omega
  · intro q
    show V c main_arg34 (((cfg4.win 6).blk t).view.emb (ix2 (grid4.coords t 0) q)) = V c main_arg34 (ix2 ((((cfg4.win 7).blk t).view.emb (ix3 u r o)) 0) q)
    refine congrArg (V c main_arg34) (funext fun ax => Fin.ext ?_)
    match ax with
    | ⟨0, _⟩ => show win4_6.index t (0 : Fin 2) * 16 + 1 * (grid4.coords t 0).val = win4_7.index t (0 : Fin 3) * 1 + 1 * u.val; omega
    | ⟨1, _⟩ => show win4_6.index t (1 : Fin 2) * 1 + 1 * q.val = q.val; omega
  · exact Fin.ext (show o.val = win4_7.index t (2 : Fin 3) * 1 + 1 * o.val by omega)

/-- An index of the result array is in point `t`'s block iff each coordinate is in the block's range on its axis. -/
theorem mem_blk (t : Fin cfg4.N) (i : S16x16384x1.Idx) :
    i ∈ ((cfg4.win 7).blk t).view.set ↔ ∀ a : Fin 3, win4_7.index t a * S1x4096x1.size a ≤ (i a).val ∧ (i a).val < win4_7.index t a * S1x4096x1.size a + S1x4096x1.size a := by
  show i ∈ ((View.whole main_v8).slice (win4_7.rect t)).set ↔ _
  rw [View.set_slice_whole, Rect.mem_set_unit]
  exact Iff.rfl

/-- The blocks cover the result array: entry (p, r, o) is in the block of the point (p, r / 4096). -/
theorem cover (i : S16x16384x1.Idx) :
    ∃ t : Fin cfg4.N, (cfg4.win 7).flush t = true ∧ i ∈ ((cfg4.win 7).blk t).view.set := by
  have hi0 : (i 0).val < 16 := (i 0).isLt
  have hi1 : (i 1).val < 16384 := (i 1).isLt
  have hi2 : (i 2).val < 1 := (i 2).isLt
  obtain ⟨t, ht⟩ := idx_onto ⟨(i 0).val, hi0⟩ ⟨(i 1).val / 4096, by omega⟩
  have q0 : win4_7.index t (0 : Fin 3) = (i 0).val := congrFun ht 0
  have q1 : win4_7.index t (1 : Fin 3) = (i 1).val / 4096 := congrFun ht 1
  have q2 : win4_7.index t (2 : Fin 3) = 0 := congrFun ht 2
  refine ⟨t, flush4_7 t, ?_⟩
  rw [mem_blk]
  intro a
  match a with
  | ⟨0, _⟩ => show win4_7.index t (0 : Fin 3) * 1 ≤ (i 0).val ∧ (i 0).val < win4_7.index t (0 : Fin 3) * 1 + 1; omega
  | ⟨1, _⟩ => show win4_7.index t (1 : Fin 3) * 4096 ≤ (i 1).val ∧ (i 1).val < win4_7.index t (1 : Fin 3) * 4096 + 4096; omega
  | ⟨2, _⟩ => show win4_7.index t (2 : Fin 3) * 1 ≤ (i 2).val ∧ (i 2).val < win4_7.index t (2 : Fin 3) * 1 + 1; omega

/-- The result array after the call: the experts' outputs on every row, over the arrays the call was entered with. -/
theorem final (c : Dev nD) : (dat4 V c).arrAt 7 cfg4.N = G V c :=
  (dat4 V c).arrAt_eq_of_cover 7 (G V c) (fun t _ => flushed_eq V c t) (cover)

end Cert.KernelIdeal.Region4

end
-- ==== Proof.KernelRun.lean ====
/-
  The kernel program's run, read: @main is five pallas_calls, each followed by a reshape of its result. From any launch
  memory every weakly fair execution terminates with every buffer that outlives the kernels at the value a fold
  through @main gives it (the generated boundary contents), and that fold, read at the five results, is the reshape of
  each call's result array — the experts' outputs on every row, over the argument arrays as launched.
-/
import proofs.«129764_j16174846837057_2_alg».proof.Proof.Gen.KernelIdeal.Frame
import proofs.«129764_j16174846837057_2_alg».proof.Proof.Region0
import proofs.«129764_j16174846837057_2_alg».proof.Proof.Region1
import proofs.«129764_j16174846837057_2_alg».proof.Proof.Region2
import proofs.«129764_j16174846837057_2_alg».proof.Proof.Region3
import proofs.«129764_j16174846837057_2_alg».proof.Proof.Region4
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

namespace Cert.KernelIdeal.Run

open Cert.KernelIdeal Cert.KernelIdeal.Gen Cert.ExpertMlp

local notation "𝕄" => MT nD τ sig Unit (Elt Ideal) ℕ (UR sig nD τ) ℕ

variable (m : (ℓ : Loc nD τ sig) → Buf (Elt Ideal) ℓ) (ρ : Dev nD → PrngReg)

-- the regions theorem's implicit arguments are found by unifying its conclusion with this one, which takes unfolding plain
-- definitions in a metavariable's type
set_option backward.isDefEq.respectTransparency.types false in
/-- Every weakly fair execution of @main terminates, and in every final state each buffer that outlives the kernels
    holds what the fold through @main's ten segments gives it: the launch over the segments, the first thread state made
    from what the launch deals, the last read against the final state. -/
theorem run_fold : θ_run defs (onTc (τ := τ) (main (F := Ideal))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl,
        fun _ => .rfl, fun _ => .rfl, fun _ => .rfl, fun c => ?_⟩
      dsimp only [Pipeline.Seg.post, hseg, Pipeline.HostSeg.ofOps]
      iintro ⟨Hheld, Hreg, Howes⟩
      isplitr [Howes]
      · isplitl [Hheld]
        · iexact Hheld
        · iexact Hreg
      · iexact Howes)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]
      · iexact Hheld
      isplitl [Hreg]
      · iexists _; iexact Hreg
      · iexists ∅; iexact Howes)
    (QY := fun c s => ∀ b ∈ Pipeline.ucRefs τ sig, s.mem (((c : Thread nD τ)).1, b) = W10 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W10 m ρ c) s')
      isplitl [Hheld] <;> iassumption)
    (hQ := fun s h => h)

/-! ## The fold, one segment at a time -/

/-- Stretch 1 is one reshape: it leaves every buffer but its result as it was. -/
theorem hstep1 (c : Dev nD) (r : Ref sig .tc) (h : r ≠ main_v1) :
    W2 m ρ c (Proc.devRef .tc r) = W1 m ρ c (Proc.devRef .tc r) := by
  show (StableHlo.reshape main_v0 main_v1 rfl shapeCasts_S16x16384x3_S262144x3).result (W1 m ρ c) (Proc.devRef .tc r) = _
  rw [StableHlo.reshape_result_ne]; exact h
/-- … and its result is the call's result array recast as the matrix of its rows. -/
theorem hres1 (c : Dev nD) :
    W2 m ρ c (Proc.devRef .tc main_v1) = shapeCast S262144x3 (W1 m ρ c (Proc.devRef .tc main_v0)) shapeCasts_S16x16384x3_S262144x3 := by
  show (StableHlo.reshape main_v0 main_v1 rfl shapeCasts_S16x16384x3_S262144x3).result (W1 m ρ c) (Proc.devRef .tc main_v1) = _
  rw [StableHlo.reshape_result']
  rfl

/-- Stretch 2 is one reshape: it leaves every buffer but its result as it was. -/
theorem hstep2 (c : Dev nD) (r : Ref sig .tc) (h : r ≠ main_v3) :
    W4 m ρ c (Proc.devRef .tc r) = W3 m ρ c (Proc.devRef .tc r) := by
  show (StableHlo.reshape main_v2 main_v3 rfl shapeCasts_S16x16384x3_S262144x3).result (W3 m ρ c) (Proc.devRef .tc r) = _
  rw [StableHlo.reshape_result_ne]; exact h
/-- … and its result is the call's result array recast as the matrix of its rows. -/
theorem hres2 (c : Dev nD) :
    W4 m ρ c (Proc.devRef .tc main_v3) = shapeCast S262144x3 (W3 m ρ c (Proc.devRef .tc main_v2)) shapeCasts_S16x16384x3_S262144x3 := by
  show (StableHlo.reshape main_v2 main_v3 rfl shapeCasts_S16x16384x3_S262144x3).result (W3 m ρ c) (Proc.devRef .tc main_v3) = _
  rw [StableHlo.reshape_result']
  rfl

/-- Stretch 3 is one reshape: it leaves every buffer but its result as it was. -/
theorem hstep3 (c : Dev nD) (r : Ref sig .tc) (h : r ≠ main_v5) :
    W6 m ρ c (Proc.devRef .tc r) = W5 m ρ c (Proc.devRef .tc r) := by
  show (StableHlo.reshape main_v4 main_v5 rfl shapeCasts_S16x16384x3_S262144x3).result (W5 m ρ c) (Proc.devRef .tc r) = _
  rw [StableHlo.reshape_result_ne]; exact h
/-- … and its result is the call's result array recast as the matrix of its rows. -/
theorem hres3 (c : Dev nD) :
    W6 m ρ c (Proc.devRef .tc main_v5) = shapeCast S262144x3 (W5 m ρ c (Proc.devRef .tc main_v4)) shapeCasts_S16x16384x3_S262144x3 := by
  show (StableHlo.reshape main_v4 main_v5 rfl shapeCasts_S16x16384x3_S262144x3).result (W5 m ρ c) (Proc.devRef .tc main_v5) = _
  rw [StableHlo.reshape_result']
  rfl

/-- Stretch 4 is one reshape: it leaves every buffer but its result as it was. -/
theorem hstep4 (c : Dev nD) (r : Ref sig .tc) (h : r ≠ main_v7) :
    W8 m ρ c (Proc.devRef .tc r) = W7 m ρ c (Proc.devRef .tc r) := by
  show (StableHlo.reshape main_v6 main_v7 rfl shapeCasts_S16x16384x4_S262144x4).result (W7 m ρ c) (Proc.devRef .tc r) = _
  rw [StableHlo.reshape_result_ne]; exact h
/-- … and its result is the call's result array recast as the matrix of its rows. -/
theorem hres4 (c : Dev nD) :
    W8 m ρ c (Proc.devRef .tc main_v7) = shapeCast S262144x4 (W7 m ρ c (Proc.devRef .tc main_v6)) shapeCasts_S16x16384x4_S262144x4 := by
  show (StableHlo.reshape main_v6 main_v7 rfl shapeCasts_S16x16384x4_S262144x4).result (W7 m ρ c) (Proc.devRef .tc main_v7) = _
  rw [StableHlo.reshape_result']
  rfl

/-- Stretch 5 is one reshape: it leaves every buffer but its result as it was. -/
theorem hstep5 (c : Dev nD) (r : Ref sig .tc) (h : r ≠ main_v9) :
    W10 m ρ c (Proc.devRef .tc r) = W9 m ρ c (Proc.devRef .tc r) := by
  show (StableHlo.reshape main_v8 main_v9 rfl shapeCasts_S16x16384x1_S262144x1).result (W9 m ρ c) (Proc.devRef .tc r) = _
  rw [StableHlo.reshape_result_ne]; exact h
/-- … and its result is the call's result array recast as the matrix of its rows. -/
theorem hres5 (c : Dev nD) :
    W10 m ρ c (Proc.devRef .tc main_v9) = shapeCast S262144x1 (W9 m ρ c (Proc.devRef .tc main_v8)) shapeCasts_S16x16384x1_S262144x1 := by
  show (StableHlo.reshape main_v8 main_v9 rfl shapeCasts_S16x16384x1_S262144x1).result (W9 m ρ c) (Proc.devRef .tc main_v9) = _
  rw [StableHlo.reshape_result']
  rfl

/-! ## Each call is entered with its arguments as launched -/
theorem arg1_at1 (c : Dev nD) : W2 m ρ c (Proc.devRef .tc main_arg1) = m ((c : Thread nD τ).loc main_arg1) :=
  ((hstep1 m ρ c main_arg1 (by decide)).trans (W1_of_ne m ρ c main_arg1 (by decide)))
theorem arg11_at1 (c : Dev nD) : W2 m ρ c (Proc.devRef .tc main_arg11) = m ((c : Thread nD τ).loc main_arg11) :=
  ((hstep1 m ρ c main_arg11 (by decide)).trans (W1_of_ne m ρ c main_arg11 (by decide)))
theorem arg12_at1 (c : Dev nD) : W2 m ρ c (Proc.devRef .tc main_arg12) = m ((c : Thread nD τ).loc main_arg12) :=
  ((hstep1 m ρ c main_arg12 (by decide)).trans (W1_of_ne m ρ c main_arg12 (by decide)))
theorem arg13_at1 (c : Dev nD) : W2 m ρ c (Proc.devRef .tc main_arg13) = m ((c : Thread nD τ).loc main_arg13) :=
  ((hstep1 m ρ c main_arg13 (by decide)).trans (W1_of_ne m ρ c main_arg13 (by decide)))
theorem arg14_at1 (c : Dev nD) : W2 m ρ c (Proc.devRef .tc main_arg14) = m ((c : Thread nD τ).loc main_arg14) :=
  ((hstep1 m ρ c main_arg14 (by decide)).trans (W1_of_ne m ρ c main_arg14 (by decide)))
theorem arg15_at1 (c : Dev nD) : W2 m ρ c (Proc.devRef .tc main_arg15) = m ((c : Thread nD τ).loc main_arg15) :=
  ((hstep1 m ρ c main_arg15 (by decide)).trans (W1_of_ne m ρ c main_arg15 (by decide)))
theorem arg16_at1 (c : Dev nD) : W2 m ρ c (Proc.devRef .tc main_arg16) = m ((c : Thread nD τ).loc main_arg16) :=
  ((hstep1 m ρ c main_arg16 (by decide)).trans (W1_of_ne m ρ c main_arg16 (by decide)))
theorem arg2_at2 (c : Dev nD) : W4 m ρ c (Proc.devRef .tc main_arg2) = m ((c : Thread nD τ).loc main_arg2) :=
  ((((hstep2 m ρ c main_arg2 (by decide)).trans (W3_of_ne m ρ c main_arg2 (by decide))).trans (hstep1 m ρ c main_arg2 (by decide))).trans (W1_of_ne m ρ c main_arg2 (by decide)))
theorem arg17_at2 (c : Dev nD) : W4 m ρ c (Proc.devRef .tc main_arg17) = m ((c : Thread nD τ).loc main_arg17) :=
  ((((hstep2 m ρ c main_arg17 (by decide)).trans (W3_of_ne m ρ c main_arg17 (by decide))).trans (hstep1 m ρ c main_arg17 (by decide))).trans (W1_of_ne m ρ c main_arg17 (by decide)))
theorem arg18_at2 (c : Dev nD) : W4 m ρ c (Proc.devRef .tc main_arg18) = m ((c : Thread nD τ).loc main_arg18) :=
  ((((hstep2 m ρ c main_arg18 (by decide)).trans (W3_of_ne m ρ c main_arg18 (by decide))).trans (hstep1 m ρ c main_arg18 (by decide))).trans (W1_of_ne m ρ c main_arg18 (by decide)))
theorem arg19_at2 (c : Dev nD) : W4 m ρ c (Proc.devRef .tc main_arg19) = m ((c : Thread nD τ).loc main_arg19) :=
  ((((hstep2 m ρ c main_arg19 (by decide)).trans (W3_of_ne m ρ c main_arg19 (by decide))).trans (hstep1 m ρ c main_arg19 (by decide))).trans (W1_of_ne m ρ c main_arg19 (by decide)))
theorem arg20_at2 (c : Dev nD) : W4 m ρ c (Proc.devRef .tc main_arg20) = m ((c : Thread nD τ).loc main_arg20) :=
  ((((hstep2 m ρ c main_arg20 (by decide)).trans (W3_of_ne m ρ c main_arg20 (by decide))).trans (hstep1 m ρ c main_arg20 (by decide))).trans (W1_of_ne m ρ c main_arg20 (by decide)))
theorem arg21_at2 (c : Dev nD) : W4 m ρ c (Proc.devRef .tc main_arg21) = m ((c : Thread nD τ).loc main_arg21) :=
  ((((hstep2 m ρ c main_arg21 (by decide)).trans (W3_of_ne m ρ c main_arg21 (by decide))).trans (hstep1 m ρ c main_arg21 (by decide))).trans (W1_of_ne m ρ c main_arg21 (by decide)))
theorem arg22_at2 (c : Dev nD) : W4 m ρ c (Proc.devRef .tc main_arg22) = m ((c : Thread nD τ).loc main_arg22) :=
  ((((hstep2 m ρ c main_arg22 (by decide)).trans (W3_of_ne m ρ c main_arg22 (by decide))).trans (hstep1 m ρ c main_arg22 (by decide))).trans (W1_of_ne m ρ c main_arg22 (by decide)))
theorem arg3_at3 (c : Dev nD) : W6 m ρ c (Proc.devRef .tc main_arg3) = m ((c : Thread nD τ).loc main_arg3) :=
  ((((((hstep3 m ρ c main_arg3 (by decide)).trans (W5_of_ne m ρ c main_arg3 (by decide))).trans (hstep2 m ρ c main_arg3 (by decide))).trans (W3_of_ne m ρ c main_arg3 (by decide))).trans (hstep1 m ρ c main_arg3 (by decide))).trans (W1_of_ne m ρ c main_arg3 (by decide)))
theorem arg23_at3 (c : Dev nD) : W6 m ρ c (Proc.devRef .tc main_arg23) = m ((c : Thread nD τ).loc main_arg23) :=
  ((((((hstep3 m ρ c main_arg23 (by decide)).trans (W5_of_ne m ρ c main_arg23 (by decide))).trans (hstep2 m ρ c main_arg23 (by decide))).trans (W3_of_ne m ρ c main_arg23 (by decide))).trans (hstep1 m ρ c main_arg23 (by decide))).trans (W1_of_ne m ρ c main_arg23 (by decide)))
theorem arg24_at3 (c : Dev nD) : W6 m ρ c (Proc.devRef .tc main_arg24) = m ((c : Thread nD τ).loc main_arg24) :=
  ((((((hstep3 m ρ c main_arg24 (by decide)).trans (W5_of_ne m ρ c main_arg24 (by decide))).trans (hstep2 m ρ c main_arg24 (by decide))).trans (W3_of_ne m ρ c main_arg24 (by decide))).trans (hstep1 m ρ c main_arg24 (by decide))).trans (W1_of_ne m ρ c main_arg24 (by decide)))
theorem arg25_at3 (c : Dev nD) : W6 m ρ c (Proc.devRef .tc main_arg25) = m ((c : Thread nD τ).loc main_arg25) :=
  ((((((hstep3 m ρ c main_arg25 (by decide)).trans (W5_of_ne m ρ c main_arg25 (by decide))).trans (hstep2 m ρ c main_arg25 (by decide))).trans (W3_of_ne m ρ c main_arg25 (by decide))).trans (hstep1 m ρ c main_arg25 (by decide))).trans (W1_of_ne m ρ c main_arg25 (by decide)))
theorem arg26_at3 (c : Dev nD) : W6 m ρ c (Proc.devRef .tc main_arg26) = m ((c : Thread nD τ).loc main_arg26) :=
  ((((((hstep3 m ρ c main_arg26 (by decide)).trans (W5_of_ne m ρ c main_arg26 (by decide))).trans (hstep2 m ρ c main_arg26 (by decide))).trans (W3_of_ne m ρ c main_arg26 (by decide))).trans (hstep1 m ρ c main_arg26 (by decide))).trans (W1_of_ne m ρ c main_arg26 (by decide)))
theorem arg27_at3 (c : Dev nD) : W6 m ρ c (Proc.devRef .tc main_arg27) = m ((c : Thread nD τ).loc main_arg27) :=
  ((((((hstep3 m ρ c main_arg27 (by decide)).trans (W5_of_ne m ρ c main_arg27 (by decide))).trans (hstep2 m ρ c main_arg27 (by decide))).trans (W3_of_ne m ρ c main_arg27 (by decide))).trans (hstep1 m ρ c main_arg27 (by decide))).trans (W1_of_ne m ρ c main_arg27 (by decide)))
theorem arg28_at3 (c : Dev nD) : W6 m ρ c (Proc.devRef .tc main_arg28) = m ((c : Thread nD τ).loc main_arg28) :=
  ((((((hstep3 m ρ c main_arg28 (by decide)).trans (W5_of_ne m ρ c main_arg28 (by decide))).trans (hstep2 m ρ c main_arg28 (by decide))).trans (W3_of_ne m ρ c main_arg28 (by decide))).trans (hstep1 m ρ c main_arg28 (by decide))).trans (W1_of_ne m ρ c main_arg28 (by decide)))
theorem arg4_at4 (c : Dev nD) : W8 m ρ c (Proc.devRef .tc main_arg4) = m ((c : Thread nD τ).loc main_arg4) :=
  ((((((((hstep4 m ρ c main_arg4 (by decide)).trans (W7_of_ne m ρ c main_arg4 (by decide))).trans (hstep3 m ρ c main_arg4 (by decide))).trans (W5_of_ne m ρ c main_arg4 (by decide))).trans (hstep2 m ρ c main_arg4 (by decide))).trans (W3_of_ne m ρ c main_arg4 (by decide))).trans (hstep1 m ρ c main_arg4 (by decide))).trans (W1_of_ne m ρ c main_arg4 (by decide)))
theorem arg29_at4 (c : Dev nD) : W8 m ρ c (Proc.devRef .tc main_arg29) = m ((c : Thread nD τ).loc main_arg29) :=
  ((((((((hstep4 m ρ c main_arg29 (by decide)).trans (W7_of_ne m ρ c main_arg29 (by decide))).trans (hstep3 m ρ c main_arg29 (by decide))).trans (W5_of_ne m ρ c main_arg29 (by decide))).trans (hstep2 m ρ c main_arg29 (by decide))).trans (W3_of_ne m ρ c main_arg29 (by decide))).trans (hstep1 m ρ c main_arg29 (by decide))).trans (W1_of_ne m ρ c main_arg29 (by decide)))
theorem arg30_at4 (c : Dev nD) : W8 m ρ c (Proc.devRef .tc main_arg30) = m ((c : Thread nD τ).loc main_arg30) :=
  ((((((((hstep4 m ρ c main_arg30 (by decide)).trans (W7_of_ne m ρ c main_arg30 (by decide))).trans (hstep3 m ρ c main_arg30 (by decide))).trans (W5_of_ne m ρ c main_arg30 (by decide))).trans (hstep2 m ρ c main_arg30 (by decide))).trans (W3_of_ne m ρ c main_arg30 (by decide))).trans (hstep1 m ρ c main_arg30 (by decide))).trans (W1_of_ne m ρ c main_arg30 (by decide)))
theorem arg31_at4 (c : Dev nD) : W8 m ρ c (Proc.devRef .tc main_arg31) = m ((c : Thread nD τ).loc main_arg31) :=
  ((((((((hstep4 m ρ c main_arg31 (by decide)).trans (W7_of_ne m ρ c main_arg31 (by decide))).trans (hstep3 m ρ c main_arg31 (by decide))).trans (W5_of_ne m ρ c main_arg31 (by decide))).trans (hstep2 m ρ c main_arg31 (by decide))).trans (W3_of_ne m ρ c main_arg31 (by decide))).trans (hstep1 m ρ c main_arg31 (by decide))).trans (W1_of_ne m ρ c main_arg31 (by decide)))
theorem arg32_at4 (c : Dev nD) : W8 m ρ c (Proc.devRef .tc main_arg32) = m ((c : Thread nD τ).loc main_arg32) :=
  ((((((((hstep4 m ρ c main_arg32 (by decide)).trans (W7_of_ne m ρ c main_arg32 (by decide))).trans (hstep3 m ρ c main_arg32 (by decide))).trans (W5_of_ne m ρ c main_arg32 (by decide))).trans (hstep2 m ρ c main_arg32 (by decide))).trans (W3_of_ne m ρ c main_arg32 (by decide))).trans (hstep1 m ρ c main_arg32 (by decide))).trans (W1_of_ne m ρ c main_arg32 (by decide)))
theorem arg33_at4 (c : Dev nD) : W8 m ρ c (Proc.devRef .tc main_arg33) = m ((c : Thread nD τ).loc main_arg33) :=
  ((((((((hstep4 m ρ c main_arg33 (by decide)).trans (W7_of_ne m ρ c main_arg33 (by decide))).trans (hstep3 m ρ c main_arg33 (by decide))).trans (W5_of_ne m ρ c main_arg33 (by decide))).trans (hstep2 m ρ c main_arg33 (by decide))).trans (W3_of_ne m ρ c main_arg33 (by decide))).trans (hstep1 m ρ c main_arg33 (by decide))).trans (W1_of_ne m ρ c main_arg33 (by decide)))
theorem arg34_at4 (c : Dev nD) : W8 m ρ c (Proc.devRef .tc main_arg34) = m ((c : Thread nD τ).loc main_arg34) :=
  ((((((((hstep4 m ρ c main_arg34 (by decide)).trans (W7_of_ne m ρ c main_arg34 (by decide))).trans (hstep3 m ρ c main_arg34 (by decide))).trans (W5_of_ne m ρ c main_arg34 (by decide))).trans (hstep2 m ρ c main_arg34 (by decide))).trans (W3_of_ne m ρ c main_arg34 (by decide))).trans (hstep1 m ρ c main_arg34 (by decide))).trans (W1_of_ne m ρ c main_arg34 (by decide)))

/-- The experts' array depends on its seven ingredient arrays only. -/
theorem mlpArr_congr {P N d e H : ℕ} {x x' : (⟨2, ![N, d]⟩ : Shape).Idx → EReal} {W1 W1' : (⟨3, ![P, H, d]⟩ : Shape).Idx → EReal}
    {B1 B1' : (⟨2, ![P, H]⟩ : Shape).Idx → EReal} {W2 W2' : (⟨3, ![P, H, H]⟩ : Shape).Idx → EReal} {B2 B2' : (⟨2, ![P, H]⟩ : Shape).Idx → EReal}
    {W3 W3' : (⟨3, ![P, e, H]⟩ : Shape).Idx → EReal} {B3 B3' : (⟨2, ![P, e]⟩ : Shape).Idx → EReal}
    (h0 : x = x') (h1 : W1 = W1') (h2 : B1 = B1') (h3 : W2 = W2') (h4 : B2 = B2') (h5 : W3 = W3') (h6 : B3 = B3') :
    mlpArr x W1 B1 W2 B2 W3 B3 = mlpArr x' W1' B1' W2' B2' W3' B3' := by
  subst h0 h1 h2 h3 h4 h5 h6; rfl

/-! ## The five results -/

/-- Result 0: the reshape of call 0's result array, the experts' outputs on every row over the arguments as launched. -/
theorem res0 (c : Dev nD) :
    W10 m ρ c (Proc.devRef .tc main_v1)
      = shapeCast S262144x3 (mlpArr (P := 16) (N := 16384) (d := 3) (e := 3) (H := 128) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) shapeCasts_S16x16384x3_S262144x3 := by
  refine (((((((((hstep5 m ρ c main_v1 (by decide)).trans (W9_of_ne m ρ c main_v1 (by decide))).trans (hstep4 m ρ c main_v1 (by decide))).trans (W7_of_ne m ρ c main_v1 (by decide))).trans (hstep3 m ρ c main_v1 (by decide))).trans (W5_of_ne m ρ c main_v1 (by decide))).trans (hstep2 m ρ c main_v1 (by decide))).trans (W3_of_ne m ρ c main_v1 (by decide)))).trans ?_
  rw [hres1 m ρ c]
  refine congrArg (fun a => shapeCast S262144x3 a shapeCasts_S16x16384x3_S262144x3) ?_
  refine ((W1_arr m ρ c 7).trans (Region0.final (V0 m ρ) c)).trans ?_
  exact rfl

/-- Result 1: the reshape of call 1's result array, the experts' outputs on every row over the arguments as launched. -/
theorem res1 (c : Dev nD) :
    W10 m ρ c (Proc.devRef .tc main_v3)
      = shapeCast S262144x3 (mlpArr (P := 16) (N := 16384) (d := 3) (e := 3) (H := 128) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) shapeCasts_S16x16384x3_S262144x3 := by
  refine (((((((hstep5 m ρ c main_v3 (by decide)).trans (W9_of_ne m ρ c main_v3 (by decide))).trans (hstep4 m ρ c main_v3 (by decide))).trans (W7_of_ne m ρ c main_v3 (by decide))).trans (hstep3 m ρ c main_v3 (by decide))).trans (W5_of_ne m ρ c main_v3 (by decide)))).trans ?_
  rw [hres2 m ρ c]
  refine congrArg (fun a => shapeCast S262144x3 a shapeCasts_S16x16384x3_S262144x3) ?_
  refine ((W3_arr m ρ c 7).trans (Region1.final (V2 m ρ) c)).trans ?_
  exact mlpArr_congr (arg1_at1 m ρ c) (arg11_at1 m ρ c) (arg12_at1 m ρ c) (arg13_at1 m ρ c) (arg14_at1 m ρ c) (arg15_at1 m ρ c) (arg16_at1 m ρ c)

/-- Result 2: the reshape of call 2's result array, the experts' outputs on every row over the arguments as launched. -/
theorem res2 (c : Dev nD) :
    W10 m ρ c (Proc.devRef .tc main_v5)
      = shapeCast S262144x3 (mlpArr (P := 16) (N := 16384) (d := 3) (e := 3) (H := 128) (m ((c : Thread nD τ).loc main_arg2)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) shapeCasts_S16x16384x3_S262144x3 := by
  refine (((((hstep5 m ρ c main_v5 (by decide)).trans (W9_of_ne m ρ c main_v5 (by decide))).trans (hstep4 m ρ c main_v5 (by decide))).trans (W7_of_ne m ρ c main_v5 (by decide)))).trans ?_
  rw [hres3 m ρ c]
  refine congrArg (fun a => shapeCast S262144x3 a shapeCasts_S16x16384x3_S262144x3) ?_
  refine ((W5_arr m ρ c 7).trans (Region2.final (V4 m ρ) c)).trans ?_
  exact mlpArr_congr (arg2_at2 m ρ c) (arg17_at2 m ρ c) (arg18_at2 m ρ c) (arg19_at2 m ρ c) (arg20_at2 m ρ c) (arg21_at2 m ρ c) (arg22_at2 m ρ c)

/-- Result 3: the reshape of call 3's result array, the experts' outputs on every row over the arguments as launched. -/
theorem res3 (c : Dev nD) :
    W10 m ρ c (Proc.devRef .tc main_v7)
      = shapeCast S262144x4 (mlpArr (P := 16) (N := 16384) (d := 4) (e := 4) (H := 128) (m ((c : Thread nD τ).loc main_arg3)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))) shapeCasts_S16x16384x4_S262144x4 := by
  refine (((hstep5 m ρ c main_v7 (by decide)).trans (W9_of_ne m ρ c main_v7 (by decide)))).trans ?_
  rw [hres4 m ρ c]
  refine congrArg (fun a => shapeCast S262144x4 a shapeCasts_S16x16384x4_S262144x4) ?_
  refine ((W7_arr m ρ c 7).trans (Region3.final (V6 m ρ) c)).trans ?_
  exact mlpArr_congr (arg3_at3 m ρ c) (arg23_at3 m ρ c) (arg24_at3 m ρ c) (arg25_at3 m ρ c) (arg26_at3 m ρ c) (arg27_at3 m ρ c) (arg28_at3 m ρ c)

/-- Result 4: the reshape of call 4's result array, the experts' outputs on every row over the arguments as launched. -/
theorem res4 (c : Dev nD) :
    W10 m ρ c (Proc.devRef .tc main_v9)
      = shapeCast S262144x1 (mlpArr (P := 16) (N := 16384) (d := 1) (e := 1) (H := 128) (m ((c : Thread nD τ).loc main_arg4)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34))) shapeCasts_S16x16384x1_S262144x1 := by
  refine ?_
  rw [hres5 m ρ c]
  refine congrArg (fun a => shapeCast S262144x1 a shapeCasts_S16x16384x1_S262144x1) ?_
  refine ((W9_arr m ρ c 7).trans (Region4.final (V8 m ρ) c)).trans ?_
  exact mlpArr_congr (arg4_at4 m ρ c) (arg29_at4 m ρ c) (arg30_at4 m ρ c) (arg31_at4 m ρ c) (arg32_at4 m ρ c) (arg33_at4 m ρ c) (arg34_at4 m ρ c)

/-! ## The run, read -/

/-- Every weakly fair execution of the kernel program terminates with each result at the reshape of the experts' outputs
    over the arguments as launched, and the arguments unchanged. -/
theorem run : θ_run defs (onTc (τ := τ) (main (F := Ideal))) ⟨m, fun _ => 0, ρ⟩ (fun r => ∀ c : Dev nD,
      r.2.mem ((c : Thread nD τ).loc main_v1) = shapeCast S262144x3 (mlpArr (P := 16) (N := 16384) (d := 3) (e := 3) (H := 128) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) shapeCasts_S16x16384x3_S262144x3
      ∧       r.2.mem ((c : Thread nD τ).loc main_v3) = shapeCast S262144x3 (mlpArr (P := 16) (N := 16384) (d := 3) (e := 3) (H := 128) (m ((c : Thread nD τ).loc main_arg1)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) shapeCasts_S16x16384x3_S262144x3
      ∧       r.2.mem ((c : Thread nD τ).loc main_v5) = shapeCast S262144x3 (mlpArr (P := 16) (N := 16384) (d := 3) (e := 3) (H := 128) (m ((c : Thread nD τ).loc main_arg2)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) shapeCasts_S16x16384x3_S262144x3
      ∧       r.2.mem ((c : Thread nD τ).loc main_v7) = shapeCast S262144x4 (mlpArr (P := 16) (N := 16384) (d := 4) (e := 4) (H := 128) (m ((c : Thread nD τ).loc main_arg3)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))) shapeCasts_S16x16384x4_S262144x4
      ∧       r.2.mem ((c : Thread nD τ).loc main_v9) = shapeCast S262144x1 (mlpArr (P := 16) (N := 16384) (d := 1) (e := 1) (H := 128) (m ((c : Thread nD τ).loc main_arg4)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34))) shapeCasts_S16x16384x1_S262144x1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)) :=
  (θ_run defs _ _).mono (fun r h c =>
    ⟨(h c _ (mem_uc main_v1 (by decide))).trans (res0 m ρ c),
     (h c _ (mem_uc main_v3 (by decide))).trans (res1 m ρ c),
     (h c _ (mem_uc main_v5 (by decide))).trans (res2 m ρ c),
     (h c _ (mem_uc main_v7 (by decide))).trans (res3 m ρ c),
     (h c _ (mem_uc main_v9 (by decide))).trans (res4 m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c),
     (h c _ (mem_uc main_arg14 (by decide))).trans (W10_main_arg14 m ρ c),
     (h c _ (mem_uc main_arg15 (by decide))).trans (W10_main_arg15 m ρ c),
     (h c _ (mem_uc main_arg16 (by decide))).trans (W10_main_arg16 m ρ c),
     (h c _ (mem_uc main_arg17 (by decide))).trans (W10_main_arg17 m ρ c),
     (h c _ (mem_uc main_arg18 (by decide))).trans (W10_main_arg18 m ρ c),
     (h c _ (mem_uc main_arg19 (by decide))).trans (W10_main_arg19 m ρ c),
     (h c _ (mem_uc main_arg20 (by decide))).trans (W10_main_arg20 m ρ c),
     (h c _ (mem_uc main_arg21 (by decide))).trans (W10_main_arg21 m ρ c),
     (h c _ (mem_uc main_arg22 (by decide))).trans (W10_main_arg22 m ρ c),
     (h c _ (mem_uc main_arg23 (by decide))).trans (W10_main_arg23 m ρ c),
     (h c _ (mem_uc main_arg24 (by decide))).trans (W10_main_arg24 m ρ c),
     (h c _ (mem_uc main_arg25 (by decide))).trans (W10_main_arg25 m ρ c),
     (h c _ (mem_uc main_arg26 (by decide))).trans (W10_main_arg26 m ρ c),
     (h c _ (mem_uc main_arg27 (by decide))).trans (W10_main_arg27 m ρ c),
     (h c _ (mem_uc main_arg28 (by decide))).trans (W10_main_arg28 m ρ c),
     (h c _ (mem_uc main_arg29 (by decide))).trans (W10_main_arg29 m ρ c),
     (h c _ (mem_uc main_arg30 (by decide))).trans (W10_main_arg30 m ρ c),
     (h c _ (mem_uc main_arg31 (by decide))).trans (W10_main_arg31 m ρ c),
     (h c _ (mem_uc main_arg32 (by decide))).trans (W10_main_arg32 m ρ c),
     (h c _ (mem_uc main_arg33 (by decide))).trans (W10_main_arg33 m ρ c),
     (h c _ (mem_uc main_arg34 (by decide))).trans (W10_main_arg34 m ρ c)⟩)
    (run_fold m ρ)

end Cert.KernelIdeal.Run

end
-- ==== Proof.Reference.lean ====
/-
  The reference's five results, each before its final reshape, are the experts' outputs on every row.
  Its three einsums read, at an entry, a sum over the contracted axis; its biases are spread over the rows and its
  rectifier is a maximum with a spread zero. The composed index functions of the generated per-operation readings are the
  plain coordinates below.
-/
import proofs.«129764_j16174846837057_2_alg».proof.Proof.Gen.ReferenceIdeal.Read
import proofs.«129764_j16174846837057_2_alg».proof.Proof.LibExpertMlp

noncomputable section

open scoped BigOperators

namespace Cert.ReferenceIdeal.Spec

open Cert.ReferenceIdeal Cert.ReferenceIdeal.Gen Cert.ReferenceIdeal.Read Idealize.ShloMosaic Idealize.ShloMosaic.ValueIdx Cert.ExpertMlp

/-- An expert's output with the first layer's products written weight by input, as an einsum over the weights' last
    axis reads them: multiplication of extended reals commutes. -/
theorem mlpAt_weightFirst {d e H : ℕ} (x : Fin d → EReal) (w1 : Fin H → Fin d → EReal) (b1 : Fin H → EReal)
    (w2 : Fin H → Fin H → EReal) (b2 : Fin H → EReal) (w3 : Fin e → Fin H → EReal) (b3 : Fin e → EReal) (o : Fin e) :
    mlpAt x w1 b1 w2 b2 w3 b3 o
      = (∑ k : Fin H, max ((∑ h : Fin H, max ((∑ j : Fin d, w1 h j * x j) + b1 h) zero * w2 k h) + b2 k) zero * w3 o k) + b3 o := by
  unfold mlpAt
  have hc : ∀ (h : Fin H) (j : Fin d), x j * w1 h j = w1 h j * x j := fun h j => mul_comm _ _
  simp only [hc]

/-! ## Attribute 0: `main_v14` (before the final reshape) -/

section attr0
variable (i : S16x16384x3.Idx) (k h : Fin 128) (j : Fin 3)

theorem a0_w3 : ridx_main_v11 i k = ix3 (i 0) (i 2) k := funext fun ax => Fin.ext (by match ax with | ⟨0, _⟩ => rfl | ⟨1, _⟩ => rfl | ⟨2, _⟩ => rfl)
theorem a0_b3 : idx_main_v12 (idx_main_v13 i) = ix2 (i 0) (i 2) := funext fun ax => Fin.ext (by match ax with | ⟨0, _⟩ => rfl | ⟨1, _⟩ => rfl)
theorem a0_w2 : ridx_main_v6 (lidx_main_v11 i k) h = ix3 (i 0) k h := funext fun ax => Fin.ext (by match ax with | ⟨0, _⟩ => rfl | ⟨1, _⟩ => rfl | ⟨2, _⟩ => rfl)
theorem a0_b2 : idx_main_v7 (idx_main_v8 (lidx_main_v11 i k)) = ix2 (i 0) k := funext fun ax => Fin.ext (by match ax with | ⟨0, _⟩ => rfl | ⟨1, _⟩ => rfl)
theorem a0_b1 : idx_main_v2 (idx_main_v3 (lidx_main_v6 (lidx_main_v11 i k) h)) = ix2 (i 0) h := funext fun ax => Fin.ext (by match ax with | ⟨0, _⟩ => rfl | ⟨1, _⟩ => rfl)
theorem a0_w1 : lidx_main_v0 (idx_main_v1 (lidx_main_v6 (lidx_main_v11 i k) h)) j = ix3 (i 0) h j := funext fun ax => Fin.ext (by match ax with | ⟨0, _⟩ => rfl | ⟨1, _⟩ => rfl | ⟨2, _⟩ => rfl)
theorem a0_x : ridx_main_v0 (idx_main_v1 (lidx_main_v6 (lidx_main_v11 i k) h)) j = ix2 (i 1) j := funext fun ax => Fin.ext (by match ax with | ⟨0, _⟩ => rfl | ⟨1, _⟩ => rfl)

end attr0

/-- The reference's array for attribute 0, before its final reshape, is every expert on every row: the einsum of the
    first layer multiplies weight by input where the specification multiplies input by weight — the same product. -/
theorem ref0_eq (x0 : (⟨S16384x3, .f32⟩ : BufTy).Contents (Elt Ideal)) (x5 : (⟨S16x128x3, .f32⟩ : BufTy).Contents (Elt Ideal)) (x6 : (⟨S16x128, .f32⟩ : BufTy).Contents (Elt Ideal)) (x7 : (⟨S16x128x128, .f32⟩ : BufTy).Contents (Elt Ideal)) (x8 : (⟨S16x128, .f32⟩ : BufTy).Contents (Elt Ideal)) (x9 : (⟨S16x3x128, .f32⟩ : BufTy).Contents (Elt Ideal)) (x10 : (⟨S16x3, .f32⟩ : BufTy).Contents (Elt Ideal)) :
    val_main_v14 (F := Ideal) x0 x5 x6 x7 x8 x9 x10 = mlpArr (P := 16) (N := 16384) (d := 3) (e := 3) (H := 128) x0 x5 x6 x7 x8 x9 x10 := by
  funext i
  simp only [val_main_v14_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_v13_apply, val_main_v12_apply, val_main_call0_v0_apply, val_main_call0_cst_apply, val_main_call1_v0_apply, val_main_call1_cst_apply,
    a0_w3, a0_b3, a0_w2, a0_b2, a0_b1, a0_w1, a0_x,
    Ideal.addf_def, Ideal.maximumf_def, Ideal.ofBits_def]
  refine Eq.trans ?_ (mlpAt_weightFirst _ _ _ _ _ _ _ _).symm
  rfl

/-! ## Attribute 1: `main_v30` (before the final reshape) -/

section attr1
variable (i : S16x16384x3.Idx) (k h : Fin 128) (j : Fin 3)

theorem a1_w3 : ridx_main_v27 i k = ix3 (i 0) (i 2) k := funext fun ax => Fin.ext (by match ax with | ⟨0, _⟩ => rfl | ⟨1, _⟩ => rfl | ⟨2, _⟩ => rfl)
theorem a1_b3 : idx_main_v28 (idx_main_v29 i) = ix2 (i 0) (i 2) := funext fun ax => Fin.ext (by match ax with | ⟨0, _⟩ => rfl | ⟨1, _⟩ => rfl)
theorem a1_w2 : ridx_main_v22 (lidx_main_v27 i k) h = ix3 (i 0) k h := funext fun ax => Fin.ext (by match ax with | ⟨0, _⟩ => rfl | ⟨1, _⟩ => rfl | ⟨2, _⟩ => rfl)
theorem a1_b2 : idx_main_v23 (idx_main_v24 (lidx_main_v27 i k)) = ix2 (i 0) k := funext fun ax => Fin.ext (by match ax with | ⟨0, _⟩ => rfl | ⟨1, _⟩ => rfl)
theorem a1_b1 : idx_main_v18 (idx_main_v19 (lidx_main_v22 (lidx_main_v27 i k) h)) = ix2 (i 0) h := funext fun ax => Fin.ext (by match ax with | ⟨0, _⟩ => rfl | ⟨1, _⟩ => rfl)
theorem a1_w1 : lidx_main_v16 (idx_main_v17 (lidx_main_v22 (lidx_main_v27 i k) h)) j = ix3 (i 0) h j := funext fun ax => Fin.ext (by match ax with | ⟨0, _⟩ => rfl | ⟨1, _⟩ => rfl | ⟨2, _⟩ => rfl)
theorem a1_x : ridx_main_v16 (idx_main_v17 (lidx_main_v22 (lidx_main_v27 i k) h)) j = ix2 (i 1) j := funext fun ax => Fin.ext (by match ax with | ⟨0, _⟩ => rfl | ⟨1, _⟩ => rfl)

end attr1

/-- The reference's array for attribute 1, before its final reshape, is every expert on every row: the einsum of the
    first layer multiplies weight by input where the specification multiplies input by weight — the same product. -/
theorem ref1_eq (x1 : (⟨S16384x3, .f32⟩ : BufTy).Contents (Elt Ideal)) (x11 : (⟨S16x128x3, .f32⟩ : BufTy).Contents (Elt Ideal)) (x12 : (⟨S16x128, .f32⟩ : BufTy).Contents (Elt Ideal)) (x13 : (⟨S16x128x128, .f32⟩ : BufTy).Contents (Elt Ideal)) (x14 : (⟨S16x128, .f32⟩ : BufTy).Contents (Elt Ideal)) (x15 : (⟨S16x3x128, .f32⟩ : BufTy).Contents (Elt Ideal)) (x16 : (⟨S16x3, .f32⟩ : BufTy).Contents (Elt Ideal)) :
    val_main_v30 (F := Ideal) x1 x11 x12 x13 x14 x15 x16 = mlpArr (P := 16) (N := 16384) (d := 3) (e := 3) (H := 128) x1 x11 x12 x13 x14 x15 x16 := by
  funext i
  simp only [val_main_v30_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v29_apply, val_main_v28_apply, val_main_call2_v0_apply, val_main_call2_cst_apply, val_main_call3_v0_apply, val_main_call3_cst_apply,
    a1_w3, a1_b3, a1_w2, a1_b2, a1_b1, a1_w1, a1_x,
    Ideal.addf_def, Ideal.maximumf_def, Ideal.ofBits_def]
  refine Eq.trans ?_ (mlpAt_weightFirst _ _ _ _ _ _ _ _).symm
  rfl

/-! ## Attribute 2: `main_v46` (before the final reshape) -/

section attr2
variable (i : S16x16384x3.Idx) (k h : Fin 128) (j : Fin 3)

theorem a2_w3 : ridx_main_v43 i k = ix3 (i 0) (i 2) k := funext fun ax => Fin.ext (by match ax with | ⟨0, _⟩ => rfl | ⟨1, _⟩ => rfl | ⟨2, _⟩ => rfl)
theorem a2_b3 : idx_main_v44 (idx_main_v45 i) = ix2 (i 0) (i 2) := funext fun ax => Fin.ext (by match ax with | ⟨0, _⟩ => rfl | ⟨1, _⟩ => rfl)
theorem a2_w2 : ridx_main_v38 (lidx_main_v43 i k) h = ix3 (i 0) k h := funext fun ax => Fin.ext (by match ax with | ⟨0, _⟩ => rfl | ⟨1, _⟩ => rfl | ⟨2, _⟩ => rfl)
theorem a2_b2 : idx_main_v39 (idx_main_v40 (lidx_main_v43 i k)) = ix2 (i 0) k := funext fun ax => Fin.ext (by match ax with | ⟨0, _⟩ => rfl | ⟨1, _⟩ => rfl)
theorem a2_b1 : idx_main_v34 (idx_main_v35 (lidx_main_v38 (lidx_main_v43 i k) h)) = ix2 (i 0) h := funext fun ax => Fin.ext (by match ax with | ⟨0, _⟩ => rfl | ⟨1, _⟩ => rfl)
theorem a2_w1 : lidx_main_v32 (idx_main_v33 (lidx_main_v38 (lidx_main_v43 i k) h)) j = ix3 (i 0) h j := funext fun ax => Fin.ext (by match ax with | ⟨0, _⟩ => rfl | ⟨1, _⟩ => rfl | ⟨2, _⟩ => rfl)
theorem a2_x : ridx_main_v32 (idx_main_v33 (lidx_main_v38 (lidx_main_v43 i k) h)) j = ix2 (i 1) j := funext fun ax => Fin.ext (by match ax with | ⟨0, _⟩ => rfl | ⟨1, _⟩ => rfl)

end attr2

/-- The reference's array for attribute 2, before its final reshape, is every expert on every row: the einsum of the
    first layer multiplies weight by input where the specification multiplies input by weight — the same product. -/
theorem ref2_eq (x2 : (⟨S16384x3, .f32⟩ : BufTy).Contents (Elt Ideal)) (x17 : (⟨S16x128x3, .f32⟩ : BufTy).Contents (Elt Ideal)) (x18 : (⟨S16x128, .f32⟩ : BufTy).Contents (Elt Ideal)) (x19 : (⟨S16x128x128, .f32⟩ : BufTy).Contents (Elt Ideal)) (x20 : (⟨S16x128, .f32⟩ : BufTy).Contents (Elt Ideal)) (x21 : (⟨S16x3x128, .f32⟩ : BufTy).Contents (Elt Ideal)) (x22 : (⟨S16x3, .f32⟩ : BufTy).Contents (Elt Ideal)) :
    val_main_v46 (F := Ideal) x2 x17 x18 x19 x20 x21 x22 = mlpArr (P := 16) (N := 16384) (d := 3) (e := 3) (H := 128) x2 x17 x18 x19 x20 x21 x22 := by
  funext i
  simp only [val_main_v46_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v45_apply, val_main_v44_apply, val_main_call4_v0_apply, val_main_call4_cst_apply, val_main_call5_v0_apply, val_main_call5_cst_apply,
    a2_w3, a2_b3, a2_w2, a2_b2, a2_b1, a2_w1, a2_x,
    Ideal.addf_def, Ideal.maximumf_def, Ideal.ofBits_def]
  refine Eq.trans ?_ (mlpAt_weightFirst _ _ _ _ _ _ _ _).symm
  rfl

/-! ## Attribute 3: `main_v62` (before the final reshape) -/

section attr3
variable (i : S16x16384x4.Idx) (k h : Fin 128) (j : Fin 4)

theorem a3_w3 : ridx_main_v59 i k = ix3 (i 0) (i 2) k := funext fun ax => Fin.ext (by match ax with | ⟨0, _⟩ => rfl | ⟨1, _⟩ => rfl | ⟨2, _⟩ => rfl)
theorem a3_b3 : idx_main_v60 (idx_main_v61 i) = ix2 (i 0) (i 2) := funext fun ax => Fin.ext (by match ax with | ⟨0, _⟩ => rfl | ⟨1, _⟩ => rfl)
theorem a3_w2 : ridx_main_v54 (lidx_main_v59 i k) h = ix3 (i 0) k h := funext fun ax => Fin.ext (by match ax with | ⟨0, _⟩ => rfl | ⟨1, _⟩ => rfl | ⟨2, _⟩ => rfl)
theorem a3_b2 : idx_main_v55 (idx_main_v56 (lidx_main_v59 i k)) = ix2 (i 0) k := funext fun ax => Fin.ext (by match ax with | ⟨0, _⟩ => rfl | ⟨1, _⟩ => rfl)
theorem a3_b1 : idx_main_v50 (idx_main_v51 (lidx_main_v54 (lidx_main_v59 i k) h)) = ix2 (i 0) h := funext fun ax => Fin.ext (by match ax with | ⟨0, _⟩ => rfl | ⟨1, _⟩ => rfl)
theorem a3_w1 : lidx_main_v48 (idx_main_v49 (lidx_main_v54 (lidx_main_v59 i k) h)) j = ix3 (i 0) h j := funext fun ax => Fin.ext (by match ax with | ⟨0, _⟩ => rfl | ⟨1, _⟩ => rfl | ⟨2, _⟩ => rfl)
theorem a3_x : ridx_main_v48 (idx_main_v49 (lidx_main_v54 (lidx_main_v59 i k) h)) j = ix2 (i 1) j := funext fun ax => Fin.ext (by match ax with | ⟨0, _⟩ => rfl | ⟨1, _⟩ => rfl)

end attr3

/-- The reference's array for attribute 3, before its final reshape, is every expert on every row: the einsum of the
    first layer multiplies weight by input where the specification multiplies input by weight — the same product. -/
theorem ref3_eq (x3 : (⟨S16384x4, .f32⟩ : BufTy).Contents (Elt Ideal)) (x23 : (⟨S16x128x4, .f32⟩ : BufTy).Contents (Elt Ideal)) (x24 : (⟨S16x128, .f32⟩ : BufTy).Contents (Elt Ideal)) (x25 : (⟨S16x128x128, .f32⟩ : BufTy).Contents (Elt Ideal)) (x26 : (⟨S16x128, .f32⟩ : BufTy).Contents (Elt Ideal)) (x27 : (⟨S16x4x128, .f32⟩ : BufTy).Contents (Elt Ideal)) (x28 : (⟨S16x4, .f32⟩ : BufTy).Contents (Elt Ideal)) :
    val_main_v62 (F := Ideal) x3 x23 x24 x25 x26 x27 x28 = mlpArr (P := 16) (N := 16384) (d := 4) (e := 4) (H := 128) x3 x23 x24 x25 x26 x27 x28 := by
  funext i
  simp only [val_main_v62_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v61_apply, val_main_v60_apply, val_main_call6_v0_apply, val_main_call6_cst_apply, val_main_call7_v0_apply, val_main_call7_cst_apply,
    a3_w3, a3_b3, a3_w2, a3_b2, a3_b1, a3_w1, a3_x,
    Ideal.addf_def, Ideal.maximumf_def, Ideal.ofBits_def]
  refine Eq.trans ?_ (mlpAt_weightFirst _ _ _ _ _ _ _ _).symm
  rfl

/-! ## Attribute 4: `main_v78` (before the final reshape) -/

section attr4
variable (i : S16x16384x1.Idx) (k h : Fin 128) (j : Fin 1)

theorem a4_w3 : ridx_main_v75 i k = ix3 (i 0) (i 2) k := funext fun ax => Fin.ext (by match ax with | ⟨0, _⟩ => rfl | ⟨1, _⟩ => rfl | ⟨2, _⟩ => rfl)
theorem a4_b3 : idx_main_v76 (idx_main_v77 i) = ix2 (i 0) (i 2) := funext fun ax => Fin.ext (by
  match ax with
  | ⟨0, _⟩ => rfl
  | ⟨1, _⟩ => show (0 : ℕ) = (i 2).val; have h : (i 2).val < 1 := (i 2).isLt; omega)
theorem a4_w2 : ridx_main_v70 (lidx_main_v75 i k) h = ix3 (i 0) k h := funext fun ax => Fin.ext (by match ax with | ⟨0, _⟩ => rfl | ⟨1, _⟩ => rfl | ⟨2, _⟩ => rfl)
theorem a4_b2 : idx_main_v71 (idx_main_v72 (lidx_main_v75 i k)) = ix2 (i 0) k := funext fun ax => Fin.ext (by match ax with | ⟨0, _⟩ => rfl | ⟨1, _⟩ => rfl)
theorem a4_b1 : idx_main_v66 (idx_main_v67 (lidx_main_v70 (lidx_main_v75 i k) h)) = ix2 (i 0) h := funext fun ax => Fin.ext (by match ax with | ⟨0, _⟩ => rfl | ⟨1, _⟩ => rfl)
theorem a4_w1 : lidx_main_v64 (idx_main_v65 (lidx_main_v70 (lidx_main_v75 i k) h)) j = ix3 (i 0) h j := funext fun ax => Fin.ext (by match ax with | ⟨0, _⟩ => rfl | ⟨1, _⟩ => rfl | ⟨2, _⟩ => rfl)
theorem a4_x : ridx_main_v64 (idx_main_v65 (lidx_main_v70 (lidx_main_v75 i k) h)) j = ix2 (i 1) j := funext fun ax => Fin.ext (by match ax with | ⟨0, _⟩ => rfl | ⟨1, _⟩ => rfl)

end attr4

/-- The reference's array for attribute 4, before its final reshape, is every expert on every row: the einsum of the
    first layer multiplies weight by input where the specification multiplies input by weight — the same product. -/
theorem ref4_eq (x4 : (⟨S16384x1, .f32⟩ : BufTy).Contents (Elt Ideal)) (x29 : (⟨S16x128x1, .f32⟩ : BufTy).Contents (Elt Ideal)) (x30 : (⟨S16x128, .f32⟩ : BufTy).Contents (Elt Ideal)) (x31 : (⟨S16x128x128, .f32⟩ : BufTy).Contents (Elt Ideal)) (x32 : (⟨S16x128, .f32⟩ : BufTy).Contents (Elt Ideal)) (x33 : (⟨S16x1x128, .f32⟩ : BufTy).Contents (Elt Ideal)) (x34 : (⟨S16x1, .f32⟩ : BufTy).Contents (Elt Ideal)) :
    val_main_v78 (F := Ideal) x4 x29 x30 x31 x32 x33 x34 = mlpArr (P := 16) (N := 16384) (d := 1) (e := 1) (H := 128) x4 x29 x30 x31 x32 x33 x34 := by
  funext i
  simp only [val_main_v78_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v77_apply, val_main_v76_apply, val_main_call8_v0_apply, val_main_call8_cst_apply, val_main_call9_v0_apply, val_main_call9_cst_apply,
    a4_w3, a4_b3, a4_w2, a4_b2, a4_b1, a4_w1, a4_x,
    Ideal.addf_def, Ideal.maximumf_def, Ideal.ofBits_def]
  refine Eq.trans ?_ (mlpAt_weightFirst _ _ _ _ _ _ _ _).symm
  rfl

end Cert.ReferenceIdeal.Spec

end
-- ==== Proof.lean ====
/-
  Five attributes, each passed through sixteen independent three-layer perceptrons ("experts") on the same 16384 rows:
      out[p, r, ·] = W3[p] · relu (W2[p] · relu (W1[p] · x[r] + b1[p]) + b2[p]) + b3[p],
  the sixteen results stacked and recast as one matrix of 262144 rows.

  The kernel program makes one pallas_call per attribute over a grid (expert p, block n of 4096 rows): the point loads
  the block of rows and, through offsets computed from p, expert p's weights and biases, and writes block (p, n) of the
  result; the first two products are taken after a change of float format, which over the extended reals changes
  nothing. The reference computes the same three layers by einsums over all experts at once. Entry by entry both are one
  expression in sums, products and maxima of extended reals; the two sides differ only in the ORDER of the factors in
  the first layer's products (input × weight against weight × input), and multiplication commutes — no cancelling and no
  distributing, so the finiteness of the inputs is never used.

  The frames of the two kernel programs and the reference's run are the generated ones; the kernel's value is read off
  its generated frame (Proof/Payload, Proof/Region0 … Region4, Proof/KernelRun), the reference's off its generated
  per-operation readings (Proof/Reference); Proof/LibExpertMlp holds the specification and the general lemmas.
-/
import proofs.«129764_j16174846837057_2_alg».proof.Defs
import proofs.«129764_j16174846837057_2_alg».proof.Proof.Gen.Kernel
import proofs.«129764_j16174846837057_2_alg».proof.Proof.Gen.Kernel.Skeleton
import proofs.«129764_j16174846837057_2_alg».proof.Proof.Gen.Kernel.Launch
import proofs.«129764_j16174846837057_2_alg».proof.Proof.Gen.Kernel.Points
import proofs.«129764_j16174846837057_2_alg».proof.Proof.Gen.Kernel.Frame
import proofs.«129764_j16174846837057_2_alg».proof.Proof.Gen.KernelIdeal
import proofs.«129764_j16174846837057_2_alg».proof.Proof.Gen.KernelIdeal.Skeleton
import proofs.«129764_j16174846837057_2_alg».proof.Proof.Gen.KernelIdeal.Launch
import proofs.«129764_j16174846837057_2_alg».proof.Proof.Gen.KernelIdeal.Points
import proofs.«129764_j16174846837057_2_alg».proof.Proof.Gen.KernelIdeal.Frame
import proofs.«129764_j16174846837057_2_alg».proof.Proof.Gen.ReferenceIdeal
import proofs.«129764_j16174846837057_2_alg».proof.Proof.Gen.Pre_finite_inputs
import proofs.«129764_j16174846837057_2_alg».proof.Proof.Gen.ReferenceIdeal.Run
import proofs.«129764_j16174846837057_2_alg».proof.Proof.Gen.ReferenceIdeal.Read
import proofs.«129764_j16174846837057_2_alg».proof.Proof.KernelRun
import proofs.«129764_j16174846837057_2_alg».proof.Proof.Reference
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote nothing. -/
theorem preserves : Cert.preserves_Kernel_KernelIdeal := trivial

/-- Both programs end, from memories agreeing on the arguments, with each of the five results at the recast of the
    experts' outputs on every row: the kernel by its run read through the five calls, the reference by its einsums read
    entry by entry. -/
theorem algebraic : Cert.algebraic_KernelIdeal_ReferenceIdeal := by
  intro m ρ m' ρ' _ hagree
  refine ⟨_, _, _, _, _, Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28, a29, a30, a31, a32, a33, a34⟩ := hagree c
  obtain ⟨r0, r1, r2, r3, r4, rest⟩ := h c
  refine ⟨r0.trans ?_, r1.trans ?_, r2.trans ?_, r3.trans ?_, r4.trans ?_, rest⟩
  · rw [a0, a5, a6, a7, a8, a9, a10]
    exact congrArg (fun a => shapeCast Cert.ReferenceIdeal.S262144x3 a _)
      (Cert.ReferenceIdeal.Spec.ref0_eq _ _ _ _ _ _ _)
  · rw [a1, a11, a12, a13, a14, a15, a16]
    exact congrArg (fun a => shapeCast Cert.ReferenceIdeal.S262144x3 a _)
      (Cert.ReferenceIdeal.Spec.ref1_eq _ _ _ _ _ _ _)
  · rw [a2, a17, a18, a19, a20, a21, a22]
    exact congrArg (fun a => shapeCast Cert.ReferenceIdeal.S262144x3 a _)
      (Cert.ReferenceIdeal.Spec.ref2_eq _ _ _ _ _ _ _)
  · rw [a3, a23, a24, a25, a26, a27, a28]
    exact congrArg (fun a => shapeCast Cert.ReferenceIdeal.S262144x4 a _)
      (Cert.ReferenceIdeal.Spec.ref3_eq _ _ _ _ _ _ _)
  · rw [a4, a29, a30, a31, a32, a33, a34]
    exact congrArg (fun a => shapeCast Cert.ReferenceIdeal.S262144x1 a _)
      (Cert.ReferenceIdeal.Spec.ref4_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
